-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S3x64x64 : Shape := ⟨3, ![3, 64, 64]⟩
abbrev S64 : Shape := ⟨1, ![64]⟩
abbrev S3x64x32 : Shape := ⟨3, ![3, 64, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S64 : S_.BroadcastsInDim S64 (![] : Fin 0 → Fin S64.rank)
  reducesTo_S64_S_d0 : S64.ReducesTo [0] S_
  bcast_S_S3x64x32 : S_.BroadcastsInDim S3x64x32 (![] : Fin 0 → Fin S3x64x32.rank)
  reducesTo_S3x64x32_S_d0_1_2 : S3x64x32.ReducesTo [0, 1, 2] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64 .f32) (main_arg6 : FVec F S3x64x32 .f32) (main_arg7 : FVec F S32 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x64x32 .f32 := Host.absf main_arg6
  let main_cst_8 : FVec F S_ .f32 := constant S_ .f32 0x7F800000#32
  let main_v25 : FVec F S3x64x32 .f32 := broadcastInDim S3x64x32 ![] bcast_S_S3x64x32 main_cst_8
  let main_v26 : IVec S3x64x32 1 := cmpf .olt main_v24 main_v25
  let main_c_9 : IVec S_ 1 := constantI S_ 1 1#1
  let main_v27 : IVec S_ 1 := (fun x v => Host.reduce IntOp.andi x v reducesTo_S3x64x32_S_d0_1_2 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S3x64x64 .f32) (main_arg3 : FVec F S64 .f32) (main_arg4 : FVec F S3x64x64 .f32) (main_arg5 : FVec F S64 .f32) (main_arg6 : FVec F S3x64x32 .f32) (main_arg7 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S3x64x64 .f32 := Host.absf main_arg2
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S3x64x64 : Shape := ⟨3, ![3, 64, 64]⟩
abbrev S64 : Shape := ⟨1, ![64]⟩
abbrev S3x64x32 : Shape := ⟨3, ![3, 64, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x192 : Shape := ⟨2, ![50000, 192]⟩
abbrev S192x64 : Shape := ⟨2, ![192, 64]⟩
abbrev S1x64 : Shape := ⟨2, ![1, 64]⟩
abbrev S10000x192 : Shape := ⟨2, ![10000, 192]⟩
abbrev S10000x64 : Shape := ⟨2, ![10000, 64]⟩
abbrev S192x32 : Shape := ⟨2, ![192, 32]⟩
abbrev S1x32 : Shape := ⟨2, ![1, 32]⟩
abbrev S50000x32 : Shape := ⟨2, ![50000, 32]⟩
abbrev S10000x32 : Shape := ⟨2, ![10000, 32]⟩

abbrev nBuf : Space → Nat
  | .hbm => 181
  | .vmem => 18
  | .smem => 0
  | _ => 0

abbrev hbmTy0_0 (i : Nat) : BufTy := match i % 128 with
  | 0 => ⟨S50000x64, .f32⟩
  | 1 => ⟨S2x800000, .i32⟩
  | 2 => ⟨S3x64x64, .f32⟩
  | 3 => ⟨S64, .f32⟩
  | 4 => ⟨S3x64x64, .f32⟩
  | 5 => ⟨S64, .f32⟩
  | 6 => ⟨S3x64x32, .f32⟩
  | 7 => ⟨S32, .f32⟩
  | 8 => ⟨S1x800000, .i32⟩
  | 9 => ⟨S800000, .i32⟩
  | 10 => ⟨S1x800000, .i32⟩
  | 11 => ⟨S800000, .i32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .i1⟩
  | 21 => ⟨S_, .f32⟩
  | 22 => ⟨S50000, .f32⟩
  | 23 => ⟨S50000, .f32⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S1x800000, .i32⟩
  | 50 => ⟨S800000, .i32⟩
  | 51 => ⟨S1x800000, .i32⟩
  | 52 => ⟨S800000, .i32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x64, .f32⟩
  | 62 => ⟨S800000x1, .f32⟩
  | 63 => ⟨S800000x64, .f32⟩
  | 64 => ⟨S800000x64, .f32⟩
  | 65 => ⟨S_, .f32⟩
  | 66 => ⟨S50000x64, .f32⟩
  | 67 => ⟨S800000x1, .i32⟩
  | 68 => ⟨S50000x64, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x64, .f32⟩
  | 78 => ⟨S800000x1, .f32⟩
  | 79 => ⟨S800000x64, .f32⟩
  | 80 => ⟨S800000x64, .f32⟩
  | 81 => ⟨S_, .f32⟩
  | 82 => ⟨S50000x64, .f32⟩
  | 83 => ⟨S800000x1, .i32⟩
  | 84 => ⟨S50000x64, .f32⟩
  | 85 => ⟨S_, .f32⟩
  | 86 => ⟨S50000x64, .f32⟩
  | 87 => ⟨S50000x64, .f32⟩
  | 88 => ⟨S50000x64, .f32⟩
  | 89 => ⟨S50000x192, .f32⟩
  | 90 => ⟨S192x64, .f32⟩
  | 91 => ⟨S1x64, .f32⟩
  | 92 => ⟨S50000x64, .f32⟩
  | 93 => ⟨S1x800000, .i32⟩
  | 94 => ⟨S800000, .i32⟩
  | 95 => ⟨S1x800000, .i32⟩
  | 96 => ⟨S800000, .i32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x64, .f32⟩
  | 106 => ⟨S800000x1, .f32⟩
  | 107 => ⟨S800000x64, .f32⟩
  | 108 => ⟨S800000x64, .f32⟩
  | 109 => ⟨S_, .f32⟩
  | 110 => ⟨S50000x64, .f32⟩
  | 111 => ⟨S800000x1, .i32⟩
  | 112 => ⟨S50000x64, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x64, .f32⟩
  | 122 => ⟨S800000x1, .f32⟩
  | 123 => ⟨S800000x64, .f32⟩
  | 124 => ⟨S800000x64, .f32⟩
  | 125 => ⟨S_, .f32⟩
  | 126 => ⟨S50000x64, .f32⟩
  | 127 => ⟨S800000x1, .i32⟩
  | _ => ⟨S50000x64, .f32⟩

abbrev hbmTy0_1 (i : Nat) : BufTy := match i % 128 with
  | 0 => ⟨S50000x64, .f32⟩
  | 1 => ⟨S_, .f32⟩
  | 2 => ⟨S50000x64, .f32⟩
  | 3 => ⟨S50000x64, .f32⟩
  | 4 => ⟨S50000x64, .f32⟩
  | 5 => ⟨S50000x192, .f32⟩
  | 6 => ⟨S192x64, .f32⟩
  | 7 => ⟨S1x64, .f32⟩
  | 8 => ⟨S50000x64, .f32⟩
  | 9 => ⟨S1x800000, .i32⟩
  | 10 => ⟨S800000, .i32⟩
  | 11 => ⟨S1x800000, .i32⟩
  | 12 => ⟨S800000, .i32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x64, .f32⟩
  | 22 => ⟨S800000x1, .f32⟩
  | 23 => ⟨S800000x64, .f32⟩
  | 24 => ⟨S800000x64, .f32⟩
  | 25 => ⟨S_, .f32⟩
  | 26 => ⟨S50000x64, .f32⟩
  | 27 => ⟨S800000x1, .i32⟩
  | 28 => ⟨S50000x64, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x64, .f32⟩
  | 38 => ⟨S800000x1, .f32⟩
  | 39 => ⟨S800000x64, .f32⟩
  | 40 => ⟨S800000x64, .f32⟩
  | 41 => ⟨S_, .f32⟩
  | 42 => ⟨S50000x64, .f32⟩
  | 43 => ⟨S800000x1, .i32⟩
  | 44 => ⟨S50000x64, .f32⟩
  | 45 => ⟨S_, .f32⟩
  | 46 => ⟨S50000x64, .f32⟩
  | 47 => ⟨S50000x64, .f32⟩
  | 48 => ⟨S50000x64, .f32⟩
  | 49 => ⟨S50000x192, .f32⟩
  | 50 => ⟨S192x32, .f32⟩
  | 51 => ⟨S1x32, .f32⟩
  | 52 => ⟨S50000x32, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S10000x192, .f32⟩
  | .local _ .vmem, ⟨1, _⟩ => ⟨S10000x192, .f32⟩
  | .local _ .vmem, ⟨2, _⟩ => ⟨S192x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x192, .f32⟩
  | .local _ .vmem, ⟨7, _⟩ => ⟨S10000x192, .f32⟩
  | .local _ .vmem, ⟨8, _⟩ => ⟨S192x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x192, .f32⟩
  | .local _ .vmem, ⟨13, _⟩ => ⟨S10000x192, .f32⟩
  | .local _ .vmem, ⟨14, _⟩ => ⟨S192x32, .f32⟩
  | .local _ .vmem, ⟨15, _⟩ => ⟨S1x32, .f32⟩
  | .local _ .vmem, ⟨16, _⟩ => ⟨S10000x32, .f32⟩
  | .local _ .vmem, ⟨17, _⟩ => ⟨S10000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_c_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_14 : Ref sig .tc := ⟨.hbm, 97, rfl⟩
abbrev main_v71 : Ref sig .tc := ⟨.hbm, 98, rfl⟩
abbrev main_v72 : Ref sig .tc := ⟨.hbm, 99, rfl⟩
abbrev main_c_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_16 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_17 : Ref sig .tc := ⟨.hbm, 113, rfl⟩
abbrev main_v84 : Ref sig .tc := ⟨.hbm, 114, rfl⟩
abbrev main_v85 : Ref sig .tc := ⟨.hbm, 115, rfl⟩
abbrev main_c_18 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_19 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_20 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_c_21 : Ref sig .tc := ⟨.hbm, 141, rfl⟩
abbrev main_v108 : Ref sig .tc := ⟨.hbm, 142, rfl⟩
abbrev main_v109 : Ref sig .tc := ⟨.hbm, 143, rfl⟩
abbrev main_c_22 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_23 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_c_24 : Ref sig .tc := ⟨.hbm, 157, rfl⟩
abbrev main_v121 : Ref sig .tc := ⟨.hbm, 158, rfl⟩
abbrev main_v122 : Ref sig .tc := ⟨.hbm, 159, rfl⟩
abbrev main_c_25 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_26 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_27 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S192x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  concatenates_S50000x64_S50000x64_S50000x64_S50000x192_d1 : Shape.Concatenates [S50000x64, S50000x64, S50000x64] S50000x192 1
  shapeCasts_S3x64x64_S192x64 : S3x64x64.ShapeCasts S192x64
  shapeCasts_S64_S1x64 : S64.ShapeCasts S1x64
  inb_S10000x192_S10000x192_0_0 : ∀ a, (![0, 0] : Fin 2 → Nat) a + S10000x192.size a ≤ S10000x192.size a
  h_S10000x192 : 0 < S10000x192.numel
  shapeCasts_S10000x192_S10000x192 : S10000x192.ShapeCasts S10000x192
  bitsLt_bf16_f32 : FTy.bits .bf16 < FTy.bits .f32
  inb_S192x64_S192x64_0_0 : ∀ a, (![0, 0] : Fin 2 → Nat) a + S192x64.size a ≤ S192x64.size a
  h_S192x64 : 0 < S192x64.numel
  shapeCasts_S192x64_S192x64 : S192x64.ShapeCasts S192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  shapeCasts_S3x64x32_S192x32 : S3x64x32.ShapeCasts S192x32
  shapeCasts_S32_S1x32 : S32.ShapeCasts S1x32
  inb_S192x32_S192x32_0_0 : ∀ a, (![0, 0] : Fin 2 → Nat) a + S192x32.size a ≤ S192x32.size a
  h_S192x32 : 0 < S192x32.numel
  shapeCasts_S192x32_S192x32 : S192x32.ShapeCasts S192x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x192_S192x64_S10000x64_1_0_0_1_n_n_wf : DotDims.WF S10000x192 S192x64 S10000x64 [1] [0] [0] [1] [] []
  dot_S10000x192_S192x32_S10000x32_1_0_0_1_n_n_wf : DotDims.WF S10000x192 S192x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x192.size a ≤ S50000x192.size a
  hwx0_0 : ∀ i : grid0.Coords, EltTy.bits .f32 = 32 ∨ (Rect.block (s := S50000x192) S10000x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x64.size a ≤ S192x64.size a
  hwx0_1 : ∀ i : grid0.Coords, EltTy.bits .f32 = 32 ∨ (Rect.block (s := S192x64) S192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x192.size a ≤ S50000x192.size a
  hwx1_0 : ∀ i : grid1.Coords, EltTy.bits .f32 = 32 ∨ (Rect.block (s := S50000x192) S10000x192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S192x64.size a ≤ S192x64.size a
  hwx1_1 : ∀ i : grid1.Coords, EltTy.bits .f32 = 32 ∨ (Rect.block (s := S192x64) S192x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x192.size a ≤ S50000x192.size a
  hwx2_0 : ∀ i : grid2.Coords, EltTy.bits .f32 = 32 ∨ (Rect.block (s := S50000x192) S10000x192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S192x32.size a ≤ S192x32.size a
  hwx2_1 : ∀ i : grid2.Coords, EltTy.bits .f32 = 32 ∨ (Rect.block (s := S192x32) S192x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x32.size a ≤ S50000x32.size a
  hwx2_3 : ∀ i : grid2.Coords, EltTy.bits .f32 = 32 ∨ (Rect.block (s := S50000x32) S10000x32.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x192_S192x64_S10000x64_1_0_0_1_n_n : DotDims S10000x192 S192x64 S10000x64 where
  lhsContracting := [1]
  rhsContracting := [0]
  lhsNonContracting := [0]
  rhsNonContracting := [1]
  lhsBatch := []
  rhsBatch := []
  wf := dot_S10000x192_S192x64_S10000x64_1_0_0_1_n_n_wf
def dot_S10000x192_S192x32_S10000x32_1_0_0_1_n_n : DotDims S10000x192 S192x32 S10000x32 where
  lhsContracting := [1]
  rhsContracting := [0]
  lhsNonContracting := [0]
  rhsNonContracting := [1]
  lhsBatch := []
  rhsBatch := []
  wf := dot_S10000x192_S192x32_S10000x32_1_0_0_1_n_n_wf

abbrev win0_0 : Pipeline.Window sig grid0 :=
  Pipeline.Window.ofSpec (Memref.whole main_v63) S10000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v64) S192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v65) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v66) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v100) S10000x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v101) S192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v102) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v103) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v137) S10000x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v138) S192x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v139) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v140) S10000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S3x64x64 : Shape := ⟨3, ![3, 64, 64]⟩
abbrev S64 : Shape := ⟨1, ![64]⟩
abbrev S3x64x32 : Shape := ⟨3, ![3, 64, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x64x64 : Shape := ⟨3, ![1, 64, 64]⟩
abbrev S64x64 : Shape := ⟨2, ![64, 64]⟩
abbrev S800000x64 : Shape := ⟨2, ![800000, 64]⟩
abbrev S1x64 : Shape := ⟨2, ![1, 64]⟩
abbrev S1x64x32 : Shape := ⟨3, ![1, 64, 32]⟩
abbrev S64x32 : Shape := ⟨2, ![64, 32]⟩
abbrev S50000x32 : Shape := ⟨2, ![50000, 32]⟩
abbrev S1x32 : Shape := ⟨2, ![1, 32]⟩

abbrev nBuf : Space → Nat
  | .hbm => 217
  | .vmem => 0
  | .smem => 0
  | _ => 0

abbrev hbmTy0_0 (i : Nat) : BufTy := match i % 128 with
  | 0 => ⟨S50000x64, .f32⟩
  | 1 => ⟨S2x800000, .i32⟩
  | 2 => ⟨S3x64x64, .f32⟩
  | 3 => ⟨S64, .f32⟩
  | 4 => ⟨S3x64x64, .f32⟩
  | 5 => ⟨S64, .f32⟩
  | 6 => ⟨S3x64x32, .f32⟩
  | 7 => ⟨S32, .f32⟩
  | 8 => ⟨S1x800000, .i32⟩
  | 9 => ⟨S800000, .i32⟩
  | 10 => ⟨S1x800000, .i32⟩
  | 11 => ⟨S800000, .i32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .i1⟩
  | 21 => ⟨S_, .f32⟩
  | 22 => ⟨S50000, .f32⟩
  | 23 => ⟨S50000, .f32⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S1x800000, .i32⟩
  | 50 => ⟨S800000, .i32⟩
  | 51 => ⟨S1x800000, .i32⟩
  | 52 => ⟨S800000, .i32⟩
  | 53 => ⟨S1x64x64, .f32⟩
  | 54 => ⟨S64x64, .f32⟩
  | 55 => ⟨S50000x64, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x64, .f32⟩
  | 65 => ⟨S800000x1, .f32⟩
  | 66 => ⟨S800000x64, .f32⟩
  | 67 => ⟨S800000x64, .f32⟩
  | 68 => ⟨S_, .f32⟩
  | 69 => ⟨S50000x64, .f32⟩
  | 70 => ⟨S800000x1, .i32⟩
  | 71 => ⟨S50000x64, .f32⟩
  | 72 => ⟨S1x64x64, .f32⟩
  | 73 => ⟨S64x64, .f32⟩
  | 74 => ⟨S50000x64, .f32⟩
  | 75 => ⟨S50000x64, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x64, .f32⟩
  | 85 => ⟨S800000x1, .f32⟩
  | 86 => ⟨S800000x64, .f32⟩
  | 87 => ⟨S800000x64, .f32⟩
  | 88 => ⟨S_, .f32⟩
  | 89 => ⟨S50000x64, .f32⟩
  | 90 => ⟨S800000x1, .i32⟩
  | 91 => ⟨S50000x64, .f32⟩
  | 92 => ⟨S_, .f32⟩
  | 93 => ⟨S50000x64, .f32⟩
  | 94 => ⟨S50000x64, .f32⟩
  | 95 => ⟨S50000x64, .f32⟩
  | 96 => ⟨S1x64x64, .f32⟩
  | 97 => ⟨S64x64, .f32⟩
  | 98 => ⟨S50000x64, .f32⟩
  | 99 => ⟨S50000x64, .f32⟩
  | 100 => ⟨S1x64, .f32⟩
  | 101 => ⟨S50000x64, .f32⟩
  | 102 => ⟨S50000x64, .f32⟩
  | 103 => ⟨S_, .f32⟩
  | 104 => ⟨S50000x64, .f32⟩
  | 105 => ⟨S50000x64, .f32⟩
  | 106 => ⟨S1x800000, .i32⟩
  | 107 => ⟨S800000, .i32⟩
  | 108 => ⟨S1x800000, .i32⟩
  | 109 => ⟨S800000, .i32⟩
  | 110 => ⟨S1x64x64, .f32⟩
  | 111 => ⟨S64x64, .f32⟩
  | 112 => ⟨S50000x64, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x64, .f32⟩
  | 122 => ⟨S800000x1, .f32⟩
  | 123 => ⟨S800000x64, .f32⟩
  | 124 => ⟨S800000x64, .f32⟩
  | 125 => ⟨S_, .f32⟩
  | 126 => ⟨S50000x64, .f32⟩
  | 127 => ⟨S800000x1, .i32⟩
  | _ => ⟨S50000x64, .f32⟩

abbrev hbmTy0_1 (i : Nat) : BufTy := match i % 128 with
  | 0 => ⟨S50000x64, .f32⟩
  | 1 => ⟨S1x64x64, .f32⟩
  | 2 => ⟨S64x64, .f32⟩
  | 3 => ⟨S50000x64, .f32⟩
  | 4 => ⟨S50000x64, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x64, .f32⟩
  | 14 => ⟨S800000x1, .f32⟩
  | 15 => ⟨S800000x64, .f32⟩
  | 16 => ⟨S800000x64, .f32⟩
  | 17 => ⟨S_, .f32⟩
  | 18 => ⟨S50000x64, .f32⟩
  | 19 => ⟨S800000x1, .i32⟩
  | 20 => ⟨S50000x64, .f32⟩
  | 21 => ⟨S_, .f32⟩
  | 22 => ⟨S50000x64, .f32⟩
  | 23 => ⟨S50000x64, .f32⟩
  | 24 => ⟨S50000x64, .f32⟩
  | 25 => ⟨S1x64x64, .f32⟩
  | 26 => ⟨S64x64, .f32⟩
  | 27 => ⟨S50000x64, .f32⟩
  | 28 => ⟨S50000x64, .f32⟩
  | 29 => ⟨S1x64, .f32⟩
  | 30 => ⟨S50000x64, .f32⟩
  | 31 => ⟨S50000x64, .f32⟩
  | 32 => ⟨S_, .f32⟩
  | 33 => ⟨S50000x64, .f32⟩
  | 34 => ⟨S50000x64, .f32⟩
  | 35 => ⟨S1x800000, .i32⟩
  | 36 => ⟨S800000, .i32⟩
  | 37 => ⟨S1x800000, .i32⟩
  | 38 => ⟨S800000, .i32⟩
  | 39 => ⟨S1x64x32, .f32⟩
  | 40 => ⟨S64x32, .f32⟩
  | 41 => ⟨S50000x32, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x64, .f32⟩
  | 51 => ⟨S800000x1, .f32⟩
  | 52 => ⟨S800000x64, .f32⟩
  | 53 => ⟨S800000x64, .f32⟩
  | 54 => ⟨S_, .f32⟩
  | 55 => ⟨S50000x64, .f32⟩
  | 56 => ⟨S800000x1, .i32⟩
  | 57 => ⟨S50000x64, .f32⟩
  | 58 => ⟨S1x64x32, .f32⟩
  | 59 => ⟨S64x32, .f32⟩
  | 60 => ⟨S50000x32, .f32⟩
  | 61 => ⟨S50000x32, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x64, .f32⟩
  | 71 => ⟨S800000x1, .f32⟩
  | 72 => ⟨S800000x64, .f32⟩
  | 73 => ⟨S800000x64, .f32⟩
  | 74 => ⟨S_, .f32⟩
  | 75 => ⟨S50000x64, .f32⟩
  | 76 => ⟨S800000x1, .i32⟩
  | 77 => ⟨S50000x64, .f32⟩
  | 78 => ⟨S_, .f32⟩
  | 79 => ⟨S50000x64, .f32⟩
  | 80 => ⟨S50000x64, .f32⟩
  | 81 => ⟨S50000x64, .f32⟩
  | 82 => ⟨S1x64x32, .f32⟩
  | 83 => ⟨S64x32, .f32⟩
  | 84 => ⟨S50000x32, .f32⟩
  | 85 => ⟨S50000x32, .f32⟩
  | 86 => ⟨S1x32, .f32⟩
  | 87 => ⟨S50000x32, .f32⟩
  | 88 => ⟨S50000x32, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_call1_cst : Ref sig .tc := ⟨.hbm, 103, rfl⟩
abbrev main_call1_v0 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_c_14 : Ref sig .tc := ⟨.hbm, 113, rfl⟩
abbrev main_v85 : Ref sig .tc := ⟨.hbm, 114, rfl⟩
abbrev main_v86 : Ref sig .tc := ⟨.hbm, 115, rfl⟩
abbrev main_c_15 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_16 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_c_17 : Ref sig .tc := ⟨.hbm, 133, rfl⟩
abbrev main_v102 : Ref sig .tc := ⟨.hbm, 134, rfl⟩
abbrev main_v103 : Ref sig .tc := ⟨.hbm, 135, rfl⟩
abbrev main_c_18 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_19 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_20 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_call2_cst : Ref sig .tc := ⟨.hbm, 160, rfl⟩
abbrev main_call2_v0 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_c_21 : Ref sig .tc := ⟨.hbm, 170, rfl⟩
abbrev main_v133 : Ref sig .tc := ⟨.hbm, 171, rfl⟩
abbrev main_v134 : Ref sig .tc := ⟨.hbm, 172, rfl⟩
abbrev main_c_22 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_cst_23 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_c_24 : Ref sig .tc := ⟨.hbm, 190, rfl⟩
abbrev main_v150 : Ref sig .tc := ⟨.hbm, 191, rfl⟩
abbrev main_v151 : Ref sig .tc := ⟨.hbm, 192, rfl⟩
abbrev main_c_25 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_cst_26 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_cst_27 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S3x64x64_S1x64x64_0_0_0 : S3x64x64.Slices ![0, 0, 0] S1x64x64
  shapeCasts_S1x64x64_S64x64 : S1x64x64.ShapeCasts S64x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S3x64x64_S1x64x64_1_0_0 : S3x64x64.Slices ![1, 0, 0] S1x64x64
  slices_S3x64x64_S1x64x64_2_0_0 : S3x64x64.Slices ![2, 0, 0] S1x64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S3x64x32_S1x64x32_0_0_0 : S3x64x32.Slices ![0, 0, 0] S1x64x32
  shapeCasts_S1x64x32_S64x32 : S1x64x32.ShapeCasts S64x32
  slices_S3x64x32_S1x64x32_1_0_0 : S3x64x32.Slices ![1, 0, 0] S1x64x32
  slices_S3x64x32_S1x64x32_2_0_0 : S3x64x32.Slices ![2, 0, 0] S1x64x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x32_S50000x32_1_0_0_1_n_n_wf : DotDims.WF S50000x64 S64x32 S50000x32 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf

class Facts : Prop extends Facts₀ where

variable [Facts]
-- ==== Proof.WordLayer0.lean ====
/-
  Layer 0 of the network as one pipelined region: a grid of five points, each taking a block of 10000 rows of the
  concatenated features [10000, 192], the whole weight matrix 192x64 and the bias row 1x64, and leaving the
  block's rows times the weights, the bias added and the rectifier applied, in the output's block of 10000 rows.
  Everything here is stated at a PARAMETER `V`, the buffers' contents when the region is entered: what each window's block
  is at a point, what the body leaves in the output's staging buffer as a function of the three input blocks (the one
  store's payload, covering the buffer), the body's triple, the region's proof data and its body obligation at every point.
  The weight and bias windows keep block (0, 0) at every point, so they are copied in once and found in place afterwards.
-/
import proofs.«119506_j40063454937588_1_alg».proof.Proof.Gen.Kernel.Launch
import proofs.«119506_j40063454937588_1_alg».proof.Proof.Gen.Kernel.Skeleton
import proofs.«119506_j40063454937588_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, copied in there or found in place, for any
    proof data whose array is `V`'s and whose body leaves the block as it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, copied in there or found in place, for any
    proof data whose array is `V`'s and whose body leaves the block as it was. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, copied in there or found in place, for any
    proof data whose array is `V`'s and whose body leaves the block as it was. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S10000x192 := Rect.unit (s := S10000x192) ![0, 0] S10000x192.size inb_S10000x192_S10000x192_0_0
abbrev r0_1 : Rect S192x64 := Rect.unit (s := S192x64) ![0, 0] S192x64.size inb_S192x64_S192x64_0_0
abbrev r0_2 : Rect S1x64 := Rect.unit (s := S1x64) ![0, 0] S1x64.size inb_S1x64_S1x64_0_0
abbrev r0_3 : Rect S10000x64 := Rect.unit (s := S10000x64) ![0, 0] S10000x64.size inb_S10000x64_S10000x64_0_0

/-! ## What the body leaves in the output's buffer -/

/-- The output's staging buffer after the body, from the three input blocks: the one store's payload over the whole buffer. -/
def out0_3 (x0 : Vec F S10000x192 .f32) (x1 : Vec F S192x64 .f32) (x2 : Vec F S1x64 .f32) : Vec F S10000x64 .f32 :=
  View.canon [⟨r0_3, k0_pay1 (View.ld x0 r0_0) (View.ld x1 r0_1) (View.ld x2 r0_2)⟩]

/-- The one store covers the buffer. -/
theorem cover0_3 (p0 : Vec F S10000x64 .f32) (y : S10000x64.Idx) :
    ∃ pc ∈ ([⟨r0_3, p0⟩] : List (View.Piece (Elt F) S10000x64 .f32)), y ∈ pc.1.set :=
  View.cover_of_tiled [⟨r0_3, p0⟩] S10000x64.size (by rfl) y

/-! ## The body's triple -/

set_option maxHeartbeats 1000000 in
/-- The body on whole staging buffers, the inputs' at contents `x0 x1 x2` and the output's at anything, runs to the
    continuation holding the inputs' as they were and the output's at `out0_3` of them. (The body also loads the output's
    buffer before storing into it; the loaded value is not used.) -/
theorem sound_kernel0 (c : Dev nD) (E : Set ℕ) (i : grid0.Coords) (arg1 : Memref sig .tc .vmem S10000x192 .f32) (harg1 : arg1.IsWhole)
    (arg2 : Memref sig .tc .vmem S192x64 .f32) (harg2 : arg2.IsWhole) (arg3 : Memref sig .tc .vmem S1x64 .f32) (harg3 : arg3.IsWhole)
    (arg4 : Memref sig .tc .vmem S10000x64 .f32) (harg4 : arg4.IsWhole)
    (x0 : Vec F S10000x192 .f32) (x1 : Vec F S192x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_bias_relu_kernel i arg1 harg1 arg2 harg2 arg3 harg3 arg4 harg4) K := by
  simp only [cc0__matmul_bias_relu_kernel_eq_skeleton]; unfold cc0__matmul_bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of the region on core `c`: the arrays as the region finds them; after the body at point `t` each
    input's buffer at its block and the output's at `out0_3` of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the core's dues
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Layers

end
-- ==== Proof.WordLayer1.lean ====
/-
  Layer 1 of the network as one pipelined region: a grid of five points, each taking a block of 10000 rows of the
  concatenated features [10000, 192], the whole weight matrix 192x64 and the bias row 1x64, and leaving the
  block's rows times the weights, the bias added and the rectifier applied, in the output's block of 10000 rows.
  Everything here is stated at a PARAMETER `V`, the buffers' contents when the region is entered: what each window's block
  is at a point, what the body leaves in the output's staging buffer as a function of the three input blocks (the one
  store's payload, covering the buffer), the body's triple, the region's proof data and its body obligation at every point.
  The weight and bias windows keep block (0, 0) at every point, so they are copied in once and found in place afterwards.
-/
import proofs.«119506_j40063454937588_1_alg».proof.Proof.Gen.Kernel.Launch
import proofs.«119506_j40063454937588_1_alg».proof.Proof.Gen.Kernel.Skeleton
import proofs.«119506_j40063454937588_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, copied in there or found in place, for any
    proof data whose array is `V`'s and whose body leaves the block as it was. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, copied in there or found in place, for any
    proof data whose array is `V`'s and whose body leaves the block as it was. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, copied in there or found in place, for any
    proof data whose array is `V`'s and whose body leaves the block as it was. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S10000x192 := Rect.unit (s := S10000x192) ![0, 0] S10000x192.size inb_S10000x192_S10000x192_0_0
abbrev r1_1 : Rect S192x64 := Rect.unit (s := S192x64) ![0, 0] S192x64.size inb_S192x64_S192x64_0_0
abbrev r1_2 : Rect S1x64 := Rect.unit (s := S1x64) ![0, 0] S1x64.size inb_S1x64_S1x64_0_0
abbrev r1_3 : Rect S10000x64 := Rect.unit (s := S10000x64) ![0, 0] S10000x64.size inb_S10000x64_S10000x64_0_0

/-! ## What the body leaves in the output's buffer -/

/-- The output's staging buffer after the body, from the three input blocks: the one store's payload over the whole buffer. -/
def out1_3 (x0 : Vec F S10000x192 .f32) (x1 : Vec F S192x64 .f32) (x2 : Vec F S1x64 .f32) : Vec F S10000x64 .f32 :=
  View.canon [⟨r1_3, k1_pay1 (View.ld x0 r1_0) (View.ld x1 r1_1) (View.ld x2 r1_2)⟩]

/-- The one store covers the buffer. -/
theorem cover1_3 (p0 : Vec F S10000x64 .f32) (y : S10000x64.Idx) :
    ∃ pc ∈ ([⟨r1_3, p0⟩] : List (View.Piece (Elt F) S10000x64 .f32)), y ∈ pc.1.set :=
  View.cover_of_tiled [⟨r1_3, p0⟩] S10000x64.size (by rfl) y

/-! ## The body's triple -/

set_option maxHeartbeats 1000000 in
/-- The body on whole staging buffers, the inputs' at contents `x0 x1 x2` and the output's at anything, runs to the
    continuation holding the inputs' as they were and the output's at `out1_3` of them. (The body also loads the output's
    buffer before storing into it; the loaded value is not used.) -/
theorem sound_kernel1 (c : Dev nD) (E : Set ℕ) (i : grid1.Coords) (arg1 : Memref sig .tc .vmem S10000x192 .f32) (harg1 : arg1.IsWhole)
    (arg2 : Memref sig .tc .vmem S192x64 .f32) (harg2 : arg2.IsWhole) (arg3 : Memref sig .tc .vmem S1x64 .f32) (harg3 : arg3.IsWhole)
    (arg4 : Memref sig .tc .vmem S10000x64 .f32) (harg4 : arg4.IsWhole)
    (x0 : Vec F S10000x192 .f32) (x1 : Vec F S192x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__matmul_bias_relu_kernel i arg1 harg1 arg2 harg2 arg3 harg3 arg4 harg4) K := by
  simp only [cc1__matmul_bias_relu_kernel_eq_skeleton]; unfold cc1__matmul_bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- The proof data of the region on core `c`: the arrays as the region finds them; after the body at point `t` each
    input's buffer at its block and the output's at `out1_3` of the input blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and the core's dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Layers

end
-- ==== Proof.WordLayer2.lean ====
/-
  Layer 2 of the network as one pipelined region: a grid of five points, each taking a block of 10000 rows of the
  concatenated features [10000, 192], the whole weight matrix 192x32 and the bias row 1x32, and leaving the
  block's rows times the weights, the bias added, no rectifier, in the output's block of 10000 rows.
  Everything here is stated at a PARAMETER `V`, the buffers' contents when the region is entered: what each window's block
  is at a point, what the body leaves in the output's staging buffer as a function of the three input blocks (the one
  store's payload, covering the buffer), the body's triple, the region's proof data and its body obligation at every point.
  The weight and bias windows keep block (0, 0) at every point, so they are copied in once and found in place afterwards.
-/
import proofs.«119506_j40063454937588_1_alg».proof.Proof.Gen.Kernel.Launch
import proofs.«119506_j40063454937588_1_alg».proof.Proof.Gen.Kernel.Skeleton
import proofs.«119506_j40063454937588_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, copied in there or found in place, for any
    proof data whose array is `V`'s and whose body leaves the block as it was. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, copied in there or found in place, for any
    proof data whose array is `V`'s and whose body leaves the block as it was. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, copied in there or found in place, for any
    proof data whose array is `V`'s and whose body leaves the block as it was. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S10000x192 := Rect.unit (s := S10000x192) ![0, 0] S10000x192.size inb_S10000x192_S10000x192_0_0
abbrev r2_1 : Rect S192x32 := Rect.unit (s := S192x32) ![0, 0] S192x32.size inb_S192x32_S192x32_0_0
abbrev r2_2 : Rect S1x32 := Rect.unit (s := S1x32) ![0, 0] S1x32.size inb_S1x32_S1x32_0_0
abbrev r2_3 : Rect S10000x32 := Rect.unit (s := S10000x32) ![0, 0] S10000x32.size inb_S10000x32_S10000x32_0_0

/-! ## What the body leaves in the output's buffer -/

/-- The output's staging buffer after the body, from the three input blocks: the one store's payload over the whole buffer. -/
def out2_3 (x0 : Vec F S10000x192 .f32) (x1 : Vec F S192x32 .f32) (x2 : Vec F S1x32 .f32) : Vec F S10000x32 .f32 :=
  View.canon [⟨r2_3, k2_pay1 (View.ld x0 r2_0) (View.ld x1 r2_1) (View.ld x2 r2_2)⟩]

/-- The one store covers the buffer. -/
theorem cover2_3 (p0 : Vec F S10000x32 .f32) (y : S10000x32.Idx) :
    ∃ pc ∈ ([⟨r2_3, p0⟩] : List (View.Piece (Elt F) S10000x32 .f32)), y ∈ pc.1.set :=
  View.cover_of_tiled [⟨r2_3, p0⟩] S10000x32.size (by rfl) y

/-! ## The body's triple -/

set_option maxHeartbeats 1000000 in
/-- The body on whole staging buffers, the inputs' at contents `x0 x1 x2` and the output's at anything, runs to the
    continuation holding the inputs' as they were and the output's at `out2_3` of them. (The body also loads the output's
    buffer before storing into it; the loaded value is not used.) -/
theorem sound_kernel2 (c : Dev nD) (E : Set ℕ) (i : grid2.Coords) (arg1 : Memref sig .tc .vmem S10000x192 .f32) (harg1 : arg1.IsWhole)
    (arg2 : Memref sig .tc .vmem S192x32 .f32) (harg2 : arg2.IsWhole) (arg3 : Memref sig .tc .vmem S1x32 .f32) (harg3 : arg3.IsWhole)
    (arg4 : Memref sig .tc .vmem S10000x32 .f32) (harg4 : arg4.IsWhole)
    (x0 : Vec F S10000x192 .f32) (x1 : Vec F S192x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__matmul_bias_relu_kernel i arg1 harg1 arg2 harg2 arg3 harg3 arg4 harg4) K := by
  simp only [cc2__matmul_bias_relu_kernel_eq_skeleton]; unfold cc2__matmul_bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- The proof data of the region on core `c`: the arrays as the region finds them; after the body at point `t` each
    input's buffer at its block and the output's at `out2_3` of the input blocks; the invariant is the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and the core's dues
    pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Layers

end
-- ==== Proof.WordRun.lean ====
/-
  The whole program's run, from the launch to the return: three stretches of host operations (the edge weights and the first
  layer's concatenated features), the first layer's region, a stretch (the second layer's features), the second layer's
  region, a stretch, the third layer's region. The buffers' contents at each boundary are a fold from the launch memory —
  a stretch's operations applied one after another; at a region's exit its output array at what the five write-backs leave
  and every other buffer as entered. The run's post holds every unscoped buffer at the last boundary's contents; no
  stretch and no region writes an argument array, so each argument reads back as launched.
-/
import proofs.«119506_j40063454937588_1_alg».proof.Proof.WordLayer0
import proofs.«119506_j40063454937588_1_alg».proof.Proof.WordLayer1
import proofs.«119506_j40063454937588_1_alg».proof.Proof.WordLayer2
import proofs.«119506_j40063454937588_1_alg».proof.Proof.Gen.Kernel.Regions

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev Bd0 : Dev nD → Valuation τ sig (Elt F) := fun c b => (s₀ m ρ).mem ((c : Dev nD), b)
/-- After the first stretch (the degrees and their inverse square roots). -/
abbrev Bd1 : Dev nD → Valuation τ sig (Elt F) := fun c => StableHlo.after hostOps0 (Bd0 m ρ c)
/-- After the second stretch (the zero-degree guard). -/
abbrev Bd2 : Dev nD → Valuation τ sig (Elt F) := fun c => StableHlo.after hostOps0_1 (Bd1 m ρ c)
/-- After the third stretch (the edge weights, the first layer's features): layer 0's entry. -/
abbrev Bd3 : Dev nD → Valuation τ sig (Elt F) := fun c => StableHlo.after hostOps0_2 (Bd2 m ρ c)
abbrev At3 : (c : Dev nD) → (b : Ref sig .tc) → Buf (Elt F) ((c : Thread nD τ).loc b) := fun c b => Bd3 m ρ c b

/-- At layer 0's exit: its arrays at what the region leaves (the inputs as entered, the output's write-backs folded), every
    other buffer as entered. -/
def Bd4 (c : Dev nD) : Valuation τ sig (Elt F) :=
  Pipeline.withArrays spec0 c (Bd3 m ρ c) fun w => (dat0 (At3 m ρ) c).arrAt w cfg0.N
theorem Bd4_arr (c : Dev nD) (w : Fin cfg0.W) :
    Bd4 m ρ c (Proc.devRef .tc (Pipeline.arrRef spec0 w)) = (dat0 (At3 m ρ) c).arrAt w cfg0.N := by
  unfold Bd4; exact Pipeline.withArrays_arr spec0 launch0.win.arr_inj c _ _ w
theorem Bd4_of_ne (c : Dev nD) (b : Ref sig .tc) (hb : ∀ w, Pipeline.arrRef spec0 w ≠ b) :
    Bd4 m ρ c (Proc.devRef .tc b) = Bd3 m ρ c (Proc.devRef .tc b) := by
  unfold Bd4; exact Pipeline.withArrays_of_ne spec0 c _ _ b hb
/-- The same read at the TensorCore's references. -/
abbrev At4 : (c : Dev nD) → (b : Ref sig .tc) → Buf (Elt F) ((c : Thread nD τ).loc b) := fun c b => Bd4 m ρ c b
theorem hF0 (c : Dev nD) (w : Fin cfg0.W) : (dat0 (At3 m ρ) c).arrAt w cfg0.N = At4 m ρ c (Pipeline.arrRef spec0 w) :=
  (Bd4_arr m ρ c w).symm
theorem hrest0 (c : Dev nD) : ∀ b, b ∉ Finset.univ.image (Pipeline.arrRef spec0) → At4 m ρ c b = At3 m ρ c b :=
  fun b hb => Bd4_of_ne m ρ c b fun w e => hb (Finset.mem_image.mpr ⟨w, Finset.mem_univ _, e⟩)

/-- After the stretch between layers 0 and 1: layer 1's entry. -/
abbrev Bd5 : Dev nD → Valuation τ sig (Elt F) := fun c => StableHlo.after hostOps1 (Bd4 m ρ c)
abbrev At5 : (c : Dev nD) → (b : Ref sig .tc) → Buf (Elt F) ((c : Thread nD τ).loc b) := fun c b => Bd5 m ρ c b

/-- At layer 1's exit: its arrays at what the region leaves (the inputs as entered, the output's write-backs folded), every
    other buffer as entered. -/
def Bd6 (c : Dev nD) : Valuation τ sig (Elt F) :=
  Pipeline.withArrays spec1 c (Bd5 m ρ c) fun w => (dat1 (At5 m ρ) c).arrAt w cfg1.N
theorem Bd6_arr (c : Dev nD) (w : Fin cfg1.W) :
    Bd6 m ρ c (Proc.devRef .tc (Pipeline.arrRef spec1 w)) = (dat1 (At5 m ρ) c).arrAt w cfg1.N := by
  unfold Bd6; exact Pipeline.withArrays_arr spec1 launch1.win.arr_inj c _ _ w
theorem Bd6_of_ne (c : Dev nD) (b : Ref sig .tc) (hb : ∀ w, Pipeline.arrRef spec1 w ≠ b) :
    Bd6 m ρ c (Proc.devRef .tc b) = Bd5 m ρ c (Proc.devRef .tc b) := by
  unfold Bd6; exact Pipeline.withArrays_of_ne spec1 c _ _ b hb
/-- The same read at the TensorCore's references. -/
abbrev At6 : (c : Dev nD) → (b : Ref sig .tc) → Buf (Elt F) ((c : Thread nD τ).loc b) := fun c b => Bd6 m ρ c b
theorem hF1 (c : Dev nD) (w : Fin cfg1.W) : (dat1 (At5 m ρ) c).arrAt w cfg1.N = At6 m ρ c (Pipeline.arrRef spec1 w) :=
  (Bd6_arr m ρ c w).symm
theorem hrest1 (c : Dev nD) : ∀ b, b ∉ Finset.univ.image (Pipeline.arrRef spec1) → At6 m ρ c b = At5 m ρ c b :=
  fun b hb => Bd6_of_ne m ρ c b fun w e => hb (Finset.mem_image.mpr ⟨w, Finset.mem_univ _, e⟩)

/-- After the stretch between layers 1 and 2: layer 2's entry. -/
abbrev Bd7 : Dev nD → Valuation τ sig (Elt F) := fun c => StableHlo.after hostOps2 (Bd6 m ρ c)
abbrev At7 : (c : Dev nD) → (b : Ref sig .tc) → Buf (Elt F) ((c : Thread nD τ).loc b) := fun c b => Bd7 m ρ c b

/-- At layer 2's exit: its arrays at what the region leaves (the inputs as entered, the output's write-backs folded), every
    other buffer as entered. -/
def Bd8 (c : Dev nD) : Valuation τ sig (Elt F) :=
  Pipeline.withArrays spec2 c (Bd7 m ρ c) fun w => (dat2 (At7 m ρ) c).arrAt w cfg2.N
theorem Bd8_arr (c : Dev nD) (w : Fin cfg2.W) :
    Bd8 m ρ c (Proc.devRef .tc (Pipeline.arrRef spec2 w)) = (dat2 (At7 m ρ) c).arrAt w cfg2.N := by
  unfold Bd8; exact Pipeline.withArrays_arr spec2 launch2.win.arr_inj c _ _ w
theorem Bd8_of_ne (c : Dev nD) (b : Ref sig .tc) (hb : ∀ w, Pipeline.arrRef spec2 w ≠ b) :
    Bd8 m ρ c (Proc.devRef .tc b) = Bd7 m ρ c (Proc.devRef .tc b) := by
  unfold Bd8; exact Pipeline.withArrays_of_ne spec2 c _ _ b hb
/-- The same read at the TensorCore's references. -/
abbrev At8 : (c : Dev nD) → (b : Ref sig .tc) → Buf (Elt F) ((c : Thread nD τ).loc b) := fun c b => Bd8 m ρ c b
theorem hF2 (c : Dev nD) (w : Fin cfg2.W) : (dat2 (At7 m ρ) c).arrAt w cfg2.N = At8 m ρ c (Pipeline.arrRef spec2 w) :=
  (Bd8_arr m ρ c w).symm
theorem hrest2 (c : Dev nD) : ∀ b, b ∉ Finset.univ.image (Pipeline.arrRef spec2) → At8 m ρ c b = At7 m ρ c b :=
  fun b hb => Bd8_of_ne m ρ c b fun w e => hb (Finset.mem_image.mpr ⟨w, Finset.mem_univ _, e⟩)

/-! ## A buffer nothing writes ends as launched -/

/-- A reference that no stretch writes and that is no region's array holds, at the last boundary, its launch contents. -/
theorem Bd8_kept (c : Dev nD) (r : Ref sig .tc)
    (h0 : r ∉ hostOps0_W) (h1 : r ∉ hostOps0_1_W) (h2 : r ∉ hostOps0_2_W) (h3 : ∀ w, Pipeline.arrRef spec0 w ≠ r)
    (h4 : r ∉ hostOps1_W) (h5 : ∀ w, Pipeline.arrRef spec1 w ≠ r) (h6 : r ∉ hostOps2_W) (h7 : ∀ w, Pipeline.arrRef spec2 w ≠ r) :
    Bd8 m ρ c (Proc.devRef .tc r) = m ((c : Thread nD τ).loc r) :=
  calc Bd8 m ρ c (Proc.devRef .tc r)
    _ = Bd7 m ρ c (Proc.devRef .tc r) := Bd8_of_ne m ρ c r h7
    _ = Bd6 m ρ c (Proc.devRef .tc r) := StableHlo.after_of_writes_sub hostOps2 _ hostOps2_writes h6
    _ = Bd5 m ρ c (Proc.devRef .tc r) := Bd6_of_ne m ρ c r h5
    _ = Bd4 m ρ c (Proc.devRef .tc r) := StableHlo.after_of_writes_sub hostOps1 _ hostOps1_writes h4
    _ = Bd3 m ρ c (Proc.devRef .tc r) := Bd4_of_ne m ρ c r h3
    _ = Bd2 m ρ c (Proc.devRef .tc r) := StableHlo.after_of_writes_sub hostOps0_2 _ hostOps0_2_writes h2
    _ = Bd1 m ρ c (Proc.devRef .tc r) := StableHlo.after_of_writes_sub hostOps0_1 _ hostOps0_1_writes h1
    _ = Bd0 m ρ c (Proc.devRef .tc r) := StableHlo.after_of_writes_sub hostOps0 _ hostOps0_writes h0
    _ = m ((c : Thread nD τ).loc r) := rfl

theorem Bd8_main_arg0 (c : Dev nD) : Bd8 m ρ c (Proc.devRef .tc main_arg0) = m ((c : Thread nD τ).loc main_arg0) :=
  Bd8_kept m ρ c main_arg0 (by decide) (by decide) (by decide) (by decide) (by decide) (by decide) (by decide) (by decide)
theorem Bd8_main_arg1 (c : Dev nD) : Bd8 m ρ c (Proc.devRef .tc main_arg1) = m ((c : Thread nD τ).loc main_arg1) :=
  Bd8_kept m ρ c main_arg1 (by decide) (by decide) (by decide) (by decide) (by decide) (by decide) (by decide) (by decide)
theorem Bd8_main_arg2 (c : Dev nD) : Bd8 m ρ c (Proc.devRef .tc main_arg2) = m ((c : Thread nD τ).loc main_arg2) :=
  Bd8_kept m ρ c main_arg2 (by decide) (by decide) (by decide) (by decide) (by decide) (by decide) (by decide) (by decide)
theorem Bd8_main_arg3 (c : Dev nD) : Bd8 m ρ c (Proc.devRef .tc main_arg3) = m ((c : Thread nD τ).loc main_arg3) :=
  Bd8_kept m ρ c main_arg3 (by decide) (by decide) (by decide) (by decide) (by decide) (by decide) (by decide) (by decide)
theorem Bd8_main_arg4 (c : Dev nD) : Bd8 m ρ c (Proc.devRef .tc main_arg4) = m ((c : Thread nD τ).loc main_arg4) :=
  Bd8_kept m ρ c main_arg4 (by decide) (by decide) (by decide) (by decide) (by decide) (by decide) (by decide) (by decide)
theorem Bd8_main_arg5 (c : Dev nD) : Bd8 m ρ c (Proc.devRef .tc main_arg5) = m ((c : Thread nD τ).loc main_arg5) :=
  Bd8_kept m ρ c main_arg5 (by decide) (by decide) (by decide) (by decide) (by decide) (by decide) (by decide) (by decide)
theorem Bd8_main_arg6 (c : Dev nD) : Bd8 m ρ c (Proc.devRef .tc main_arg6) = m ((c : Thread nD τ).loc main_arg6) :=
  Bd8_kept m ρ c main_arg6 (by decide) (by decide) (by decide) (by decide) (by decide) (by decide) (by decide) (by decide)
theorem Bd8_main_arg7 (c : Dev nD) : Bd8 m ρ c (Proc.devRef .tc main_arg7) = m ((c : Thread nD τ).loc main_arg7) :=
  Bd8_kept m ρ c main_arg7 (by decide) (by decide) (by decide) (by decide) (by decide) (by decide) (by decide) (by decide)

/-! ## The proof data family and the thread state -/

/-- Every region's proof data, each at its region's entry contents. -/
def pdats : (p : Fin 3) → (c : Dev nD) → Dat τ (Elt F) Unit ℕ (UR sig nD τ) ℕ (Pipeline.pin (pcfgs (F := F)) Gen.adm p) c
  | ⟨0, _⟩ => fun c => dat0 (At3 m ρ) c
  | ⟨1, _⟩ => fun c => dat1 (At5 m ρ) c
  | ⟨2, _⟩ => fun c => dat2 (At7 m ρ) c
abbrev 𝒱n : Variants := Variants.none
/-- No core owes another anything: no level is assigned. -/
abbrev lvs : GSem nD τ sig → Finset Unit := fun _ => ∅
abbrev lvl : GSem nD τ sig → Unit → ℕ := fun _ _ => 0
/-- What rides beside the buffers through every segment: the core's generator register at some state and its dues, at nothing. -/
abbrev rest (c : Dev nD) : sProp 𝕄 := iprop((∃ r, prngReg c r) ∗ ∃ W, owes (c : Thread nD τ) (0 : CellTallies nD τ sig Unit) W)
/-- A host stretch as a segment from the contents `W`, `rest` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n lvs lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev lastState (c : Dev nD) : sProp 𝕄 := iprop(StableHlo.held (c : Thread nD τ) (Pipeline.ucRefs τ sig) (Bd8 m ρ c) ∗ ∃ r, prngReg c r)

/-! ## The regions as segments -/

set_option backward.isDefEq.respectTransparency.types false in
/-- Layer 0's region over the thread state: entered with every unscoped buffer at `Bd3`, left with them at `Bd4`. Its
    arrays are split out of the unscoped buffers at entry and put back, the output's at what the write-backs leave, at exit;
    the generator register goes into the region's invariant and comes back; nothing is owed; the kernel has no semaphore
    of its own. -/
def reg0 : Pipeline.RegionSeg (pcfgs (F := F)) Gen.adm (pdats m ρ) () defs₀ 𝒱n lvs lvl 0 where
  win := launch0.win.to₀
  block_pos := launch0.block_pos
  stage_whole := launch0.stage_whole
  K := PEmpty
  osem k := k.elim
  ho := Pipeline.OwnSemFacts.none _
  hbody c := (body_obligation0 (At3 m ρ) c).loose
  hwaits := Pipeline.hwaits_of_owed_zero _ _ _ _ lvs lvl 0 fun _ _ => rfl
  pre c := iprop(StableHlo.held (c : Thread nD τ) (Pipeline.ucRefs τ sig) (Bd3 m ρ c) ∗ rest c)
  post c := iprop(StableHlo.held (c : Thread nD τ) (Pipeline.ucRefs τ sig) (Bd4 m ρ c) ∗ rest c)
  X c := iprop(∃ r, prngReg c r)
  Y c := iprop(∃ r, prngReg c r)
  Z c := Pipeline.unscopedRest (Ix := Unit) (Name := ℕ) (U := UR sig nD τ) (Lvl := ℕ) spec0 c (At3 m ρ c)
  hentry c := by
    rw [Pipeline.ownSems0_none]
    have hsplit := Pipeline.arrays_of_unscopedBufs (p := 0) (pcfgs (F := F)) Gen.adm (pdats m ρ) launch0.win launch0.arr_whole c
      ((pdats m ρ 0 c).share_full fun _ => rfl) (At3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m ρ) ((pdats m ρ 0 c).share_full fun _ => rfl)
      (At3 m ρ c) (At4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 1's region over the thread state: entered with every unscoped buffer at `Bd5`, left with them at `Bd6`. Its
    arrays are split out of the unscoped buffers at entry and put back, the output's at what the write-backs leave, at exit;
    the generator register goes into the region's invariant and comes back; nothing is owed; the kernel has no semaphore
    of its own. -/
def reg1 : Pipeline.RegionSeg (pcfgs (F := F)) Gen.adm (pdats m ρ) () defs₀ 𝒱n lvs lvl 1 where
  win := launch1.win.to₀
  block_pos := launch1.block_pos
  stage_whole := launch1.stage_whole
  K := PEmpty
  osem k := k.elim
  ho := Pipeline.OwnSemFacts.none _
  hbody c := (body_obligation1 (At5 m ρ) c).loose
  hwaits := Pipeline.hwaits_of_owed_zero _ _ _ _ lvs lvl 1 fun _ _ => rfl
  pre c := iprop(StableHlo.held (c : Thread nD τ) (Pipeline.ucRefs τ sig) (Bd5 m ρ c) ∗ rest c)
  post c := iprop(StableHlo.held (c : Thread nD τ) (Pipeline.ucRefs τ sig) (Bd6 m ρ c) ∗ rest c)
  X c := iprop(∃ r, prngReg c r)
  Y c := iprop(∃ r, prngReg c r)
  Z c := Pipeline.unscopedRest (Ix := Unit) (Name := ℕ) (U := UR sig nD τ) (Lvl := ℕ) spec1 c (At5 m ρ c)
  hentry c := by
    rw [Pipeline.ownSems0_none]
    have hsplit := Pipeline.arrays_of_unscopedBufs (p := 1) (pcfgs (F := F)) Gen.adm (pdats m ρ) launch1.win launch1.arr_whole c
      ((pdats m ρ 1 c).share_full fun _ => rfl) (At5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m ρ) ((pdats m ρ 1 c).share_full fun _ => rfl)
      (At5 m ρ c) (At6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region over the thread state: entered with every unscoped buffer at `Bd7`, left with them at `Bd8`. Its
    arrays are split out of the unscoped buffers at entry and put back, the output's at what the write-backs leave, at exit;
    the generator register goes into the region's invariant and comes back; nothing is owed; the kernel has no semaphore
    of its own. -/
def reg2 : Pipeline.RegionSeg (pcfgs (F := F)) Gen.adm (pdats m ρ) () defs₀ 𝒱n lvs lvl 2 where
  win := launch2.win.to₀
  block_pos := launch2.block_pos
  stage_whole := launch2.stage_whole
  K := PEmpty
  osem k := k.elim
  ho := Pipeline.OwnSemFacts.none _
  hbody c := (body_obligation2 (At7 m ρ) c).loose
  hwaits := Pipeline.hwaits_of_owed_zero _ _ _ _ lvs lvl 2 fun _ _ => rfl
  pre c := iprop(StableHlo.held (c : Thread nD τ) (Pipeline.ucRefs τ sig) (Bd7 m ρ c) ∗ rest c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (At7 m ρ c)
  hentry c := by
    rw [Pipeline.ownSems0_none]
    have hsplit := Pipeline.arrays_of_unscopedBufs (p := 2) (pcfgs (F := F)) Gen.adm (pdats m ρ) launch2.win launch2.arr_whole c
      ((pdats m ρ 2 c).share_full fun _ => rfl) (At7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m ρ) ((pdats m ρ 2 c).share_full fun _ => rfl)
      (At7 m ρ c) (At8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order. -/
abbrev items : List (Pipeline.Seg (pcfgs (F := F)) Gen.adm (pdats m ρ) () defs₀ 𝒱n lvs lvl) :=
  [ .host (hseg hostOps0 hostOps0_sub hostOps0_fresh (Bd0 m ρ)),
    .host (hseg hostOps0_1 hostOps0_1_sub hostOps0_1_fresh (Bd1 m ρ)),
    .host (hseg hostOps0_2 hostOps0_2_sub hostOps0_2_fresh (Bd2 m ρ)),
    .region (reg0 m ρ),
    .host (hseg hostOps1 hostOps1_sub hostOps1_fresh (Bd4 m ρ)),
    .region (reg1 m ρ),
    .host (hseg hostOps2 hostOps2_sub hostOps2_fresh (Bd6 m ρ)),
    .region (reg2 m ρ) ]
/-- @main is the run of the segments. -/
theorem main_items (c : Dev nD) : main (F := F) c = Pipeline.Seg.run (items m ρ) := (main_chain c).trans (by chain_rfl)

set_option backward.isDefEq.respectTransparency.types false in
/-- THE RUN: from any memory with zero counters, every weakly fair execution of @main terminates, nothing faulting, and
    every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd8 m ρ c b) :=
  Pipeline.θ_run_regions_kit (pcfgs (F := F)) Gen.adm (pdats m ρ) () cellOf_inj emb₁ defs₀ 𝒱n lvs lvl m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ rest c)) (Tₙ := lastState m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach lvs lvl fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd8 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd8 m ρ c) s')
      isplitl [Hh] <;> iassumption)
    (hQ := fun s h => h)

/-- THE FRAME: the run terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (Bd8_main_arg0 m ρ c),
     (h c _ (mem_uc main_arg1 (by decide))).trans (Bd8_main_arg1 m ρ c),
     (h c _ (mem_uc main_arg2 (by decide))).trans (Bd8_main_arg2 m ρ c),
     (h c _ (mem_uc main_arg3 (by decide))).trans (Bd8_main_arg3 m ρ c),
     (h c _ (mem_uc main_arg4 (by decide))).trans (Bd8_main_arg4 m ρ c),
     (h c _ (mem_uc main_arg5 (by decide))).trans (Bd8_main_arg5 m ρ c),
     (h c _ (mem_uc main_arg6 (by decide))).trans (Bd8_main_arg6 m ρ c),
     (h c _ (mem_uc main_arg7 (by decide))).trans (Bd8_main_arg7 m ρ c)⟩) (run_all m ρ)

end Cert.Kernel.Layers

end
-- ==== Proof.IdealLayer0.lean ====
/-
  Layer 0 of the network as one pipelined region: a grid of five points, each taking a block of 10000 rows of the
  concatenated features [10000, 192], the whole weight matrix 192x64 and the bias row 1x64, and leaving the
  block's rows times the weights, the bias added and the rectifier applied, in the output's block of 10000 rows.
  Everything here is stated at a PARAMETER `V`, the buffers' contents when the region is entered: what each window's block
  is at a point, what the body leaves in the output's staging buffer as a function of the three input blocks (the one
  store's payload, covering the buffer), the body's triple, the region's proof data and its body obligation at every point.
  The weight and bias windows keep block (0, 0) at every point, so they are copied in once and found in place afterwards.
-/
import proofs.«119506_j40063454937588_1_alg».proof.Proof.Gen.KernelIdeal.Launch
import proofs.«119506_j40063454937588_1_alg».proof.Proof.Gen.KernelIdeal.Skeleton
import proofs.«119506_j40063454937588_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, copied in there or found in place, for any
    proof data whose array is `V`'s and whose body leaves the block as it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, copied in there or found in place, for any
    proof data whose array is `V`'s and whose body leaves the block as it was. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, copied in there or found in place, for any
    proof data whose array is `V`'s and whose body leaves the block as it was. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S10000x192 := Rect.unit (s := S10000x192) ![0, 0] S10000x192.size inb_S10000x192_S10000x192_0_0
abbrev r0_1 : Rect S192x64 := Rect.unit (s := S192x64) ![0, 0] S192x64.size inb_S192x64_S192x64_0_0
abbrev r0_2 : Rect S1x64 := Rect.unit (s := S1x64) ![0, 0] S1x64.size inb_S1x64_S1x64_0_0
abbrev r0_3 : Rect S10000x64 := Rect.unit (s := S10000x64) ![0, 0] S10000x64.size inb_S10000x64_S10000x64_0_0

/-! ## What the body leaves in the output's buffer -/

/-- The output's staging buffer after the body, from the three input blocks: the one store's payload over the whole buffer. -/
def out0_3 (x0 : Vec F S10000x192 .f32) (x1 : Vec F S192x64 .f32) (x2 : Vec F S1x64 .f32) : Vec F S10000x64 .f32 :=
  View.canon [⟨r0_3, k0_pay1 (View.ld x0 r0_0) (View.ld x1 r0_1) (View.ld x2 r0_2)⟩]

/-- The one store covers the buffer. -/
theorem cover0_3 (p0 : Vec F S10000x64 .f32) (y : S10000x64.Idx) :
    ∃ pc ∈ ([⟨r0_3, p0⟩] : List (View.Piece (Elt F) S10000x64 .f32)), y ∈ pc.1.set :=
  View.cover_of_tiled [⟨r0_3, p0⟩] S10000x64.size (by rfl) y

/-! ## The body's triple -/

set_option maxHeartbeats 1000000 in
/-- The body on whole staging buffers, the inputs' at contents `x0 x1 x2` and the output's at anything, runs to the
    continuation holding the inputs' as they were and the output's at `out0_3` of them. (The body also loads the output's
    buffer before storing into it; the loaded value is not used.) -/
theorem sound_kernel0 (c : Dev nD) (E : Set ℕ) (i : grid0.Coords) (arg1 : Memref sig .tc .vmem S10000x192 .f32) (harg1 : arg1.IsWhole)
    (arg2 : Memref sig .tc .vmem S192x64 .f32) (harg2 : arg2.IsWhole) (arg3 : Memref sig .tc .vmem S1x64 .f32) (harg3 : arg3.IsWhole)
    (arg4 : Memref sig .tc .vmem S10000x64 .f32) (harg4 : arg4.IsWhole)
    (x0 : Vec F S10000x192 .f32) (x1 : Vec F S192x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_bias_relu_kernel i arg1 harg1 arg2 harg2 arg3 harg3 arg4 harg4) K := by
  simp only [cc0__matmul_bias_relu_kernel_eq_skeleton]; unfold cc0__matmul_bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of the region on core `c`: the arrays as the region finds them; after the body at point `t` each
    input's buffer at its block and the output's at `out0_3` of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the core's dues
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Layers

end
-- ==== Proof.IdealLayer1.lean ====
/-
  Layer 1 of the network as one pipelined region: a grid of five points, each taking a block of 10000 rows of the
  concatenated features [10000, 192], the whole weight matrix 192x64 and the bias row 1x64, and leaving the
  block's rows times the weights, the bias added and the rectifier applied, in the output's block of 10000 rows.
  Everything here is stated at a PARAMETER `V`, the buffers' contents when the region is entered: what each window's block
  is at a point, what the body leaves in the output's staging buffer as a function of the three input blocks (the one
  store's payload, covering the buffer), the body's triple, the region's proof data and its body obligation at every point.
  The weight and bias windows keep block (0, 0) at every point, so they are copied in once and found in place afterwards.
-/
import proofs.«119506_j40063454937588_1_alg».proof.Proof.Gen.KernelIdeal.Launch
import proofs.«119506_j40063454937588_1_alg».proof.Proof.Gen.KernelIdeal.Skeleton
import proofs.«119506_j40063454937588_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, copied in there or found in place, for any
    proof data whose array is `V`'s and whose body leaves the block as it was. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, copied in there or found in place, for any
    proof data whose array is `V`'s and whose body leaves the block as it was. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, copied in there or found in place, for any
    proof data whose array is `V`'s and whose body leaves the block as it was. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S10000x192 := Rect.unit (s := S10000x192) ![0, 0] S10000x192.size inb_S10000x192_S10000x192_0_0
abbrev r1_1 : Rect S192x64 := Rect.unit (s := S192x64) ![0, 0] S192x64.size inb_S192x64_S192x64_0_0
abbrev r1_2 : Rect S1x64 := Rect.unit (s := S1x64) ![0, 0] S1x64.size inb_S1x64_S1x64_0_0
abbrev r1_3 : Rect S10000x64 := Rect.unit (s := S10000x64) ![0, 0] S10000x64.size inb_S10000x64_S10000x64_0_0

/-! ## What the body leaves in the output's buffer -/

/-- The output's staging buffer after the body, from the three input blocks: the one store's payload over the whole buffer. -/
def out1_3 (x0 : Vec F S10000x192 .f32) (x1 : Vec F S192x64 .f32) (x2 : Vec F S1x64 .f32) : Vec F S10000x64 .f32 :=
  View.canon [⟨r1_3, k1_pay1 (View.ld x0 r1_0) (View.ld x1 r1_1) (View.ld x2 r1_2)⟩]

/-- The one store covers the buffer. -/
theorem cover1_3 (p0 : Vec F S10000x64 .f32) (y : S10000x64.Idx) :
    ∃ pc ∈ ([⟨r1_3, p0⟩] : List (View.Piece (Elt F) S10000x64 .f32)), y ∈ pc.1.set :=
  View.cover_of_tiled [⟨r1_3, p0⟩] S10000x64.size (by rfl) y

/-! ## The body's triple -/

set_option maxHeartbeats 1000000 in
/-- The body on whole staging buffers, the inputs' at contents `x0 x1 x2` and the output's at anything, runs to the
    continuation holding the inputs' as they were and the output's at `out1_3` of them. (The body also loads the output's
    buffer before storing into it; the loaded value is not used.) -/
theorem sound_kernel1 (c : Dev nD) (E : Set ℕ) (i : grid1.Coords) (arg1 : Memref sig .tc .vmem S10000x192 .f32) (harg1 : arg1.IsWhole)
    (arg2 : Memref sig .tc .vmem S192x64 .f32) (harg2 : arg2.IsWhole) (arg3 : Memref sig .tc .vmem S1x64 .f32) (harg3 : arg3.IsWhole)
    (arg4 : Memref sig .tc .vmem S10000x64 .f32) (harg4 : arg4.IsWhole)
    (x0 : Vec F S10000x192 .f32) (x1 : Vec F S192x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__matmul_bias_relu_kernel i arg1 harg1 arg2 harg2 arg3 harg3 arg4 harg4) K := by
  simp only [cc1__matmul_bias_relu_kernel_eq_skeleton]; unfold cc1__matmul_bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- The proof data of the region on core `c`: the arrays as the region finds them; after the body at point `t` each
    input's buffer at its block and the output's at `out1_3` of the input blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and the core's dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Layers

end
-- ==== Proof.IdealLayer2.lean ====
/-
  Layer 2 of the network as one pipelined region: a grid of five points, each taking a block of 10000 rows of the
  concatenated features [10000, 192], the whole weight matrix 192x32 and the bias row 1x32, and leaving the
  block's rows times the weights, the bias added, no rectifier, in the output's block of 10000 rows.
  Everything here is stated at a PARAMETER `V`, the buffers' contents when the region is entered: what each window's block
  is at a point, what the body leaves in the output's staging buffer as a function of the three input blocks (the one
  store's payload, covering the buffer), the body's triple, the region's proof data and its body obligation at every point.
  The weight and bias windows keep block (0, 0) at every point, so they are copied in once and found in place afterwards.
-/
import proofs.«119506_j40063454937588_1_alg».proof.Proof.Gen.KernelIdeal.Launch
import proofs.«119506_j40063454937588_1_alg».proof.Proof.Gen.KernelIdeal.Skeleton
import proofs.«119506_j40063454937588_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, copied in there or found in place, for any
    proof data whose array is `V`'s and whose body leaves the block as it was. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, copied in there or found in place, for any
    proof data whose array is `V`'s and whose body leaves the block as it was. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, copied in there or found in place, for any
    proof data whose array is `V`'s and whose body leaves the block as it was. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S10000x192 := Rect.unit (s := S10000x192) ![0, 0] S10000x192.size inb_S10000x192_S10000x192_0_0
abbrev r2_1 : Rect S192x32 := Rect.unit (s := S192x32) ![0, 0] S192x32.size inb_S192x32_S192x32_0_0
abbrev r2_2 : Rect S1x32 := Rect.unit (s := S1x32) ![0, 0] S1x32.size inb_S1x32_S1x32_0_0
abbrev r2_3 : Rect S10000x32 := Rect.unit (s := S10000x32) ![0, 0] S10000x32.size inb_S10000x32_S10000x32_0_0

/-! ## What the body leaves in the output's buffer -/

/-- The output's staging buffer after the body, from the three input blocks: the one store's payload over the whole buffer. -/
def out2_3 (x0 : Vec F S10000x192 .f32) (x1 : Vec F S192x32 .f32) (x2 : Vec F S1x32 .f32) : Vec F S10000x32 .f32 :=
  View.canon [⟨r2_3, k2_pay1 (View.ld x0 r2_0) (View.ld x1 r2_1) (View.ld x2 r2_2)⟩]

/-- The one store covers the buffer. -/
theorem cover2_3 (p0 : Vec F S10000x32 .f32) (y : S10000x32.Idx) :
    ∃ pc ∈ ([⟨r2_3, p0⟩] : List (View.Piece (Elt F) S10000x32 .f32)), y ∈ pc.1.set :=
  View.cover_of_tiled [⟨r2_3, p0⟩] S10000x32.size (by rfl) y

/-! ## The body's triple -/

set_option maxHeartbeats 1000000 in
/-- The body on whole staging buffers, the inputs' at contents `x0 x1 x2` and the output's at anything, runs to the
    continuation holding the inputs' as they were and the output's at `out2_3` of them. (The body also loads the output's
    buffer before storing into it; the loaded value is not used.) -/
theorem sound_kernel2 (c : Dev nD) (E : Set ℕ) (i : grid2.Coords) (arg1 : Memref sig .tc .vmem S10000x192 .f32) (harg1 : arg1.IsWhole)
    (arg2 : Memref sig .tc .vmem S192x32 .f32) (harg2 : arg2.IsWhole) (arg3 : Memref sig .tc .vmem S1x32 .f32) (harg3 : arg3.IsWhole)
    (arg4 : Memref sig .tc .vmem S10000x32 .f32) (harg4 : arg4.IsWhole)
    (x0 : Vec F S10000x192 .f32) (x1 : Vec F S192x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__matmul_bias_relu_kernel i arg1 harg1 arg2 harg2 arg3 harg3 arg4 harg4) K := by
  simp only [cc2__matmul_bias_relu_kernel_eq_skeleton]; unfold cc2__matmul_bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- The proof data of the region on core `c`: the arrays as the region finds them; after the body at point `t` each
    input's buffer at its block and the output's at `out2_3` of the input blocks; the invariant is the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and the core's dues
    pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Layers

end
-- ==== Proof.IdealRun.lean ====
/-
  The whole program's run, from the launch to the return: three stretches of host operations (the edge weights and the first
  layer's concatenated features), the first layer's region, a stretch (the second layer's features), the second layer's
  region, a stretch, the third layer's region. The buffers' contents at each boundary are a fold from the launch memory —
  a stretch's operations applied one after another; at a region's exit its output array at what the five write-backs leave
  and every other buffer as entered. The run's post holds every unscoped buffer at the last boundary's contents; no
  stretch and no region writes an argument array, so each argument reads back as launched.
-/
import proofs.«119506_j40063454937588_1_alg».proof.Proof.IdealLayer0
import proofs.«119506_j40063454937588_1_alg».proof.Proof.IdealLayer1
import proofs.«119506_j40063454937588_1_alg».proof.Proof.IdealLayer2
import proofs.«119506_j40063454937588_1_alg».proof.Proof.Gen.KernelIdeal.Regions

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev Bd0 : Dev nD → Valuation τ sig (Elt F) := fun c b => (s₀ m ρ).mem ((c : Dev nD), b)
/-- After the first stretch (the degrees and their inverse square roots). -/
abbrev Bd1 : Dev nD → Valuation τ sig (Elt F) := fun c => StableHlo.after hostOps0 (Bd0 m ρ c)
/-- After the second stretch (the zero-degree guard). -/
abbrev Bd2 : Dev nD → Valuation τ sig (Elt F) := fun c => StableHlo.after hostOps0_1 (Bd1 m ρ c)
/-- After the third stretch (the edge weights, the first layer's features): layer 0's entry. -/
abbrev Bd3 : Dev nD → Valuation τ sig (Elt F) := fun c => StableHlo.after hostOps0_2 (Bd2 m ρ c)
abbrev At3 : (c : Dev nD) → (b : Ref sig .tc) → Buf (Elt F) ((c : Thread nD τ).loc b) := fun c b => Bd3 m ρ c b

/-- At layer 0's exit: its arrays at what the region leaves (the inputs as entered, the output's write-backs folded), every
    other buffer as entered. -/
def Bd4 (c : Dev nD) : Valuation τ sig (Elt F) :=
  Pipeline.withArrays spec0 c (Bd3 m ρ c) fun w => (dat0 (At3 m ρ) c).arrAt w cfg0.N
theorem Bd4_arr (c : Dev nD) (w : Fin cfg0.W) :
    Bd4 m ρ c (Proc.devRef .tc (Pipeline.arrRef spec0 w)) = (dat0 (At3 m ρ) c).arrAt w cfg0.N := by
  unfold Bd4; exact Pipeline.withArrays_arr spec0 launch0.win.arr_inj c _ _ w
theorem Bd4_of_ne (c : Dev nD) (b : Ref sig .tc) (hb : ∀ w, Pipeline.arrRef spec0 w ≠ b) :
    Bd4 m ρ c (Proc.devRef .tc b) = Bd3 m ρ c (Proc.devRef .tc b) := by
  unfold Bd4; exact Pipeline.withArrays_of_ne spec0 c _ _ b hb
/-- The same read at the TensorCore's references. -/
abbrev At4 : (c : Dev nD) → (b : Ref sig .tc) → Buf (Elt F) ((c : Thread nD τ).loc b) := fun c b => Bd4 m ρ c b
theorem hF0 (c : Dev nD) (w : Fin cfg0.W) : (dat0 (At3 m ρ) c).arrAt w cfg0.N = At4 m ρ c (Pipeline.arrRef spec0 w) :=
  (Bd4_arr m ρ c w).symm
theorem hrest0 (c : Dev nD) : ∀ b, b ∉ Finset.univ.image (Pipeline.arrRef spec0) → At4 m ρ c b = At3 m ρ c b :=
  fun b hb => Bd4_of_ne m ρ c b fun w e => hb (Finset.mem_image.mpr ⟨w, Finset.mem_univ _, e⟩)

/-- After the stretch between layers 0 and 1: layer 1's entry. -/
abbrev Bd5 : Dev nD → Valuation τ sig (Elt F) := fun c => StableHlo.after hostOps1 (Bd4 m ρ c)
abbrev At5 : (c : Dev nD) → (b : Ref sig .tc) → Buf (Elt F) ((c : Thread nD τ).loc b) := fun c b => Bd5 m ρ c b

/-- At layer 1's exit: its arrays at what the region leaves (the inputs as entered, the output's write-backs folded), every
    other buffer as entered. -/
def Bd6 (c : Dev nD) : Valuation τ sig (Elt F) :=
  Pipeline.withArrays spec1 c (Bd5 m ρ c) fun w => (dat1 (At5 m ρ) c).arrAt w cfg1.N
theorem Bd6_arr (c : Dev nD) (w : Fin cfg1.W) :
    Bd6 m ρ c (Proc.devRef .tc (Pipeline.arrRef spec1 w)) = (dat1 (At5 m ρ) c).arrAt w cfg1.N := by
  unfold Bd6; exact Pipeline.withArrays_arr spec1 launch1.win.arr_inj c _ _ w
theorem Bd6_of_ne (c : Dev nD) (b : Ref sig .tc) (hb : ∀ w, Pipeline.arrRef spec1 w ≠ b) :
    Bd6 m ρ c (Proc.devRef .tc b) = Bd5 m ρ c (Proc.devRef .tc b) := by
  unfold Bd6; exact Pipeline.withArrays_of_ne spec1 c _ _ b hb
/-- The same read at the TensorCore's references. -/
abbrev At6 : (c : Dev nD) → (b : Ref sig .tc) → Buf (Elt F) ((c : Thread nD τ).loc b) := fun c b => Bd6 m ρ c b
theorem hF1 (c : Dev nD) (w : Fin cfg1.W) : (dat1 (At5 m ρ) c).arrAt w cfg1.N = At6 m ρ c (Pipeline.arrRef spec1 w) :=
  (Bd6_arr m ρ c w).symm
theorem hrest1 (c : Dev nD) : ∀ b, b ∉ Finset.univ.image (Pipeline.arrRef spec1) → At6 m ρ c b = At5 m ρ c b :=
  fun b hb => Bd6_of_ne m ρ c b fun w e => hb (Finset.mem_image.mpr ⟨w, Finset.mem_univ _, e⟩)

/-- After the stretch between layers 1 and 2: layer 2's entry. -/
abbrev Bd7 : Dev nD → Valuation τ sig (Elt F) := fun c => StableHlo.after hostOps2 (Bd6 m ρ c)
abbrev At7 : (c : Dev nD) → (b : Ref sig .tc) → Buf (Elt F) ((c : Thread nD τ).loc b) := fun c b => Bd7 m ρ c b

/-- At layer 2's exit: its arrays at what the region leaves (the inputs as entered, the output's write-backs folded), every
    other buffer as entered. -/
def Bd8 (c : Dev nD) : Valuation τ sig (Elt F) :=
  Pipeline.withArrays spec2 c (Bd7 m ρ c) fun w => (dat2 (At7 m ρ) c).arrAt w cfg2.N
theorem Bd8_arr (c : Dev nD) (w : Fin cfg2.W) :
    Bd8 m ρ c (Proc.devRef .tc (Pipeline.arrRef spec2 w)) = (dat2 (At7 m ρ) c).arrAt w cfg2.N := by
  unfold Bd8; exact Pipeline.withArrays_arr spec2 launch2.win.arr_inj c _ _ w
theorem Bd8_of_ne (c : Dev nD) (b : Ref sig .tc) (hb : ∀ w, Pipeline.arrRef spec2 w ≠ b) :
    Bd8 m ρ c (Proc.devRef .tc b) = Bd7 m ρ c (Proc.devRef .tc b) := by
  unfold Bd8; exact Pipeline.withArrays_of_ne spec2 c _ _ b hb
/-- The same read at the TensorCore's references. -/
abbrev At8 : (c : Dev nD) → (b : Ref sig .tc) → Buf (Elt F) ((c : Thread nD τ).loc b) := fun c b => Bd8 m ρ c b
theorem hF2 (c : Dev nD) (w : Fin cfg2.W) : (dat2 (At7 m ρ) c).arrAt w cfg2.N = At8 m ρ c (Pipeline.arrRef spec2 w) :=
  (Bd8_arr m ρ c w).symm
theorem hrest2 (c : Dev nD) : ∀ b, b ∉ Finset.univ.image (Pipeline.arrRef spec2) → At8 m ρ c b = At7 m ρ c b :=
  fun b hb => Bd8_of_ne m ρ c b fun w e => hb (Finset.mem_image.mpr ⟨w, Finset.mem_univ _, e⟩)

/-! ## A buffer nothing writes ends as launched -/

/-- A reference that no stretch writes and that is no region's array holds, at the last boundary, its launch contents. -/
theorem Bd8_kept (c : Dev nD) (r : Ref sig .tc)
    (h0 : r ∉ hostOps0_W) (h1 : r ∉ hostOps0_1_W) (h2 : r ∉ hostOps0_2_W) (h3 : ∀ w, Pipeline.arrRef spec0 w ≠ r)
    (h4 : r ∉ hostOps1_W) (h5 : ∀ w, Pipeline.arrRef spec1 w ≠ r) (h6 : r ∉ hostOps2_W) (h7 : ∀ w, Pipeline.arrRef spec2 w ≠ r) :
    Bd8 m ρ c (Proc.devRef .tc r) = m ((c : Thread nD τ).loc r) :=
  calc Bd8 m ρ c (Proc.devRef .tc r)
    _ = Bd7 m ρ c (Proc.devRef .tc r) := Bd8_of_ne m ρ c r h7
    _ = Bd6 m ρ c (Proc.devRef .tc r) := StableHlo.after_of_writes_sub hostOps2 _ hostOps2_writes h6
    _ = Bd5 m ρ c (Proc.devRef .tc r) := Bd6_of_ne m ρ c r h5
    _ = Bd4 m ρ c (Proc.devRef .tc r) := StableHlo.after_of_writes_sub hostOps1 _ hostOps1_writes h4
    _ = Bd3 m ρ c (Proc.devRef .tc r) := Bd4_of_ne m ρ c r h3
    _ = Bd2 m ρ c (Proc.devRef .tc r) := StableHlo.after_of_writes_sub hostOps0_2 _ hostOps0_2_writes h2
    _ = Bd1 m ρ c (Proc.devRef .tc r) := StableHlo.after_of_writes_sub hostOps0_1 _ hostOps0_1_writes h1
    _ = Bd0 m ρ c (Proc.devRef .tc r) := StableHlo.after_of_writes_sub hostOps0 _ hostOps0_writes h0
    _ = m ((c : Thread nD τ).loc r) := rfl

theorem Bd8_main_arg0 (c : Dev nD) : Bd8 m ρ c (Proc.devRef .tc main_arg0) = m ((c : Thread nD τ).loc main_arg0) :=
  Bd8_kept m ρ c main_arg0 (by decide) (by decide) (by decide) (by decide) (by decide) (by decide) (by decide) (by decide)
theorem Bd8_main_arg1 (c : Dev nD) : Bd8 m ρ c (Proc.devRef .tc main_arg1) = m ((c : Thread nD τ).loc main_arg1) :=
  Bd8_kept m ρ c main_arg1 (by decide) (by decide) (by decide) (by decide) (by decide) (by decide) (by decide) (by decide)
theorem Bd8_main_arg2 (c : Dev nD) : Bd8 m ρ c (Proc.devRef .tc main_arg2) = m ((c : Thread nD τ).loc main_arg2) :=
  Bd8_kept m ρ c main_arg2 (by decide) (by decide) (by decide) (by decide) (by decide) (by decide) (by decide) (by decide)
theorem Bd8_main_arg3 (c : Dev nD) : Bd8 m ρ c (Proc.devRef .tc main_arg3) = m ((c : Thread nD τ).loc main_arg3) :=
  Bd8_kept m ρ c main_arg3 (by decide) (by decide) (by decide) (by decide) (by decide) (by decide) (by decide) (by decide)
theorem Bd8_main_arg4 (c : Dev nD) : Bd8 m ρ c (Proc.devRef .tc main_arg4) = m ((c : Thread nD τ).loc main_arg4) :=
  Bd8_kept m ρ c main_arg4 (by decide) (by decide) (by decide) (by decide) (by decide) (by decide) (by decide) (by decide)
theorem Bd8_main_arg5 (c : Dev nD) : Bd8 m ρ c (Proc.devRef .tc main_arg5) = m ((c : Thread nD τ).loc main_arg5) :=
  Bd8_kept m ρ c main_arg5 (by decide) (by decide) (by decide) (by decide) (by decide) (by decide) (by decide) (by decide)
theorem Bd8_main_arg6 (c : Dev nD) : Bd8 m ρ c (Proc.devRef .tc main_arg6) = m ((c : Thread nD τ).loc main_arg6) :=
  Bd8_kept m ρ c main_arg6 (by decide) (by decide) (by decide) (by decide) (by decide) (by decide) (by decide) (by decide)
theorem Bd8_main_arg7 (c : Dev nD) : Bd8 m ρ c (Proc.devRef .tc main_arg7) = m ((c : Thread nD τ).loc main_arg7) :=
  Bd8_kept m ρ c main_arg7 (by decide) (by decide) (by decide) (by decide) (by decide) (by decide) (by decide) (by decide)

/-! ## The proof data family and the thread state -/

/-- Every region's proof data, each at its region's entry contents. -/
def pdats : (p : Fin 3) → (c : Dev nD) → Dat τ (Elt F) Unit ℕ (UR sig nD τ) ℕ (Pipeline.pin (pcfgs (F := F)) Gen.adm p) c
  | ⟨0, _⟩ => fun c => dat0 (At3 m ρ) c
  | ⟨1, _⟩ => fun c => dat1 (At5 m ρ) c
  | ⟨2, _⟩ => fun c => dat2 (At7 m ρ) c
abbrev 𝒱n : Variants := Variants.none
/-- No core owes another anything: no level is assigned. -/
abbrev lvs : GSem nD τ sig → Finset Unit := fun _ => ∅
abbrev lvl : GSem nD τ sig → Unit → ℕ := fun _ _ => 0
/-- What rides beside the buffers through every segment: the core's generator register at some state and its dues, at nothing. -/
abbrev rest (c : Dev nD) : sProp 𝕄 := iprop((∃ r, prngReg c r) ∗ ∃ W, owes (c : Thread nD τ) (0 : CellTallies nD τ sig Unit) W)
/-- A host stretch as a segment from the contents `W`, `rest` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n lvs lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev lastState (c : Dev nD) : sProp 𝕄 := iprop(StableHlo.held (c : Thread nD τ) (Pipeline.ucRefs τ sig) (Bd8 m ρ c) ∗ ∃ r, prngReg c r)

/-! ## The regions as segments -/

set_option backward.isDefEq.respectTransparency.types false in
/-- Layer 0's region over the thread state: entered with every unscoped buffer at `Bd3`, left with them at `Bd4`. Its
    arrays are split out of the unscoped buffers at entry and put back, the output's at what the write-backs leave, at exit;
    the generator register goes into the region's invariant and comes back; nothing is owed; the kernel has no semaphore
    of its own. -/
def reg0 : Pipeline.RegionSeg (pcfgs (F := F)) Gen.adm (pdats m ρ) () defs₀ 𝒱n lvs lvl 0 where
  win := launch0.win.to₀
  block_pos := launch0.block_pos
  stage_whole := launch0.stage_whole
  K := PEmpty
  osem k := k.elim
  ho := Pipeline.OwnSemFacts.none _
  hbody c := (body_obligation0 (At3 m ρ) c).loose
  hwaits := Pipeline.hwaits_of_owed_zero _ _ _ _ lvs lvl 0 fun _ _ => rfl
  pre c := iprop(StableHlo.held (c : Thread nD τ) (Pipeline.ucRefs τ sig) (Bd3 m ρ c) ∗ rest c)
  post c := iprop(StableHlo.held (c : Thread nD τ) (Pipeline.ucRefs τ sig) (Bd4 m ρ c) ∗ rest c)
  X c := iprop(∃ r, prngReg c r)
  Y c := iprop(∃ r, prngReg c r)
  Z c := Pipeline.unscopedRest (Ix := Unit) (Name := ℕ) (U := UR sig nD τ) (Lvl := ℕ) spec0 c (At3 m ρ c)
  hentry c := by
    rw [Pipeline.ownSems0_none]
    have hsplit := Pipeline.arrays_of_unscopedBufs (p := 0) (pcfgs (F := F)) Gen.adm (pdats m ρ) launch0.win launch0.arr_whole c
      ((pdats m ρ 0 c).share_full fun _ => rfl) (At3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m ρ) ((pdats m ρ 0 c).share_full fun _ => rfl)
      (At3 m ρ c) (At4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 1's region over the thread state: entered with every unscoped buffer at `Bd5`, left with them at `Bd6`. Its
    arrays are split out of the unscoped buffers at entry and put back, the output's at what the write-backs leave, at exit;
    the generator register goes into the region's invariant and comes back; nothing is owed; the kernel has no semaphore
    of its own. -/
def reg1 : Pipeline.RegionSeg (pcfgs (F := F)) Gen.adm (pdats m ρ) () defs₀ 𝒱n lvs lvl 1 where
  win := launch1.win.to₀
  block_pos := launch1.block_pos
  stage_whole := launch1.stage_whole
  K := PEmpty
  osem k := k.elim
  ho := Pipeline.OwnSemFacts.none _
  hbody c := (body_obligation1 (At5 m ρ) c).loose
  hwaits := Pipeline.hwaits_of_owed_zero _ _ _ _ lvs lvl 1 fun _ _ => rfl
  pre c := iprop(StableHlo.held (c : Thread nD τ) (Pipeline.ucRefs τ sig) (Bd5 m ρ c) ∗ rest c)
  post c := iprop(StableHlo.held (c : Thread nD τ) (Pipeline.ucRefs τ sig) (Bd6 m ρ c) ∗ rest c)
  X c := iprop(∃ r, prngReg c r)
  Y c := iprop(∃ r, prngReg c r)
  Z c := Pipeline.unscopedRest (Ix := Unit) (Name := ℕ) (U := UR sig nD τ) (Lvl := ℕ) spec1 c (At5 m ρ c)
  hentry c := by
    rw [Pipeline.ownSems0_none]
    have hsplit := Pipeline.arrays_of_unscopedBufs (p := 1) (pcfgs (F := F)) Gen.adm (pdats m ρ) launch1.win launch1.arr_whole c
      ((pdats m ρ 1 c).share_full fun _ => rfl) (At5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m ρ) ((pdats m ρ 1 c).share_full fun _ => rfl)
      (At5 m ρ c) (At6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region over the thread state: entered with every unscoped buffer at `Bd7`, left with them at `Bd8`. Its
    arrays are split out of the unscoped buffers at entry and put back, the output's at what the write-backs leave, at exit;
    the generator register goes into the region's invariant and comes back; nothing is owed; the kernel has no semaphore
    of its own. -/
def reg2 : Pipeline.RegionSeg (pcfgs (F := F)) Gen.adm (pdats m ρ) () defs₀ 𝒱n lvs lvl 2 where
  win := launch2.win.to₀
  block_pos := launch2.block_pos
  stage_whole := launch2.stage_whole
  K := PEmpty
  osem k := k.elim
  ho := Pipeline.OwnSemFacts.none _
  hbody c := (body_obligation2 (At7 m ρ) c).loose
  hwaits := Pipeline.hwaits_of_owed_zero _ _ _ _ lvs lvl 2 fun _ _ => rfl
  pre c := iprop(StableHlo.held (c : Thread nD τ) (Pipeline.ucRefs τ sig) (Bd7 m ρ c) ∗ rest c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (At7 m ρ c)
  hentry c := by
    rw [Pipeline.ownSems0_none]
    have hsplit := Pipeline.arrays_of_unscopedBufs (p := 2) (pcfgs (F := F)) Gen.adm (pdats m ρ) launch2.win launch2.arr_whole c
      ((pdats m ρ 2 c).share_full fun _ => rfl) (At7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m ρ) ((pdats m ρ 2 c).share_full fun _ => rfl)
      (At7 m ρ c) (At8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order. -/
abbrev items : List (Pipeline.Seg (pcfgs (F := F)) Gen.adm (pdats m ρ) () defs₀ 𝒱n lvs lvl) :=
  [ .host (hseg hostOps0 hostOps0_sub hostOps0_fresh (Bd0 m ρ)),
    .host (hseg hostOps0_1 hostOps0_1_sub hostOps0_1_fresh (Bd1 m ρ)),
    .host (hseg hostOps0_2 hostOps0_2_sub hostOps0_2_fresh (Bd2 m ρ)),
    .region (reg0 m ρ),
    .host (hseg hostOps1 hostOps1_sub hostOps1_fresh (Bd4 m ρ)),
    .region (reg1 m ρ),
    .host (hseg hostOps2 hostOps2_sub hostOps2_fresh (Bd6 m ρ)),
    .region (reg2 m ρ) ]
/-- @main is the run of the segments. -/
theorem main_items (c : Dev nD) : main (F := F) c = Pipeline.Seg.run (items m ρ) := (main_chain c).trans (by chain_rfl)

set_option backward.isDefEq.respectTransparency.types false in
/-- THE RUN: from any memory with zero counters, every weakly fair execution of @main terminates, nothing faulting, and
    every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd8 m ρ c b) :=
  Pipeline.θ_run_regions_kit (pcfgs (F := F)) Gen.adm (pdats m ρ) () cellOf_inj emb₁ defs₀ 𝒱n lvs lvl m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ rest c)) (Tₙ := lastState m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach lvs lvl fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd8 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd8 m ρ c) s')
      isplitl [Hh] <;> iassumption)
    (hQ := fun s h => h)

/-- THE FRAME: the run terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (Bd8_main_arg0 m ρ c),
     (h c _ (mem_uc main_arg1 (by decide))).trans (Bd8_main_arg1 m ρ c),
     (h c _ (mem_uc main_arg2 (by decide))).trans (Bd8_main_arg2 m ρ c),
     (h c _ (mem_uc main_arg3 (by decide))).trans (Bd8_main_arg3 m ρ c),
     (h c _ (mem_uc main_arg4 (by decide))).trans (Bd8_main_arg4 m ρ c),
     (h c _ (mem_uc main_arg5 (by decide))).trans (Bd8_main_arg5 m ρ c),
     (h c _ (mem_uc main_arg6 (by decide))).trans (Bd8_main_arg6 m ρ c),
     (h c _ (mem_uc main_arg7 (by decide))).trans (Bd8_main_arg7 m ρ c)⟩) (run_all m ρ)

end Cert.KernelIdeal.Layers

end
-- ==== Proof.LibMatmul.lean ====
/-
  A row-by-column matrix product read at an index, over the extended reals.

  For the plain dimension numbers (left operand M×K contracted on its second axis, right operand K×N contracted on
  its first, no batch axis) the product accumulated into the zero matrix is, at row r and column c,
  the sum over k < K of lhs(r, k) · rhs(k, c).  The contraction index of the dimension numbers is a rank-1
  index; the sum is re-indexed through its one coordinate.
-/
import Idealize.ShloMosaic.PureOps.Ideal.Laws
import Idealize.ShloMosaic.Lib.ValueIdx

noncomputable section

namespace LibMatmul

open Idealize.ShloMosaic Idealize.ShloMosaic.ValueIdx

/-- The row coordinate of a rank-2 index, as a number below the first extent. -/
abbrev rowOf {M N : Nat} (j : (⟨2, ![M, N]⟩ : Shape).Idx) : Fin M := ⟨(j 0).val, (j 0).isLt⟩
/-- The column coordinate of a rank-2 index, as a number below the second extent. -/
abbrev colOf {M N : Nat} (j : (⟨2, ![M, N]⟩ : Shape).Idx) : Fin N := ⟨(j 1).val, (j 1).isLt⟩

/-- The sum a matrix product is, with the contraction index a plain number below K. -/
theorem plain_sum (M K N : Nat) (lhs : (⟨2, ![M, K]⟩ : Shape).Idx → EReal) (rhs : (⟨2, ![K, N]⟩ : Shape).Idx → EReal)
    (j : (⟨2, ![M, N]⟩ : Shape).Idx) :
    (∑ k : (DotDims.plain M K N).contr.Idx, lhs ((DotDims.plain M K N).lhsIdx j k) * rhs ((DotDims.plain M K N).rhsIdx j k))
      = ∑ k : Fin K, lhs (ix2 (rowOf j) k) * rhs (ix2 k (colOf j)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (rowOf j) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (colOf j) :=
    funext fun a => Fin.ext (by
      match a with
      | ⟨0, _⟩ => exact ((DotDims.plain M K N).rhsIdx_val_of_single rfl j _).trans hk
      | ⟨1, _⟩ => rfl)
  rw [el, er]

/-- A matrix product accumulated into the zero matrix, read at an index. -/
theorem matmul_zero_apply (M K N : Nat) (prec : Option ContractPrecision)
    (lhs : FVec Ideal ⟨2, ![M, K]⟩ .f32) (rhs : FVec Ideal ⟨2, ![K, N]⟩ .f32) (j : (⟨2, ![M, N]⟩ : Shape).Idx) :
    FloatOps.matmul (DotDims.plain M K N) prec lhs rhs (constant (F := Ideal) ⟨2, ![M, N]⟩ .f32 0x00000000#32) j
      = ∑ k : Fin K, lhs (ix2 (rowOf j) k) * rhs (ix2 k (colOf j)) := by
  rw [Ideal.matmul_constant_zero_apply]
  exact plain_sum M K N lhs rhs j

/-- The host's general dot product with the same dimension numbers, read at an index. -/
theorem dotGeneral_apply (M K N : Nat) (prec : Option ContractPrecision) (sched : HostSchedule)
    (lhs : FVec Ideal ⟨2, ![M, K]⟩ .f32) (rhs : FVec Ideal ⟨2, ![K, N]⟩ .f32) (j : (⟨2, ![M, N]⟩ : Shape).Idx) :
    FloatOps.dotGeneral (DotDims.plain M K N) prec sched lhs rhs j
      = ∑ k : Fin K, lhs (ix2 (rowOf j) k) * rhs (ix2 k (colOf j)) := by
  rw [Ideal.dotGeneral_apply]
  exact plain_sum M K N lhs rhs j

end LibMatmul

end
-- ==== Proof.LibDense.lean ====
/-
  The pieces of a dense layer read at one entry, over the extended reals.

  A matrix product reads, at row r and column c, the sum over k of A(r, k) · B(k, c): row r of A against
  column c of B.  The product accumulated into the zero matrix and the plain product are both this sum when
  their dimension numbers are the plain ones (left operand contracted on its second axis, right operand on its
  first, no batch axis), whatever float formats the operands carry.  A one-column matrix spread across the
  columns reads, at (r, c), its entry of row r; a single number spread over a whole array reads that number.
-/
import Idealize.ShloMosaic.PureOps.Ideal.Laws
import Idealize.ShloMosaic.Lib.ValueIdx
import Idealize.ShloMosaic.Lib.Pipeline.Value
import proofs.«119506_j40063454937588_1_alg».proof.Proof.LibMatmul

noncomputable section

namespace Cert.Hand.Dense

open Idealize.ShloMosaic Idealize.ShloMosaic.ValueIdx

/-- Column `c` of a matrix, as a function of the row. -/
def col {a b : ℕ} (A : (⟨2, ![a, b]⟩ : Shape).Idx → EReal) (c : Fin b) : Fin a → EReal := fun k => A (ix2 k c)

/-- Row `r` of a matrix against a vector: the sum over k of A(r, k) · v(k). -/
def lin {a k : ℕ} (A : (⟨2, ![a, k]⟩ : Shape).Idx → EReal) (v : Fin k → EReal) (r : Fin a) : EReal :=
  ∑ j : Fin k, A (ix2 r j) * v j

theorem col_apply {a b : ℕ} (A : (⟨2, ![a, b]⟩ : Shape).Idx → EReal) (c : Fin b) (k : Fin a) :
    col A c k = A (ix2 k c) := rfl

/-- A product accumulated into the zero matrix, at (r, c): row r of the left operand against column c of the right. -/
theorem matmul_entry {M K N : ℕ} {φ₁ φ₂ : FTy} (prec : Option ContractPrecision)
    (A : FVec Ideal ⟨2, ![M, K]⟩ φ₁) (B : FVec Ideal ⟨2, ![K, N]⟩ φ₂) (r : Fin M) (c : Fin N) :
    FloatOps.matmul (DotDims.plain M K N) prec A B (constant (F := Ideal) ⟨2, ![M, N]⟩ .f32 0x00000000#32) (ix2 r c)
      = lin A (col B c) r := by
  rw [Ideal.matmul_constant_zero_apply]
  exact LibMatmul.plain_sum M K N A B (ix2 r c)

/-- The plain product, at (r, c): the same sum. -/
theorem dot_entry {M K N : ℕ} {φ₁ φ₂ : FTy} (prec : Option ContractPrecision) (sched : HostSchedule)
    (A : FVec Ideal ⟨2, ![M, K]⟩ φ₁) (B : FVec Ideal ⟨2, ![K, N]⟩ φ₂) (r : Fin M) (c : Fin N) :
    FloatOps.dotGeneral (DotDims.plain M K N) prec sched A B (ix2 r c) = lin A (col B c) r := by
  rw [Ideal.dotGeneral_apply]
  exact LibMatmul.plain_sum M K N A B (ix2 r c)

variable {α : Type}

/-- An a-by-1 column spread across b columns (each operand axis kept in place) reads, at (r, c), the column at row r. -/
theorem spread_col_apply {a b : ℕ} (v : (⟨2, ![a, 1]⟩ : Shape).Idx → α)
    (h : (⟨2, ![a, 1]⟩ : Shape).BroadcastsInDim ⟨2, ![a, b]⟩ ![0, 1]) (r : Fin a) (c : Fin b) :
    broadcastInDim ⟨2, ![a, b]⟩ ![0, 1] h v (ix2 r c) = v (ix2 r (0 : Fin 1)) := by
  refine broadcastInDim_apply _ h v (ix2 r c) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else c.val
    rw [if_pos rfl]

/-- A single value spread over a whole array reads that value everywhere. -/
theorem spread_scalar_apply {s : Shape} (y : (⟨0, ![]⟩ : Shape).Idx → α)
    (h : (⟨0, ![]⟩ : Shape).BroadcastsInDim s ![]) (j : s.Idx) :
    broadcastInDim s ![] h y j = y ix0 :=
  broadcastInDim_apply _ h y j ix0 fun ax => ax.elim0

end Cert.Hand.Dense

end
-- ==== Proof.LibConcat3.lean ====
/-
  Three arrays laid side by side, read at an index. Three matrices with the same number of rows placed side by side
  along the column axis form one wide matrix whose entry in column q is, according to which third q falls in, the entry of
  the first, second or third matrix in the column counted from that third's start; three vectors laid end to end form one
  long vector in the same way.
-/
import Idealize.ShloMosaic.Lib.Pipeline.Value
import Idealize.ShloMosaic.Lib.ValueIdx

namespace Cert.LibConcat3

open Idealize.ShloMosaic Idealize.ShloMosaic.ValueIdx

variable {α : Type}

/-- Three matrices `[n, a]`, `[n, b]`, `[n, c]` side by side: a column in the first range reads the first matrix. -/
theorem cols_first {n a b c : ℕ} (x : (⟨2, ![n, a]⟩ : Shape).Idx → α) (y : (⟨2, ![n, b]⟩ : Shape).Idx → α) (z : (⟨2, ![n, c]⟩ : Shape).Idx → α)
    (h : Shape.Concatenates (([⟨⟨2, ![n, a]⟩, x⟩, ⟨⟨2, ![n, b]⟩, y⟩, ⟨⟨2, ![n, c]⟩, z⟩] : List ((s : Shape) × (s.Idx → α))).map (·.1)) ⟨2, ![n, a + b + c]⟩ 1)
    (r : Fin n) (q : Fin a) (hq : q.val < a + b + c) :
    concatenate ⟨2, ![n, a + b + c]⟩ 1 [⟨⟨2, ![n, a]⟩, x⟩, ⟨⟨2, ![n, b]⟩, y⟩, ⟨⟨2, ![n, c]⟩, z⟩] h (ix2 r ⟨q.val, hq⟩) = x (ix2 r q) :=
  concatenate_apply_piece 1 _ h _ 0 (by simp) _ x rfl rfl 0 rfl (ix2 r q)
    (fun d hd => by
      match d with
      | ⟨0, _⟩ => rfl
      | ⟨1, _⟩ => exact absurd rfl hd)
    (Nat.zero_add _)

/-- A column in the second range reads the second matrix. -/
theorem cols_second {n a b c : ℕ} (x : (⟨2, ![n, a]⟩ : Shape).Idx → α) (y : (⟨2, ![n, b]⟩ : Shape).Idx → α) (z : (⟨2, ![n, c]⟩ : Shape).Idx → α)
    (h : Shape.Concatenates (([⟨⟨2, ![n, a]⟩, x⟩, ⟨⟨2, ![n, b]⟩, y⟩, ⟨⟨2, ![n, c]⟩, z⟩] : List ((s : Shape) × (s.Idx → α))).map (·.1)) ⟨2, ![n, a + b + c]⟩ 1)
    (r : Fin n) (q : Fin b) (hq : a + q.val < a + b + c) :
    concatenate ⟨2, ![n, a + b + c]⟩ 1 [⟨⟨2, ![n, a]⟩, x⟩, ⟨⟨2, ![n, b]⟩, y⟩, ⟨⟨2, ![n, c]⟩, z⟩] h (ix2 r ⟨a + q.val, hq⟩) = y (ix2 r q) :=
  concatenate_apply_piece 1 _ h _ 1 (by simp) _ y rfl rfl a (by simp) (ix2 r q)
    (fun d hd => by
      match d with
      | ⟨0, _⟩ => rfl
      | ⟨1, _⟩ => exact absurd rfl hd)
    rfl

/-- A column in the third range reads the third matrix. -/
theorem cols_third {n a b c : ℕ} (x : (⟨2, ![n, a]⟩ : Shape).Idx → α) (y : (⟨2, ![n, b]⟩ : Shape).Idx → α) (z : (⟨2, ![n, c]⟩ : Shape).Idx → α)
    (h : Shape.Concatenates (([⟨⟨2, ![n, a]⟩, x⟩, ⟨⟨2, ![n, b]⟩, y⟩, ⟨⟨2, ![n, c]⟩, z⟩] : List ((s : Shape) × (s.Idx → α))).map (·.1)) ⟨2, ![n, a + b + c]⟩ 1)
    (r : Fin n) (q : Fin c) (hq : a + b + q.val < a + b + c) :
    concatenate ⟨2, ![n, a + b + c]⟩ 1 [⟨⟨2, ![n, a]⟩, x⟩, ⟨⟨2, ![n, b]⟩, y⟩, ⟨⟨2, ![n, c]⟩, z⟩] h (ix2 r ⟨a + b + q.val, hq⟩) = z (ix2 r q) :=
  concatenate_apply_piece 1 _ h _ 2 (by simp) _ z rfl rfl (a + b) (by simp) (ix2 r q)
    (fun d hd => by
      match d with
      | ⟨0, _⟩ => rfl
      | ⟨1, _⟩ => exact absurd rfl hd)
    rfl

/-- Three vectors `[a]`, `[b]`, `[c]` end to end: a position in the first range reads the first vector. -/
theorem vec_first {a b c : ℕ} (x : (⟨1, ![a]⟩ : Shape).Idx → α) (y : (⟨1, ![b]⟩ : Shape).Idx → α) (z : (⟨1, ![c]⟩ : Shape).Idx → α)
    (h : Shape.Concatenates (([⟨⟨1, ![a]⟩, x⟩, ⟨⟨1, ![b]⟩, y⟩, ⟨⟨1, ![c]⟩, z⟩] : List ((s : Shape) × (s.Idx → α))).map (·.1)) ⟨1, ![a + b + c]⟩ 0)
    (q : Fin a) (hq : q.val < a + b + c) :
    concatenate ⟨1, ![a + b + c]⟩ 0 [⟨⟨1, ![a]⟩, x⟩, ⟨⟨1, ![b]⟩, y⟩, ⟨⟨1, ![c]⟩, z⟩] h (ix1 ⟨q.val, hq⟩) = x (ix1 q) :=
  concatenate_apply_piece 0 _ h _ 0 (by simp) _ x rfl rfl 0 rfl (ix1 q)
    (fun d hd => by
      match d with
      | ⟨0, _⟩ => exact absurd rfl hd)
    (Nat.zero_add _)

/-- A position in the second range reads the second vector. -/
theorem vec_second {a b c : ℕ} (x : (⟨1, ![a]⟩ : Shape).Idx → α) (y : (⟨1, ![b]⟩ : Shape).Idx → α) (z : (⟨1, ![c]⟩ : Shape).Idx → α)
    (h : Shape.Concatenates (([⟨⟨1, ![a]⟩, x⟩, ⟨⟨1, ![b]⟩, y⟩, ⟨⟨1, ![c]⟩, z⟩] : List ((s : Shape) × (s.Idx → α))).map (·.1)) ⟨1, ![a + b + c]⟩ 0)
    (q : Fin b) (hq : a + q.val < a + b + c) :
    concatenate ⟨1, ![a + b + c]⟩ 0 [⟨⟨1, ![a]⟩, x⟩, ⟨⟨1, ![b]⟩, y⟩, ⟨⟨1, ![c]⟩, z⟩] h (ix1 ⟨a + q.val, hq⟩) = y (ix1 q) :=
  concatenate_apply_piece 0 _ h _ 1 (by simp) _ y rfl rfl a (by simp) (ix1 q)
    (fun d hd => by
      match d with
      | ⟨0, _⟩ => exact absurd rfl hd)
    rfl

/-- A position in the third range reads the third vector. -/
theorem vec_third {a b c : ℕ} (x : (⟨1, ![a]⟩ : Shape).Idx → α) (y : (⟨1, ![b]⟩ : Shape).Idx → α) (z : (⟨1, ![c]⟩ : Shape).Idx → α)
    (h : Shape.Concatenates (([⟨⟨1, ![a]⟩, x⟩, ⟨⟨1, ![b]⟩, y⟩, ⟨⟨1, ![c]⟩, z⟩] : List ((s : Shape) × (s.Idx → α))).map (·.1)) ⟨1, ![a + b + c]⟩ 0)
    (q : Fin c) (hq : a + b + q.val < a + b + c) :
    concatenate ⟨1, ![a + b + c]⟩ 0 [⟨⟨1, ![a]⟩, x⟩, ⟨⟨1, ![b]⟩, y⟩, ⟨⟨1, ![c]⟩, z⟩] h (ix1 ⟨a + b + q.val, hq⟩) = z (ix1 q) :=
  concatenate_apply_piece 0 _ h _ 2 (by simp) _ z rfl rfl (a + b) (by simp) (ix1 q)
    (fun d hd => by
      match d with
      | ⟨0, _⟩ => exact absurd rfl hd)
    rfl

end Cert.LibConcat3
-- ==== Proof.LibStack3.lean ====
/-
  Three feature blocks laid side by side against three weight slabs stacked into one matrix, over the extended reals.

  Let h, p, q be n×d matrices, laid side by side into an n×(d+d+d) matrix, and let W be a stack of three d×o slabs,
  flattened row-major into a (d+d+d)×o matrix. Row r of the wide matrix against column c of the flattened stack is
      Σ_{k<d} h(r,k)·W(0,k,c)  +  Σ_{k<d} p(r,k)·W(1,k,c)  +  Σ_{k<d} q(r,k)·W(2,k,c):
  a sum over d+d+d positions is the sum over its three runs of d, the k-th position of run a is column k of block a on one
  side and row k of slab a on the other. Only commutativity and associativity of + are used, so this holds at the infinities.
  With a bias vector spread down the rows and a pointwise map applied last, the two arrangements of a dense layer —
  one product of the wide matrix, or three products summed — are the same function, entry by entry.
-/
import Idealize.ShloMosaic.PureOps.Ideal.Laws
import Idealize.ShloMosaic.Lib.ValueIdx
import Idealize.ShloMosaic.Lib.Pipeline.Value
import Idealize.ShloMosaic.Lib.ValueLayout
import proofs.«119506_j40063454937588_1_alg».proof.Proof.LibConcat3

noncomputable section

open scoped BigOperators

namespace Cert.LibStack3

open Idealize.ShloMosaic Idealize.ShloMosaic.ValueIdx

variable {n d o : ℕ}

/-- Row `r` of the three blocks against column `c` of the three slabs, block by block. -/
def lin3 (h p q : (⟨2, ![n, d]⟩ : Shape).Idx → EReal) (W : (⟨3, ![3, d, o]⟩ : Shape).Idx → EReal) (r : Fin n) (c : Fin o) : EReal :=
  ((∑ k : Fin d, h (ix2 r k) * W (ix3 (0 : Fin 3) k c)) + ∑ k : Fin d, p (ix2 r k) * W (ix3 (1 : Fin 3) k c))
    + ∑ k : Fin d, q (ix2 r k) * W (ix3 (2 : Fin 3) k c)

/-- The flattened stack at row a·d + k is slab a at row k. -/
theorem flat_slab (W : (⟨3, ![3, d, o]⟩ : Shape).Idx → EReal) (hW : (⟨3, ![3, d, o]⟩ : Shape).ShapeCasts ⟨2, ![d + d + d, o]⟩)
    (a : Fin 3) (k : Fin d) (c : Fin o) (j : Fin (d + d + d)) (hj : j.val = a.val * d + k.val) :
    shapeCast ⟨2, ![d + d + d, o]⟩ W hW (ix2 j c) = W (ix3 a k c) :=
  shapeCast_apply W hW _ _ (by
    rw [Shape.rowMajor_val_three, Shape.rowMajor_val_two]
    show (a.val * d + k.val) * o + c.val = j.val * o + c.val
    rw [hj])

/-- The wide matrix's row against the flattened stack's column is the three block sums. -/
theorem wide_row (h p q : (⟨2, ![n, d]⟩ : Shape).Idx → EReal) (W : (⟨3, ![3, d, o]⟩ : Shape).Idx → EReal)
    (hc : Shape.Concatenates (([⟨⟨2, ![n, d]⟩, h⟩, ⟨⟨2, ![n, d]⟩, p⟩, ⟨⟨2, ![n, d]⟩, q⟩] : List ((s : Shape) × (s.Idx → EReal))).map (·.1)) ⟨2, ![n, d + d + d]⟩ 1)
    (hW : (⟨3, ![3, d, o]⟩ : Shape).ShapeCasts ⟨2, ![d + d + d, o]⟩) (r : Fin n) (c : Fin o) :
    (∑ k : Fin (d + d + d), concatenate ⟨2, ![n, d + d + d]⟩ 1 [⟨⟨2, ![n, d]⟩, h⟩, ⟨⟨2, ![n, d]⟩, p⟩, ⟨⟨2, ![n, d]⟩, q⟩] hc (ix2 r k)
        * shapeCast ⟨2, ![d + d + d, o]⟩ W hW (ix2 k c))
      = lin3 h p q W r c := by
  rw [Fin.sum_univ_add, Fin.sum_univ_add]
  unfold lin3
  refine congrArg₂ (· + ·) (congrArg₂ (· + ·) ?_ ?_) ?_
  · refine Finset.sum_congr rfl fun k _ => ?_
    have e1 : concatenate ⟨2, ![n, d + d + d]⟩ 1 [⟨⟨2, ![n, d]⟩, h⟩, ⟨⟨2, ![n, d]⟩, p⟩, ⟨⟨2, ![n, d]⟩, q⟩] hc
        (ix2 r (Fin.castAdd d (Fin.castAdd d k))) = h (ix2 r k) :=
      Cert.LibConcat3.cols_first h p q hc r k (by have := k.isLt; omega)
    rw [e1, flat_slab W hW 0 k c _ (by show k.val = 0 * d + k.val; omega)]
  · refine Finset.sum_congr rfl fun k _ => ?_
    have e1 : concatenate ⟨2, ![n, d + d + d]⟩ 1 [⟨⟨2, ![n, d]⟩, h⟩, ⟨⟨2, ![n, d]⟩, p⟩, ⟨⟨2, ![n, d]⟩, q⟩] hc
        (ix2 r (Fin.castAdd d (Fin.natAdd d k))) = p (ix2 r k) :=
      Cert.LibConcat3.cols_second h p q hc r k (by have := k.isLt; omega)
    rw [e1, flat_slab W hW 1 k c _ (by show d + k.val = 1 * d + k.val; omega)]
  · refine Finset.sum_congr rfl fun k _ => ?_
    have e1 : concatenate ⟨2, ![n, d + d + d]⟩ 1 [⟨⟨2, ![n, d]⟩, h⟩, ⟨⟨2, ![n, d]⟩, p⟩, ⟨⟨2, ![n, d]⟩, q⟩] hc
        (ix2 r (Fin.natAdd (d + d) k)) = q (ix2 r k) :=
      Cert.LibConcat3.cols_third h p q hc r k (by have := k.isLt; omega)
    rw [e1, flat_slab W hW 2 k c _ (by show d + d + k.val = 2 * d + k.val; omega)]

/-- The rectifier: the larger of a number and the float zero word's value. -/
def relu (x : EReal) : EReal := max x (Ideal.ofBits .f32 0x00000000#32)

/-- A dense layer on ONE wide matrix: row against column, the bias row's entry added, a pointwise map last. -/
def wideDense {K : ℕ} (act : EReal → EReal) (cat : (⟨2, ![n, K]⟩ : Shape).Idx → EReal) (Wr : (⟨2, ![K, o]⟩ : Shape).Idx → EReal)
    (br : (⟨2, ![1, o]⟩ : Shape).Idx → EReal) : (⟨2, ![n, o]⟩ : Shape).Idx → EReal := fun i =>
  act ((∑ k : Fin K, cat (ix2 (⟨(i 0).val, (i 0).isLt⟩ : Fin n) k) * Wr (ix2 k (⟨(i 1).val, (i 1).isLt⟩ : Fin o)))
    + br (ix2 (0 : Fin 1) (⟨(i 1).val, (i 1).isLt⟩ : Fin o)))

/-- The same layer as three block products summed. -/
def stackedDense (act : EReal → EReal) (h p q : (⟨2, ![n, d]⟩ : Shape).Idx → EReal) (W : (⟨3, ![3, d, o]⟩ : Shape).Idx → EReal)
    (b : (⟨1, ![o]⟩ : Shape).Idx → EReal) : (⟨2, ![n, o]⟩ : Shape).Idx → EReal := fun i =>
  act (lin3 h p q W (⟨(i 0).val, (i 0).isLt⟩ : Fin n) (⟨(i 1).val, (i 1).isLt⟩ : Fin o) + b (ix1 (⟨(i 1).val, (i 1).isLt⟩ : Fin o)))

/-- THE LAW: the wide arrangement of the blocks, the flattened stack and the bias as a one-row matrix give the stacked layer. -/
theorem wideDense_eq (act : EReal → EReal) (h p q : (⟨2, ![n, d]⟩ : Shape).Idx → EReal) (W : (⟨3, ![3, d, o]⟩ : Shape).Idx → EReal)
    (b : (⟨1, ![o]⟩ : Shape).Idx → EReal)
    (hc : Shape.Concatenates (([⟨⟨2, ![n, d]⟩, h⟩, ⟨⟨2, ![n, d]⟩, p⟩, ⟨⟨2, ![n, d]⟩, q⟩] : List ((s : Shape) × (s.Idx → EReal))).map (·.1)) ⟨2, ![n, d + d + d]⟩ 1)
    (hW : (⟨3, ![3, d, o]⟩ : Shape).ShapeCasts ⟨2, ![d + d + d, o]⟩) (hb : (⟨1, ![o]⟩ : Shape).ShapeCasts ⟨2, ![1, o]⟩) :
    wideDense act (concatenate ⟨2, ![n, d + d + d]⟩ 1 [⟨⟨2, ![n, d]⟩, h⟩, ⟨⟨2, ![n, d]⟩, p⟩, ⟨⟨2, ![n, d]⟩, q⟩] hc)
        (shapeCast ⟨2, ![d + d + d, o]⟩ W hW) (shapeCast ⟨2, ![1, o]⟩ b hb)
      = stackedDense act h p q W b := by
  funext i
  unfold wideDense stackedDense
  rw [wide_row h p q W hc hW, shapeCast_a_1a_apply b hb]

end Cert.LibStack3

end
-- ==== Proof.LibFold3.lean ====
/-
  Reading a fold of host operations at a buffer when the list holds an operation of THREE operands (a concatenation of
  three arrays): the operation's result is its function of the three operands' contents, each read at its own reference,
  so the contents of the operands can be rewritten in turn. (The library states this for four operands.)
-/
import Idealize.ShloMosaic.Lib.StableHlo.Run

noncomputable section

namespace Cert.LibFold3

open Idealize.ShloMosaic Idealize.ShloMosaic.TcCoe Idealize.ShloMosaic.StableHlo

section Nary3
variable {nD : Nat} {τ : Topo} {sig : RefSig} {Val : EltTy → Type}
/-- A three-operand operation over a LITERAL family of references: the result with each operand's contents at its own
    reference, so that the rewriting goes on into the operands. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl
end Nary3

/-- The fold of a literal list of operations at a literal reference, rewritten to the operations' functions of the contents
    the list starts from, in one pass; a three-operand operation's operands are rewritten too. -/
macro "fold_results" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      nary3_result', Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

end Cert.LibFold3

end
-- ==== Proof.RefFold.lean ====
/-
  The reference's fold read layer by layer, over the extended reals. The 209 operations are four consecutive pieces, so the
  fold is the fold of the last piece over the fold of the others. Within a layer's piece the result is three plain
  products summed — the layer's input h, its propagation L̂h and the Chebyshev term 2·L̂(L̂h) − h, each against one slab of
  the weight stack — plus the bias spread down the rows, then the rectifier (layers 1 and 2). At an entry (r, c) each product
  is a row against a slab's column and the bias is its entry at c: the stacked layer. A piece writes none of the buffers the
  later pieces read from before it (the edge weights, the edge list, the later layers' weights).
-/
import proofs.«119506_j40063454937588_1_alg».proof.Proof.RefRunStaged
import proofs.«119506_j40063454937588_1_alg».proof.Proof.LibDense
import proofs.«119506_j40063454937588_1_alg».proof.Proof.LibStack3
import proofs.«119506_j40063454937588_1_alg».proof.Proof.LibFold3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Proof.Ref

open Cert.LibStack3 Cert.LibFold3
open Idealize.ShloMosaic Idealize.ShloMosaic.TcCoe Idealize.ShloMosaic.ValueIdx Idealize.ShloMosaic.StableHlo
open Idealize.SL.Sem

/-! ## General pieces -/

section General

variable {nD : Nat} {τ : Topo} {sig : RefSig} {Val : EltTy → Type}

/-- The fold of two lists laid end to end is the second's fold over the first's. -/
theorem after_append (l₁ l₂ : List (HloOp τ sig Val)) (V : Valuation τ sig Val) : after (l₁ ++ l₂) V = after l₂ (after l₁ V) := by
  induction l₁ generalizing V with
  | nil => rfl
  | cons op l ih => exact ih _

variable {n d o : ℕ}

/-- Slab `a` of a stack, cut out and read as a matrix, at an entry. -/
theorem slab_read (W : (⟨3, ![3, d, o]⟩ : Shape).Idx → EReal) (a : Fin 3)
    (hs : (⟨3, ![3, d, o]⟩ : Shape).Slices ![a.val, 0, 0] ⟨3, ![1, d, o]⟩) (hc : (⟨3, ![1, d, o]⟩ : Shape).ShapeCasts ⟨2, ![d, o]⟩)
    (k : Fin d) (c : Fin o) :
    shapeCast ⟨2, ![d, o]⟩ (extractStridedSlice ⟨3, ![1, d, o]⟩ ![a.val, 0, 0] W hs) hc (ix2 k c) = W (ix3 a k c) :=
  (shapeCast_1ab_ab_apply _ hc k c).trans (extractStridedSlice_apply _ W hs _ (ix3 a k c) fun ax => by
    match ax with
    | ⟨0, _⟩ => show a.val = a.val + 0; omega
    | ⟨1, _⟩ => show k.val = 0 + k.val; omega
    | ⟨2, _⟩ => show c.val = 0 + c.val; omega)

/-- A bias vector made a one-row matrix and spread down the rows, at an entry. -/
theorem bias_read (b : (⟨1, ![o]⟩ : Shape).Idx → EReal) (h1 : (⟨1, ![o]⟩ : Shape).BroadcastsInDim ⟨2, ![1, o]⟩ ![1])
    (h2 : (⟨2, ![1, o]⟩ : Shape).BroadcastsInDim ⟨2, ![n, o]⟩ ![0, 1]) (r : Fin n) (c : Fin o) :
    broadcastInDim ⟨2, ![n, o]⟩ ![0, 1] h2 (broadcastInDim ⟨2, ![1, o]⟩ ![1] h1 b) (ix2 r c) = b (ix1 c) := by
  refine (broadcastInDim_apply _ h2 _ (ix2 r c) (ix2 (0 : Fin 1) c) fun ax => ?_).trans
    (broadcastInDim_apply _ h1 b (ix2 (0 : Fin 1) c) (ix1 c) fun ax => ?_)
  · match ax with
    | ⟨0, _⟩ => show (0 : ℕ) = if (1 : ℕ) = 1 then 0 else r.val; rw [if_pos rfl]
    | ⟨1, _⟩ =>
      show c.val = if o = 1 then 0 else c.val
      split
      · have := c.isLt; omega
      · rfl
  · match ax with
    | ⟨0, _⟩ =>
      show c.val = if o = 1 then 0 else c.val
      split
      · have := c.isLt; omega
      · rfl

/-- Three plain products summed and a bias added, entry by entry, are the stacked layer without a final map. -/
theorem host_stacked (h p q : (⟨2, ![n, d]⟩ : Shape).Idx → EReal) (W : (⟨3, ![3, d, o]⟩ : Shape).Idx → EReal) (b : (⟨1, ![o]⟩ : Shape).Idx → EReal)
    (W0 W1 W2 : (⟨2, ![d, o]⟩ : Shape).Idx → EReal) (bb : (⟨2, ![n, o]⟩ : Shape).Idx → EReal)
    (prec : Option ContractPrecision) (sched : HostSchedule)
    (hW0 : ∀ k c, W0 (ix2 k c) = W (ix3 (0 : Fin 3) k c)) (hW1 : ∀ k c, W1 (ix2 k c) = W (ix3 (1 : Fin 3) k c))
    (hW2 : ∀ k c, W2 (ix2 k c) = W (ix3 (2 : Fin 3) k c)) (hbb : ∀ r c, bb (ix2 r c) = b (ix1 c)) :
    addf (addf (addf (FloatOps.dotGeneral (F := Ideal) (φ₁ := .f32) (φ₂ := .f32) (DotDims.plain n d o) prec sched h W0)
        (FloatOps.dotGeneral (F := Ideal) (φ₁ := .f32) (φ₂ := .f32) (DotDims.plain n d o) prec sched p W1))
        (FloatOps.dotGeneral (F := Ideal) (φ₁ := .f32) (φ₂ := .f32) (DotDims.plain n d o) prec sched q W2)) bb
      = stackedDense (fun x => x) h p q W b := by
  funext i
  obtain ⟨r, c, rfl⟩ : ∃ (r : Fin n) (c : Fin o), i = ix2 r c := ⟨i 0, i 1, eq_ix2 i⟩
  show ((FloatOps.dotGeneral (F := Ideal) (φ₁ := .f32) (φ₂ := .f32) (DotDims.plain n d o) prec sched h W0 (ix2 r c)
      + FloatOps.dotGeneral (F := Ideal) (φ₁ := .f32) (φ₂ := .f32) (DotDims.plain n d o) prec sched p W1 (ix2 r c))
      + FloatOps.dotGeneral (F := Ideal) (φ₁ := .f32) (φ₂ := .f32) (DotDims.plain n d o) prec sched q W2 (ix2 r c)) + bb (ix2 r c)
    = lin3 h p q W r c + b (ix1 c)
  unfold lin3
  rw [hbb]
  refine congrArg₂ (· + ·) (congrArg₂ (· + ·) (congrArg₂ (· + ·) ?_ ?_) ?_) rfl
  · exact (Cert.Hand.Dense.dot_entry prec sched h W0 r c).trans (Finset.sum_congr rfl fun k _ => by rw [Cert.Hand.Dense.col_apply, hW0])
  · exact (Cert.Hand.Dense.dot_entry prec sched p W1 r c).trans (Finset.sum_congr rfl fun k _ => by rw [Cert.Hand.Dense.col_apply, hW1])
  · exact (Cert.Hand.Dense.dot_entry prec sched q W2 r c).trans (Finset.sum_congr rfl fun k _ => by rw [Cert.Hand.Dense.col_apply, hW2])

/-- The same with the rectifier against a spread float zero applied last. -/
theorem host_stacked_relu (h p q : (⟨2, ![n, d]⟩ : Shape).Idx → EReal) (W : (⟨3, ![3, d, o]⟩ : Shape).Idx → EReal) (b : (⟨1, ![o]⟩ : Shape).Idx → EReal)
    (W0 W1 W2 : (⟨2, ![d, o]⟩ : Shape).Idx → EReal) (bb : (⟨2, ![n, o]⟩ : Shape).Idx → EReal)
    (prec : Option ContractPrecision) (sched : HostSchedule)
    (hW0 : ∀ k c, W0 (ix2 k c) = W (ix3 (0 : Fin 3) k c)) (hW1 : ∀ k c, W1 (ix2 k c) = W (ix3 (1 : Fin 3) k c))
    (hW2 : ∀ k c, W2 (ix2 k c) = W (ix3 (2 : Fin 3) k c)) (hbb : ∀ r c, bb (ix2 r c) = b (ix1 c))
    (hz : (⟨0, ![]⟩ : Shape).BroadcastsInDim ⟨2, ![n, o]⟩ ![]) :
    maximumf (addf (addf (addf (FloatOps.dotGeneral (F := Ideal) (φ₁ := .f32) (φ₂ := .f32) (DotDims.plain n d o) prec sched h W0)
        (FloatOps.dotGeneral (F := Ideal) (φ₁ := .f32) (φ₂ := .f32) (DotDims.plain n d o) prec sched p W1))
        (FloatOps.dotGeneral (F := Ideal) (φ₁ := .f32) (φ₂ := .f32) (DotDims.plain n d o) prec sched q W2)) bb)
        (broadcastInDim ⟨2, ![n, o]⟩ ![] hz (constant (F := Ideal) ⟨0, ![]⟩ .f32 0x00000000#32))
      = stackedDense relu h p q W b := by
  funext i
  exact congrArg (fun x => max x (Ideal.ofBits .f32 0x00000000#32))
    (congrFun (host_stacked h p q W b W0 W1 W2 bb prec sched hW0 hW1 hW2 hbb) i)

end General

/-! ## The reference's pieces -/

open Cert.ReferenceIdeal Cert.ReferenceIdeal.Gen Cert.ReferenceIdeal.ValueP

/-- The reference's fold is the four pieces' folds one over another. -/
theorem fold_cut (V : Valuation τ sig (Elt Ideal)) :
    after (ops (F := Ideal)) V = after opsL3 (after opsL2 (after opsL1 (after opsEdge V))) := by
  rw [ops_cut, after_append, after_append, after_append]

variable (U : Valuation τ sig (Elt Ideal))

/-! ## Layer 1 -/

/-- Layer 1's result, read off its operations: three products summed, the bias spread down the rows, the rectifier. -/
theorem out1_read : (after opsL1 U (Proc.devRef .tc main_v77) : S50000x64.Idx → EReal)
    = maximumf (addf (addf (addf (Host.dotGeneral (φ₁ := .f32) (φ₂ := .f32) dot_S50000x64_S64x64_S50000x64_1_0_0_1_n_n none (U (Proc.devRef .tc main_arg0) : S50000x64.Idx → EReal) (shapeCast S64x64 (extractStridedSlice S1x64x64 ![0, 0, 0] (U (Proc.devRef .tc main_arg2) : S3x64x64.Idx → EReal) slices_S3x64x64_S1x64x64_0_0_0) shapeCasts_S1x64x64_S64x64))
          (Host.dotGeneral (φ₁ := .f32) (φ₂ := .f32) dot_S50000x64_S64x64_S50000x64_1_0_0_1_n_n none (after opsL1 U (Proc.devRef .tc main_v49) : S50000x64.Idx → EReal) (shapeCast S64x64 (extractStridedSlice S1x64x64 ![1, 0, 0] (U (Proc.devRef .tc main_arg2) : S3x64x64.Idx → EReal) slices_S3x64x64_S1x64x64_1_0_0) shapeCasts_S1x64x64_S64x64)))
          (Host.dotGeneral (φ₁ := .f32) (φ₂ := .f32) dot_S50000x64_S64x64_S50000x64_1_0_0_1_n_n none (after opsL1 U (Proc.devRef .tc main_v69) : S50000x64.Idx → EReal) (shapeCast S64x64 (extractStridedSlice S1x64x64 ![2, 0, 0] (U (Proc.devRef .tc main_arg2) : S3x64x64.Idx → EReal) slices_S3x64x64_S1x64x64_2_0_0) shapeCasts_S1x64x64_S64x64)))
        (broadcastInDim S50000x64 ![0, 1] bcast_S1x64_S50000x64_0_1 (broadcastInDim S1x64 ![1] bcast_S64_S1x64_1 (U (Proc.devRef .tc main_arg3) : S64.Idx → EReal))))
        (broadcastInDim S50000x64 ![] bcast_S_S50000x64 (constant (F := Ideal) S_ .f32 0x00000000#32)) := by
  dsimp only [opsL1]
  fold_results
  rfl

/-- Layer 1's result is the stacked layer of its input, of the input's propagation and of the second Chebyshev term. -/
theorem ref_layer1 : (after opsL1 U (Proc.devRef .tc main_v77) : S50000x64.Idx → EReal)
    = stackedDense (n := 50000) (d := 64) (o := 64) relu (U (Proc.devRef .tc main_arg0)) (after opsL1 U (Proc.devRef .tc main_v49))
        (after opsL1 U (Proc.devRef .tc main_v69)) (U (Proc.devRef .tc main_arg2)) (U (Proc.devRef .tc main_arg3)) := by
  rw [out1_read]
  exact host_stacked_relu (n := 50000) (d := 64) (o := 64) _ _ _ _ _ _ _ _ _ none _
    (fun k c => slab_read _ 0 _ _ k c) (fun k c => slab_read _ 1 _ _ k c) (fun k c => slab_read _ 2 _ _ k c)
    (fun r c => bias_read _ _ _ r c) _

/-! ## Layer 2 -/

/-- Layer 2's result, read off its operations: three products summed, the bias spread down the rows, the rectifier. -/
theorem out2_read : (after opsL2 U (Proc.devRef .tc main_v125) : S50000x64.Idx → EReal)
    = maximumf (addf (addf (addf (Host.dotGeneral (φ₁ := .f32) (φ₂ := .f32) dot_S50000x64_S64x64_S50000x64_1_0_0_1_n_n none (U (Proc.devRef .tc main_v77) : S50000x64.Idx → EReal) (shapeCast S64x64 (extractStridedSlice S1x64x64 ![0, 0, 0] (U (Proc.devRef .tc main_arg4) : S3x64x64.Idx → EReal) slices_S3x64x64_S1x64x64_0_0_0) shapeCasts_S1x64x64_S64x64))
          (Host.dotGeneral (φ₁ := .f32) (φ₂ := .f32) dot_S50000x64_S64x64_S50000x64_1_0_0_1_n_n none (after opsL2 U (Proc.devRef .tc main_v97) : S50000x64.Idx → EReal) (shapeCast S64x64 (extractStridedSlice S1x64x64 ![1, 0, 0] (U (Proc.devRef .tc main_arg4) : S3x64x64.Idx → EReal) slices_S3x64x64_S1x64x64_1_0_0) shapeCasts_S1x64x64_S64x64)))
          (Host.dotGeneral (φ₁ := .f32) (φ₂ := .f32) dot_S50000x64_S64x64_S50000x64_1_0_0_1_n_n none (after opsL2 U (Proc.devRef .tc main_v117) : S50000x64.Idx → EReal) (shapeCast S64x64 (extractStridedSlice S1x64x64 ![2, 0, 0] (U (Proc.devRef .tc main_arg4) : S3x64x64.Idx → EReal) slices_S3x64x64_S1x64x64_2_0_0) shapeCasts_S1x64x64_S64x64)))
        (broadcastInDim S50000x64 ![0, 1] bcast_S1x64_S50000x64_0_1 (broadcastInDim S1x64 ![1] bcast_S64_S1x64_1 (U (Proc.devRef .tc main_arg5) : S64.Idx → EReal))))
        (broadcastInDim S50000x64 ![] bcast_S_S50000x64 (constant (F := Ideal) S_ .f32 0x00000000#32)) := by
  dsimp only [opsL2]
  fold_results
  rfl

/-- Layer 2's result is the stacked layer of its input, of the input's propagation and of the second Chebyshev term. -/
theorem ref_layer2 : (after opsL2 U (Proc.devRef .tc main_v125) : S50000x64.Idx → EReal)
    = stackedDense (n := 50000) (d := 64) (o := 64) relu (U (Proc.devRef .tc main_v77)) (after opsL2 U (Proc.devRef .tc main_v97))
        (after opsL2 U (Proc.devRef .tc main_v117)) (U (Proc.devRef .tc main_arg4)) (U (Proc.devRef .tc main_arg5)) := by
  rw [out2_read]
  exact host_stacked_relu (n := 50000) (d := 64) (o := 64) _ _ _ _ _ _ _ _ _ none _
    (fun k c => slab_read _ 0 _ _ k c) (fun k c => slab_read _ 1 _ _ k c) (fun k c => slab_read _ 2 _ _ k c)
    (fun r c => bias_read _ _ _ r c) _

/-! ## Layer 3 -/

/-- Layer 3's result, read off its operations: three products summed, the bias spread down the rows. -/
theorem out3_read : (after opsL3 U (Proc.devRef .tc main_v172) : S50000x32.Idx → EReal)
    = addf (F := Ideal) (addf (addf (Host.dotGeneral (φ₁ := .f32) (φ₂ := .f32) dot_S50000x64_S64x32_S50000x32_1_0_0_1_n_n none (U (Proc.devRef .tc main_v125) : S50000x64.Idx → EReal) (shapeCast S64x32 (extractStridedSlice S1x64x32 ![0, 0, 0] (U (Proc.devRef .tc main_arg6) : S3x64x32.Idx → EReal) slices_S3x64x32_S1x64x32_0_0_0) shapeCasts_S1x64x32_S64x32))
          (Host.dotGeneral (φ₁ := .f32) (φ₂ := .f32) dot_S50000x64_S64x32_S50000x32_1_0_0_1_n_n none (after opsL3 U (Proc.devRef .tc main_v145) : S50000x64.Idx → EReal) (shapeCast S64x32 (extractStridedSlice S1x64x32 ![1, 0, 0] (U (Proc.devRef .tc main_arg6) : S3x64x32.Idx → EReal) slices_S3x64x32_S1x64x32_1_0_0) shapeCasts_S1x64x32_S64x32)))
          (Host.dotGeneral (φ₁ := .f32) (φ₂ := .f32) dot_S50000x64_S64x32_S50000x32_1_0_0_1_n_n none (after opsL3 U (Proc.devRef .tc main_v165) : S50000x64.Idx → EReal) (shapeCast S64x32 (extractStridedSlice S1x64x32 ![2, 0, 0] (U (Proc.devRef .tc main_arg6) : S3x64x32.Idx → EReal) slices_S3x64x32_S1x64x32_2_0_0) shapeCasts_S1x64x32_S64x32)))
        (broadcastInDim S50000x32 ![0, 1] bcast_S1x32_S50000x32_0_1 (broadcastInDim S1x32 ![1] bcast_S32_S1x32_1 (U (Proc.devRef .tc main_arg7) : S32.Idx → EReal))) := by
  dsimp only [opsL3]
  fold_results
  rfl

/-- Layer 3's result is the stacked layer of its input, of the input's propagation and of the second Chebyshev term. -/
theorem ref_layer3 : (after opsL3 U (Proc.devRef .tc main_v172) : S50000x32.Idx → EReal)
    = stackedDense (n := 50000) (d := 64) (o := 32) (fun x => x) (U (Proc.devRef .tc main_v125)) (after opsL3 U (Proc.devRef .tc main_v145))
        (after opsL3 U (Proc.devRef .tc main_v165)) (U (Proc.devRef .tc main_arg6)) (U (Proc.devRef .tc main_arg7)) := by
  rw [out3_read]
  exact host_stacked (n := 50000) (d := 64) (o := 32) _ _ _ _ _ _ _ _ _ none _
    (fun k c => slab_read _ 0 _ _ k c) (fun k c => slab_read _ 1 _ _ k c) (fun k c => slab_read _ 2 _ _ k c)
    (fun r c => bias_read _ _ _ r c)

/-! ## What a piece leaves alone -/

theorem opsEdge_keeps_main_arg0 : after opsEdge U (Proc.devRef .tc main_arg0) = U (Proc.devRef .tc main_arg0) := by
  dsimp only [opsEdge]; fold_results
theorem opsEdge_keeps_main_arg1 : after opsEdge U (Proc.devRef .tc main_arg1) = U (Proc.devRef .tc main_arg1) := by
  dsimp only [opsEdge]; fold_results
theorem opsEdge_keeps_main_arg2 : after opsEdge U (Proc.devRef .tc main_arg2) = U (Proc.devRef .tc main_arg2) := by
  dsimp only [opsEdge]; fold_results
theorem opsEdge_keeps_main_arg3 : after opsEdge U (Proc.devRef .tc main_arg3) = U (Proc.devRef .tc main_arg3) := by
  dsimp only [opsEdge]; fold_results
theorem opsEdge_keeps_main_arg4 : after opsEdge U (Proc.devRef .tc main_arg4) = U (Proc.devRef .tc main_arg4) := by
  dsimp only [opsEdge]; fold_results
theorem opsEdge_keeps_main_arg5 : after opsEdge U (Proc.devRef .tc main_arg5) = U (Proc.devRef .tc main_arg5) := by
  dsimp only [opsEdge]; fold_results
theorem opsEdge_keeps_main_arg6 : after opsEdge U (Proc.devRef .tc main_arg6) = U (Proc.devRef .tc main_arg6) := by
  dsimp only [opsEdge]; fold_results
theorem opsEdge_keeps_main_arg7 : after opsEdge U (Proc.devRef .tc main_arg7) = U (Proc.devRef .tc main_arg7) := by
  dsimp only [opsEdge]; fold_results
theorem opsL1_keeps_main_v29 : after opsL1 U (Proc.devRef .tc main_v29) = U (Proc.devRef .tc main_v29) := by
  dsimp only [opsL1]; fold_results
theorem opsL1_keeps_main_arg0 : after opsL1 U (Proc.devRef .tc main_arg0) = U (Proc.devRef .tc main_arg0) := by
  dsimp only [opsL1]; fold_results
theorem opsL1_keeps_main_arg1 : after opsL1 U (Proc.devRef .tc main_arg1) = U (Proc.devRef .tc main_arg1) := by
  dsimp only [opsL1]; fold_results
theorem opsL1_keeps_main_arg2 : after opsL1 U (Proc.devRef .tc main_arg2) = U (Proc.devRef .tc main_arg2) := by
  dsimp only [opsL1]; fold_results
theorem opsL1_keeps_main_arg3 : after opsL1 U (Proc.devRef .tc main_arg3) = U (Proc.devRef .tc main_arg3) := by
  dsimp only [opsL1]; fold_results
theorem opsL1_keeps_main_arg4 : after opsL1 U (Proc.devRef .tc main_arg4) = U (Proc.devRef .tc main_arg4) := by
  dsimp only [opsL1]; fold_results
theorem opsL1_keeps_main_arg5 : after opsL1 U (Proc.devRef .tc main_arg5) = U (Proc.devRef .tc main_arg5) := by
  dsimp only [opsL1]; fold_results
theorem opsL1_keeps_main_arg6 : after opsL1 U (Proc.devRef .tc main_arg6) = U (Proc.devRef .tc main_arg6) := by
  dsimp only [opsL1]; fold_results
theorem opsL1_keeps_main_arg7 : after opsL1 U (Proc.devRef .tc main_arg7) = U (Proc.devRef .tc main_arg7) := by
  dsimp only [opsL1]; fold_results
theorem opsL2_keeps_main_v29 : after opsL2 U (Proc.devRef .tc main_v29) = U (Proc.devRef .tc main_v29) := by
  dsimp only [opsL2]; fold_results
theorem opsL2_keeps_main_arg0 : after opsL2 U (Proc.devRef .tc main_arg0) = U (Proc.devRef .tc main_arg0) := by
  dsimp only [opsL2]; fold_results
theorem opsL2_keeps_main_arg1 : after opsL2 U (Proc.devRef .tc main_arg1) = U (Proc.devRef .tc main_arg1) := by
  dsimp only [opsL2]; fold_results
theorem opsL2_keeps_main_arg2 : after opsL2 U (Proc.devRef .tc main_arg2) = U (Proc.devRef .tc main_arg2) := by
  dsimp only [opsL2]; fold_results
theorem opsL2_keeps_main_arg3 : after opsL2 U (Proc.devRef .tc main_arg3) = U (Proc.devRef .tc main_arg3) := by
  dsimp only [opsL2]; fold_results
theorem opsL2_keeps_main_arg4 : after opsL2 U (Proc.devRef .tc main_arg4) = U (Proc.devRef .tc main_arg4) := by
  dsimp only [opsL2]; fold_results
theorem opsL2_keeps_main_arg5 : after opsL2 U (Proc.devRef .tc main_arg5) = U (Proc.devRef .tc main_arg5) := by
  dsimp only [opsL2]; fold_results
theorem opsL2_keeps_main_arg6 : after opsL2 U (Proc.devRef .tc main_arg6) = U (Proc.devRef .tc main_arg6) := by
  dsimp only [opsL2]; fold_results
theorem opsL2_keeps_main_arg7 : after opsL2 U (Proc.devRef .tc main_arg7) = U (Proc.devRef .tc main_arg7) := by
  dsimp only [opsL2]; fold_results
theorem opsL3_keeps_main_arg0 : after opsL3 U (Proc.devRef .tc main_arg0) = U (Proc.devRef .tc main_arg0) := by
  dsimp only [opsL3]; fold_results
theorem opsL3_keeps_main_arg1 : after opsL3 U (Proc.devRef .tc main_arg1) = U (Proc.devRef .tc main_arg1) := by
  dsimp only [opsL3]; fold_results
theorem opsL3_keeps_main_arg2 : after opsL3 U (Proc.devRef .tc main_arg2) = U (Proc.devRef .tc main_arg2) := by
  dsimp only [opsL3]; fold_results
theorem opsL3_keeps_main_arg3 : after opsL3 U (Proc.devRef .tc main_arg3) = U (Proc.devRef .tc main_arg3) := by
  dsimp only [opsL3]; fold_results
theorem opsL3_keeps_main_arg4 : after opsL3 U (Proc.devRef .tc main_arg4) = U (Proc.devRef .tc main_arg4) := by
  dsimp only [opsL3]; fold_results
theorem opsL3_keeps_main_arg5 : after opsL3 U (Proc.devRef .tc main_arg5) = U (Proc.devRef .tc main_arg5) := by
  dsimp only [opsL3]; fold_results
theorem opsL3_keeps_main_arg6 : after opsL3 U (Proc.devRef .tc main_arg6) = U (Proc.devRef .tc main_arg6) := by
  dsimp only [opsL3]; fold_results
theorem opsL3_keeps_main_arg7 : after opsL3 U (Proc.devRef .tc main_arg7) = U (Proc.devRef .tc main_arg7) := by
  dsimp only [opsL3]; fold_results

/-- No operation writes an argument: after the whole fold each argument holds what the fold started from. -/
theorem ops_keeps_main_arg0 : after (ops (F := Ideal)) U (Proc.devRef .tc main_arg0) = U (Proc.devRef .tc main_arg0) := by
  rw [fold_cut]
  exact (opsL3_keeps_main_arg0 _).trans ((opsL2_keeps_main_arg0 _).trans ((opsL1_keeps_main_arg0 _).trans (opsEdge_keeps_main_arg0 _)))
theorem ops_keeps_main_arg1 : after (ops (F := Ideal)) U (Proc.devRef .tc main_arg1) = U (Proc.devRef .tc main_arg1) := by
  rw [fold_cut]
  exact (opsL3_keeps_main_arg1 _).trans ((opsL2_keeps_main_arg1 _).trans ((opsL1_keeps_main_arg1 _).trans (opsEdge_keeps_main_arg1 _)))
theorem ops_keeps_main_arg2 : after (ops (F := Ideal)) U (Proc.devRef .tc main_arg2) = U (Proc.devRef .tc main_arg2) := by
  rw [fold_cut]
  exact (opsL3_keeps_main_arg2 _).trans ((opsL2_keeps_main_arg2 _).trans ((opsL1_keeps_main_arg2 _).trans (opsEdge_keeps_main_arg2 _)))
theorem ops_keeps_main_arg3 : after (ops (F := Ideal)) U (Proc.devRef .tc main_arg3) = U (Proc.devRef .tc main_arg3) := by
  rw [fold_cut]
  exact (opsL3_keeps_main_arg3 _).trans ((opsL2_keeps_main_arg3 _).trans ((opsL1_keeps_main_arg3 _).trans (opsEdge_keeps_main_arg3 _)))
theorem ops_keeps_main_arg4 : after (ops (F := Ideal)) U (Proc.devRef .tc main_arg4) = U (Proc.devRef .tc main_arg4) := by
  rw [fold_cut]
  exact (opsL3_keeps_main_arg4 _).trans ((opsL2_keeps_main_arg4 _).trans ((opsL1_keeps_main_arg4 _).trans (opsEdge_keeps_main_arg4 _)))
theorem ops_keeps_main_arg5 : after (ops (F := Ideal)) U (Proc.devRef .tc main_arg5) = U (Proc.devRef .tc main_arg5) := by
  rw [fold_cut]
  exact (opsL3_keeps_main_arg5 _).trans ((opsL2_keeps_main_arg5 _).trans ((opsL1_keeps_main_arg5 _).trans (opsEdge_keeps_main_arg5 _)))
theorem ops_keeps_main_arg6 : after (ops (F := Ideal)) U (Proc.devRef .tc main_arg6) = U (Proc.devRef .tc main_arg6) := by
  rw [fold_cut]
  exact (opsL3_keeps_main_arg6 _).trans ((opsL2_keeps_main_arg6 _).trans ((opsL1_keeps_main_arg6 _).trans (opsEdge_keeps_main_arg6 _)))
theorem ops_keeps_main_arg7 : after (ops (F := Ideal)) U (Proc.devRef .tc main_arg7) = U (Proc.devRef .tc main_arg7) := by
  rw [fold_cut]
  exact (opsL3_keeps_main_arg7 _).trans ((opsL2_keeps_main_arg7 _).trans ((opsL1_keeps_main_arg7 _).trans (opsEdge_keeps_main_arg7 _)))

end Cert.Proof.Ref

end
-- ==== Proof.RefFrame.lean ====
/-
  The reference program is host operations only: its run ends with every buffer at the fold of the 209 operations over
  the launch contents. No operation writes an argument array, so each argument reads back as launched: the frame claim.
-/
import proofs.«119506_j40063454937588_1_alg».proof.Defs
import proofs.«119506_j40063454937588_1_alg».proof.Proof.Gen.ReferenceIdeal
import proofs.«119506_j40063454937588_1_alg».proof.Proof.Gen.Pre_finite_inputs
import proofs.«119506_j40063454937588_1_alg».proof.Proof.RefFold

noncomputable section

namespace Cert.Proof.Ref

open Cert.ReferenceIdeal Cert.ReferenceIdeal.ValueP
open Idealize.ShloMosaic Idealize.ShloMosaic.TcCoe Idealize.SL.Sem Idealize.ShloMosaic.StableHlo

theorem frame : Cert.frame_ReferenceIdeal := fun m ρ _ =>
  (θ_run Cert.ReferenceIdeal.defs _ _).mono (fun _ h c =>
    ⟨(h c main_arg0).trans (ops_keeps_main_arg0 _),
     (h c main_arg1).trans (ops_keeps_main_arg1 _),
     (h c main_arg2).trans (ops_keeps_main_arg2 _),
     (h c main_arg3).trans (ops_keeps_main_arg3 _),
     (h c main_arg4).trans (ops_keeps_main_arg4 _),
     (h c main_arg5).trans (ops_keeps_main_arg5 _),
     (h c main_arg6).trans (ops_keeps_main_arg6 _),
     (h c main_arg7).trans (ops_keeps_main_arg7 _)⟩)
    (run_fold (F := Ideal) m ρ)

end Cert.Proof.Ref

end
-- ==== Proof.IdealBlocks.lean ====
/-
  From blocks to arrays, over the extended reals. Each of a layer's five grid points writes back one block of 10000 rows:
  at row p and column q of the block, row p of the feature block against column q of the weight matrix, plus the bias
  row's entry at q, then the rectifier (layers 0 and 1). The feature block at point t is rows 10000·t … 10000·t + 9999 of
  the feature array and the weight and bias blocks are their whole arrays, so what point t writes is block t of ONE function
  of the three arrays — entry (r, c) is row r against column c, plus the bias at c. The five blocks cover the output array
  (row r lies in block r / 10000), so after the region the output array IS that function.
-/
import proofs.«119506_j40063454937588_1_alg».proof.Proof.IdealLayer0
import proofs.«119506_j40063454937588_1_alg».proof.Proof.IdealLayer1
import proofs.«119506_j40063454937588_1_alg».proof.Proof.IdealLayer2
import proofs.«119506_j40063454937588_1_alg».proof.Proof.LibDense
import proofs.«119506_j40063454937588_1_alg».proof.Proof.LibStack3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Layers

open Cert.KernelIdeal Cert.KernelIdeal.Gen Cert.LibStack3
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Layer 0 -/

/-- The body's payload at an entry: row `p` of the feature block against column `q` of the weights, the bias row's entry
    added, the rectifier applied. The two narrowing format changes and the three same-shape casts are the identity. -/
theorem pay0_entry (x0 : Vec Ideal S10000x192 .f32) (x1 : Vec Ideal S192x64 .f32) (x2 : Vec Ideal S1x64 .f32) (p : Fin 10000) (q : Fin 64) :
    k0_pay1 (F := Ideal) x0 x1 x2 (ix2 p q)
      = relu ((∑ k : Fin 192, x0 (ix2 p k) * x1 (ix2 k q)) + x2 (ix2 (0 : Fin 1) q)) := by
  unfold k0_pay1
  refine congrArg₂ max ?_ rfl
  refine congrArg₂ (· + ·) ?_ ?_
  · refine (Cert.Hand.Dense.matmul_entry (M := 10000) (K := 192) (N := 64) none _ _ p q).trans ?_
    unfold Cert.Hand.Dense.lin Cert.Hand.Dense.col
    exact Finset.sum_congr rfl fun k _ => congrArg₂ (· * ·) (congrFun (shapeCast_self x0 _) _) (congrFun (shapeCast_self x1 _) _)
  · exact (broadcastTo_1b_ab_apply _ _ p q).trans (congrFun (shapeCast_self x2 _) _)

/-- The whole output array as ONE function of the three input arrays. -/
abbrev whole0 (cat : S50000x192.Idx → EReal) (Wr : S192x64.Idx → EReal) (br : S1x64.Idx → EReal) : S50000x64.Idx → EReal :=
  wideDense (n := 50000) (o := 64) (K := 192) relu cat Wr br

/-- At one entry of one block: if the feature block holds rows T·10000 … of the array and the weight and bias blocks are
    their arrays, the payload at `j` is the whole function at the entry `i` that `j` is in the array. -/
theorem point0 (x0 : Vec Ideal S10000x192 .f32) (x1 : Vec Ideal S192x64 .f32) (x2 : Vec Ideal S1x64 .f32)
    (cat : S50000x192.Idx → EReal) (Wr : S192x64.Idx → EReal) (br : S1x64.Idx → EReal)
    (j : S10000x64.Idx) (i : S50000x64.Idx) (T : ℕ)
    (hi0 : (i 0).val = T * 10000 + (j 0).val) (hi1 : (i 1).val = (j 1).val)
    (h0 : ∀ (y : S10000x192.Idx) (z : S50000x192.Idx), (z 0).val = T * 10000 + (y 0).val → (z 1).val = (y 1).val → x0 y = cat z)
    (h1 : x1 = Wr) (h2 : x2 = br) :
    k0_pay1 (F := Ideal) x0 x1 x2 j = whole0 cat Wr br i := by
  obtain ⟨p, q, rfl⟩ : ∃ (p : Fin 10000) (q : Fin 64), j = ix2 p q := ⟨j 0, j 1, eq_ix2 j⟩
  rw [pay0_entry]
  subst h1 h2
  unfold whole0 wideDense
  have hq : (⟨(i 1).val, (i 1).isLt⟩ : Fin 64) = q := Fin.ext hi1
  rw [hq]
  refine congrArg relu (congrArg₂ (· + ·) (Finset.sum_congr rfl fun k _ => ?_) rfl)
  rw [h0 (ix2 p k) (ix2 (⟨(i 0).val, (i 0).isLt⟩ : Fin 50000) k) hi0 rfl]

/-- The printed index maps over the grid: the feature and output windows move one block of rows per point, the weight and bias
    windows stay on block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the whole function of the arrays as the region finds them. -/
theorem flushed0_eq (c : Dev nD) (t : Fin cfg0.N) :
    (dat0 V c).flushed 3 t = ((cfg0.win 3).blk t).view.read (Elt Ideal) (whole0 (V c main_v63) (V c main_v64) (V c main_v65)) := by
  show (cfg0.win 3).cut (grid0.coords t) ((dat0 V c).after 3 t) = _
  rw [after0_3]
  unfold out0_3
  rw [View.canon_unit_zero hz]
  simp only [View.ld_unit_zero (S := S10000x192) hz, View.ld_unit_zero (S := S192x64) hz, View.ld_unit_zero (S := S1x64) hz]
  obtain ⟨e0, e1, e2, e3, e4, e5, e6, e7⟩ := idx_facts0 t
  funext j
  show k0_pay1 (F := Ideal) (iblk0 V c 0 t) (iblk0 V c 1 t) (iblk0 V c 2 t) j
    = whole0 (V c main_v63) (V c main_v64) (V c main_v65) (((cfg0.win 3).blk t).view.emb j)
  refine point0 (iblk0 V c 0 t) (iblk0 V c 1 t) (iblk0 V c 2 t) (V c main_v63) (V c main_v64) (V c main_v65) j
    (((cfg0.win 3).blk t).view.emb j) t.val ?_ ?_ ?_ ?_ ?_
  · show win0_3.index t (0 : Fin 2) * 10000 + 1 * (j 0).val = t.val * 10000 + (j 0).val
    rw [e6]; omega
  · show win0_3.index t (1 : Fin 2) * 64 + 1 * (j 1).val = (j 1).val
    rw [e7]; omega
  · intro y z hz0 hz1
    show V c main_v63 (((cfg0.win 0).blk t).view.emb y) = V c main_v63 z
    refine congrArg _ (funext fun a => Fin.ext ?_)
    match a with
    | ⟨0, _⟩ => show win0_0.index t (0 : Fin 2) * 10000 + 1 * (y 0).val = (z 0).val; rw [e0, hz0]; omega
    | ⟨1, _⟩ => show win0_0.index t (1 : Fin 2) * 192 + 1 * (y 1).val = (z 1).val; rw [e1, hz1]; omega
  · funext y
    show V c main_v64 (((cfg0.win 1).blk t).view.emb y) = V c main_v64 y
    refine congrArg _ (funext fun a => Fin.ext ?_)
    match a with
    | ⟨0, _⟩ => show win0_1.index t (0 : Fin 2) * 192 + 1 * (y 0).val = (y 0).val; rw [e2]; omega
    | ⟨1, _⟩ => show win0_1.index t (1 : Fin 2) * 64 + 1 * (y 1).val = (y 1).val; rw [e3]; omega
  · funext y
    show V c main_v65 (((cfg0.win 2).blk t).view.emb y) = V c main_v65 y
    refine congrArg _ (funext fun a => Fin.ext ?_)
    match a with
    | ⟨0, _⟩ => show win0_2.index t (0 : Fin 2) * 1 + 1 * (y 0).val = (y 0).val; rw [e4]; omega
    | ⟨1, _⟩ => show win0_2.index t (1 : Fin 2) * 64 + 1 * (y 1).val = (y 1).val; rw [e5]; omega

/-- An index of the output array is in point `t`'s block iff each coordinate is in the block's range on its axis. -/
theorem mem_blk0 (t : Fin cfg0.N) (i : S50000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v66).slice (win0_3.rect t)).set ↔ _
  rw [View.set_slice_whole, Rect.mem_set_unit]
  exact Iff.rfl

/-- Every entry of the output array is in the block of the point its row falls in: row r is in block r / 10000. -/
theorem cover0 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : grid0.N = 5 := N_0
  refine ⟨⟨(i 0).val / 10000, by show (i 0).val / 10000 < grid0.N; rw [hN]; omega⟩, flush0_3 _, ?_⟩
  rw [mem_blk0]
  obtain ⟨-, -, -, -, -, -, e6, e7⟩ := idx_facts0 ⟨(i 0).val / 10000, by show (i 0).val / 10000 < grid0.N; rw [hN]; omega⟩
  intro a
  match a with
  | ⟨0, _⟩ =>
    show win0_3.index _ (0 : Fin 2) * 10000 ≤ (i 0).val ∧ (i 0).val < win0_3.index _ (0 : Fin 2) * 10000 + 10000
    rw [e6]; show (i 0).val / 10000 * 10000 ≤ (i 0).val ∧ (i 0).val < (i 0).val / 10000 * 10000 + 10000; omega
  | ⟨1, _⟩ =>
    show win0_3.index _ (1 : Fin 2) * 64 ≤ (i 1).val ∧ (i 1).val < win0_3.index _ (1 : Fin 2) * 64 + 64
    rw [e7]; omega

/-- THE OUTPUT ARRAY after the region: the whole function of the three input arrays as the region finds them. -/
theorem final0 (c : Dev nD) : (dat0 V c).arrAt 3 cfg0.N = whole0 (V c main_v63) (V c main_v64) (V c main_v65) :=
  (dat0 V c).arrAt_eq_of_cover 3 _ (fun t _ => flushed0_eq V c t) (cover0)

/-! ## Layer 1 -/

/-- The body's payload at an entry: row `p` of the feature block against column `q` of the weights, the bias row's entry
    added, the rectifier applied. The two narrowing format changes and the three same-shape casts are the identity. -/
theorem pay1_entry (x0 : Vec Ideal S10000x192 .f32) (x1 : Vec Ideal S192x64 .f32) (x2 : Vec Ideal S1x64 .f32) (p : Fin 10000) (q : Fin 64) :
    k1_pay1 (F := Ideal) x0 x1 x2 (ix2 p q)
      = relu ((∑ k : Fin 192, x0 (ix2 p k) * x1 (ix2 k q)) + x2 (ix2 (0 : Fin 1) q)) := by
  unfold k1_pay1
  refine congrArg₂ max ?_ rfl
  refine congrArg₂ (· + ·) ?_ ?_
  · refine (Cert.Hand.Dense.matmul_entry (M := 10000) (K := 192) (N := 64) none _ _ p q).trans ?_
    unfold Cert.Hand.Dense.lin Cert.Hand.Dense.col
    exact Finset.sum_congr rfl fun k _ => congrArg₂ (· * ·) (congrFun (shapeCast_self x0 _) _) (congrFun (shapeCast_self x1 _) _)
  · exact (broadcastTo_1b_ab_apply _ _ p q).trans (congrFun (shapeCast_self x2 _) _)

/-- The whole output array as ONE function of the three input arrays. -/
abbrev whole1 (cat : S50000x192.Idx → EReal) (Wr : S192x64.Idx → EReal) (br : S1x64.Idx → EReal) : S50000x64.Idx → EReal :=
  wideDense (n := 50000) (o := 64) (K := 192) relu cat Wr br

/-- At one entry of one block: if the feature block holds rows T·10000 … of the array and the weight and bias blocks are
    their arrays, the payload at `j` is the whole function at the entry `i` that `j` is in the array. -/
theorem point1 (x0 : Vec Ideal S10000x192 .f32) (x1 : Vec Ideal S192x64 .f32) (x2 : Vec Ideal S1x64 .f32)
    (cat : S50000x192.Idx → EReal) (Wr : S192x64.Idx → EReal) (br : S1x64.Idx → EReal)
    (j : S10000x64.Idx) (i : S50000x64.Idx) (T : ℕ)
    (hi0 : (i 0).val = T * 10000 + (j 0).val) (hi1 : (i 1).val = (j 1).val)
    (h0 : ∀ (y : S10000x192.Idx) (z : S50000x192.Idx), (z 0).val = T * 10000 + (y 0).val → (z 1).val = (y 1).val → x0 y = cat z)
    (h1 : x1 = Wr) (h2 : x2 = br) :
    k1_pay1 (F := Ideal) x0 x1 x2 j = whole1 cat Wr br i := by
  obtain ⟨p, q, rfl⟩ : ∃ (p : Fin 10000) (q : Fin 64), j = ix2 p q := ⟨j 0, j 1, eq_ix2 j⟩
  rw [pay1_entry]
  subst h1 h2
  unfold whole1 wideDense
  have hq : (⟨(i 1).val, (i 1).isLt⟩ : Fin 64) = q := Fin.ext hi1
  rw [hq]
  refine congrArg relu (congrArg₂ (· + ·) (Finset.sum_congr rfl fun k _ => ?_) rfl)
  rw [h0 (ix2 p k) (ix2 (⟨(i 0).val, (i 0).isLt⟩ : Fin 50000) k) hi0 rfl]

/-- The printed index maps over the grid: the feature and output windows move one block of rows per point, the weight and bias
    windows stay on block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of the whole function of the arrays as the region finds them. -/
theorem flushed1_eq (c : Dev nD) (t : Fin cfg1.N) :
    (dat1 V c).flushed 3 t = ((cfg1.win 3).blk t).view.read (Elt Ideal) (whole1 (V c main_v100) (V c main_v101) (V c main_v102)) := by
  show (cfg1.win 3).cut (grid1.coords t) ((dat1 V c).after 3 t) = _
  rw [after1_3]
  unfold out1_3
  rw [View.canon_unit_zero hz]
  simp only [View.ld_unit_zero (S := S10000x192) hz, View.ld_unit_zero (S := S192x64) hz, View.ld_unit_zero (S := S1x64) hz]
  obtain ⟨e0, e1, e2, e3, e4, e5, e6, e7⟩ := idx_facts1 t
  funext j
  show k1_pay1 (F := Ideal) (iblk1 V c 0 t) (iblk1 V c 1 t) (iblk1 V c 2 t) j
    = whole1 (V c main_v100) (V c main_v101) (V c main_v102) (((cfg1.win 3).blk t).view.emb j)
  refine point1 (iblk1 V c 0 t) (iblk1 V c 1 t) (iblk1 V c 2 t) (V c main_v100) (V c main_v101) (V c main_v102) j
    (((cfg1.win 3).blk t).view.emb j) t.val ?_ ?_ ?_ ?_ ?_
  · show win1_3.index t (0 : Fin 2) * 10000 + 1 * (j 0).val = t.val * 10000 + (j 0).val
    rw [e6]; omega
  · show win1_3.index t (1 : Fin 2) * 64 + 1 * (j 1).val = (j 1).val
    rw [e7]; omega
  · intro y z hz0 hz1
    show V c main_v100 (((cfg1.win 0).blk t).view.emb y) = V c main_v100 z
    refine congrArg _ (funext fun a => Fin.ext ?_)
    match a with
    | ⟨0, _⟩ => show win1_0.index t (0 : Fin 2) * 10000 + 1 * (y 0).val = (z 0).val; rw [e0, hz0]; omega
    | ⟨1, _⟩ => show win1_0.index t (1 : Fin 2) * 192 + 1 * (y 1).val = (z 1).val; rw [e1, hz1]; omega
  · funext y
    show V c main_v101 (((cfg1.win 1).blk t).view.emb y) = V c main_v101 y
    refine congrArg _ (funext fun a => Fin.ext ?_)
    match a with
    | ⟨0, _⟩ => show win1_1.index t (0 : Fin 2) * 192 + 1 * (y 0).val = (y 0).val; rw [e2]; omega
    | ⟨1, _⟩ => show win1_1.index t (1 : Fin 2) * 64 + 1 * (y 1).val = (y 1).val; rw [e3]; omega
  · funext y
    show V c main_v102 (((cfg1.win 2).blk t).view.emb y) = V c main_v102 y
    refine congrArg _ (funext fun a => Fin.ext ?_)
    match a with
    | ⟨0, _⟩ => show win1_2.index t (0 : Fin 2) * 1 + 1 * (y 0).val = (y 0).val; rw [e4]; omega
    | ⟨1, _⟩ => show win1_2.index t (1 : Fin 2) * 64 + 1 * (y 1).val = (y 1).val; rw [e5]; omega

/-- An index of the output array is in point `t`'s block iff each coordinate is in the block's range on its axis. -/
theorem mem_blk1 (t : Fin cfg1.N) (i : S50000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v103).slice (win1_3.rect t)).set ↔ _
  rw [View.set_slice_whole, Rect.mem_set_unit]
  exact Iff.rfl

/-- Every entry of the output array is in the block of the point its row falls in: row r is in block r / 10000. -/
theorem cover1 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : grid1.N = 5 := N_1
  refine ⟨⟨(i 0).val / 10000, by show (i 0).val / 10000 < grid1.N; rw [hN]; omega⟩, flush1_3 _, ?_⟩
  rw [mem_blk1]
  obtain ⟨-, -, -, -, -, -, e6, e7⟩ := idx_facts1 ⟨(i 0).val / 10000, by show (i 0).val / 10000 < grid1.N; rw [hN]; omega⟩
  intro a
  match a with
  | ⟨0, _⟩ =>
    show win1_3.index _ (0 : Fin 2) * 10000 ≤ (i 0).val ∧ (i 0).val < win1_3.index _ (0 : Fin 2) * 10000 + 10000
    rw [e6]; show (i 0).val / 10000 * 10000 ≤ (i 0).val ∧ (i 0).val < (i 0).val / 10000 * 10000 + 10000; omega
  | ⟨1, _⟩ =>
    show win1_3.index _ (1 : Fin 2) * 64 ≤ (i 1).val ∧ (i 1).val < win1_3.index _ (1 : Fin 2) * 64 + 64
    rw [e7]; omega

/-- THE OUTPUT ARRAY after the region: the whole function of the three input arrays as the region finds them. -/
theorem final1 (c : Dev nD) : (dat1 V c).arrAt 3 cfg1.N = whole1 (V c main_v100) (V c main_v101) (V c main_v102) :=
  (dat1 V c).arrAt_eq_of_cover 3 _ (fun t _ => flushed1_eq V c t) (cover1)

/-! ## Layer 2 -/

/-- The body's payload at an entry: row `p` of the feature block against column `q` of the weights, the bias row's entry
    added. The two narrowing format changes and the three same-shape casts are the identity. -/
theorem pay2_entry (x0 : Vec Ideal S10000x192 .f32) (x1 : Vec Ideal S192x32 .f32) (x2 : Vec Ideal S1x32 .f32) (p : Fin 10000) (q : Fin 32) :
    k2_pay1 (F := Ideal) x0 x1 x2 (ix2 p q)
      = (fun x => x) ((∑ k : Fin 192, x0 (ix2 p k) * x1 (ix2 k q)) + x2 (ix2 (0 : Fin 1) q)) := by
  unfold k2_pay1
  refine congrArg₂ (· + ·) ?_ ?_
  · refine (Cert.Hand.Dense.matmul_entry (M := 10000) (K := 192) (N := 32) none _ _ p q).trans ?_
    unfold Cert.Hand.Dense.lin Cert.Hand.Dense.col
    exact Finset.sum_congr rfl fun k _ => congrArg₂ (· * ·) (congrFun (shapeCast_self x0 _) _) (congrFun (shapeCast_self x1 _) _)
  · exact (broadcastTo_1b_ab_apply _ _ p q).trans (congrFun (shapeCast_self x2 _) _)

/-- The whole output array as ONE function of the three input arrays. -/
abbrev whole2 (cat : S50000x192.Idx → EReal) (Wr : S192x32.Idx → EReal) (br : S1x32.Idx → EReal) : S50000x32.Idx → EReal :=
  wideDense (n := 50000) (o := 32) (K := 192) (fun x => x) cat Wr br

/-- At one entry of one block: if the feature block holds rows T·10000 … of the array and the weight and bias blocks are
    their arrays, the payload at `j` is the whole function at the entry `i` that `j` is in the array. -/
theorem point2 (x0 : Vec Ideal S10000x192 .f32) (x1 : Vec Ideal S192x32 .f32) (x2 : Vec Ideal S1x32 .f32)
    (cat : S50000x192.Idx → EReal) (Wr : S192x32.Idx → EReal) (br : S1x32.Idx → EReal)
    (j : S10000x32.Idx) (i : S50000x32.Idx) (T : ℕ)
    (hi0 : (i 0).val = T * 10000 + (j 0).val) (hi1 : (i 1).val = (j 1).val)
    (h0 : ∀ (y : S10000x192.Idx) (z : S50000x192.Idx), (z 0).val = T * 10000 + (y 0).val → (z 1).val = (y 1).val → x0 y = cat z)
    (h1 : x1 = Wr) (h2 : x2 = br) :
    k2_pay1 (F := Ideal) x0 x1 x2 j = whole2 cat Wr br i := by
  obtain ⟨p, q, rfl⟩ : ∃ (p : Fin 10000) (q : Fin 32), j = ix2 p q := ⟨j 0, j 1, eq_ix2 j⟩
  rw [pay2_entry]
  subst h1 h2
  unfold whole2 wideDense
  have hq : (⟨(i 1).val, (i 1).isLt⟩ : Fin 32) = q := Fin.ext hi1
  rw [hq]
  refine congrArg (fun x => x) (congrArg₂ (· + ·) (Finset.sum_congr rfl fun k _ => ?_) rfl)
  rw [h0 (ix2 p k) (ix2 (⟨(i 0).val, (i 0).isLt⟩ : Fin 50000) k) hi0 rfl]

/-- The printed index maps over the grid: the feature and output windows move one block of rows per point, the weight and bias
    windows stay on block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT `t` WRITES BACK is block `t` of the whole function of the arrays as the region finds them. -/
theorem flushed2_eq (c : Dev nD) (t : Fin cfg2.N) :
    (dat2 V c).flushed 3 t = ((cfg2.win 3).blk t).view.read (Elt Ideal) (whole2 (V c main_v137) (V c main_v138) (V c main_v139)) := by
  show (cfg2.win 3).cut (grid2.coords t) ((dat2 V c).after 3 t) = _
  rw [after2_3]
  unfold out2_3
  rw [View.canon_unit_zero hz]
  simp only [View.ld_unit_zero (S := S10000x192) hz, View.ld_unit_zero (S := S192x32) hz, View.ld_unit_zero (S := S1x32) hz]
  obtain ⟨e0, e1, e2, e3, e4, e5, e6, e7⟩ := idx_facts2 t
  funext j
  show k2_pay1 (F := Ideal) (iblk2 V c 0 t) (iblk2 V c 1 t) (iblk2 V c 2 t) j
    = whole2 (V c main_v137) (V c main_v138) (V c main_v139) (((cfg2.win 3).blk t).view.emb j)
  refine point2 (iblk2 V c 0 t) (iblk2 V c 1 t) (iblk2 V c 2 t) (V c main_v137) (V c main_v138) (V c main_v139) j
    (((cfg2.win 3).blk t).view.emb j) t.val ?_ ?_ ?_ ?_ ?_
  · show win2_3.index t (0 : Fin 2) * 10000 + 1 * (j 0).val = t.val * 10000 + (j 0).val
    rw [e6]; omega
  · show win2_3.index t (1 : Fin 2) * 32 + 1 * (j 1).val = (j 1).val
    rw [e7]; omega
  · intro y z hz0 hz1
    show V c main_v137 (((cfg2.win 0).blk t).view.emb y) = V c main_v137 z
    refine congrArg _ (funext fun a => Fin.ext ?_)
    match a with
    | ⟨0, _⟩ => show win2_0.index t (0 : Fin 2) * 10000 + 1 * (y 0).val = (z 0).val; rw [e0, hz0]; omega
    | ⟨1, _⟩ => show win2_0.index t (1 : Fin 2) * 192 + 1 * (y 1).val = (z 1).val; rw [e1, hz1]; omega
  · funext y
    show V c main_v138 (((cfg2.win 1).blk t).view.emb y) = V c main_v138 y
    refine congrArg _ (funext fun a => Fin.ext ?_)
    match a with
    | ⟨0, _⟩ => show win2_1.index t (0 : Fin 2) * 192 + 1 * (y 0).val = (y 0).val; rw [e2]; omega
    | ⟨1, _⟩ => show win2_1.index t (1 : Fin 2) * 32 + 1 * (y 1).val = (y 1).val; rw [e3]; omega
  · funext y
    show V c main_v139 (((cfg2.win 2).blk t).view.emb y) = V c main_v139 y
    refine congrArg _ (funext fun a => Fin.ext ?_)
    match a with
    | ⟨0, _⟩ => show win2_2.index t (0 : Fin 2) * 1 + 1 * (y 0).val = (y 0).val; rw [e4]; omega
    | ⟨1, _⟩ => show win2_2.index t (1 : Fin 2) * 32 + 1 * (y 1).val = (y 1).val; rw [e5]; omega

/-- An index of the output array is in point `t`'s block iff each coordinate is in the block's range on its axis. -/
theorem mem_blk2 (t : Fin cfg2.N) (i : S50000x32.Idx) :
    i ∈ ((cfg2.win 3).blk t).view.set ↔ ∀ a : Fin 2, win2_3.index t a * S10000x32.size a ≤ (i a).val ∧ (i a).val < win2_3.index t a * S10000x32.size a + S10000x32.size a := by
  show i ∈ ((View.whole main_v140).slice (win2_3.rect t)).set ↔ _
  rw [View.set_slice_whole, Rect.mem_set_unit]
  exact Iff.rfl

/-- Every entry of the output array is in the block of the point its row falls in: row r is in block r / 10000. -/
theorem cover2 (i : S50000x32.Idx) : ∃ t : Fin cfg2.N, (cfg2.win 3).flush t = true ∧ i ∈ ((cfg2.win 3).blk t).view.set := by
  have hi0 : (i 0).val < 50000 := (i 0).isLt
  have hi1 : (i 1).val < 32 := (i 1).isLt
  have hN : grid2.N = 5 := N_2
  refine ⟨⟨(i 0).val / 10000, by show (i 0).val / 10000 < grid2.N; rw [hN]; omega⟩, flush2_3 _, ?_⟩
  rw [mem_blk2]
  obtain ⟨-, -, -, -, -, -, e6, e7⟩ := idx_facts2 ⟨(i 0).val / 10000, by show (i 0).val / 10000 < grid2.N; rw [hN]; omega⟩
  intro a
  match a with
  | ⟨0, _⟩ =>
    show win2_3.index _ (0 : Fin 2) * 10000 ≤ (i 0).val ∧ (i 0).val < win2_3.index _ (0 : Fin 2) * 10000 + 10000
    rw [e6]; show (i 0).val / 10000 * 10000 ≤ (i 0).val ∧ (i 0).val < (i 0).val / 10000 * 10000 + 10000; omega
  | ⟨1, _⟩ =>
    show win2_3.index _ (1 : Fin 2) * 32 ≤ (i 1).val ∧ (i 1).val < win2_3.index _ (1 : Fin 2) * 32 + 32
    rw [e7]; omega

/-- THE OUTPUT ARRAY after the region: the whole function of the three input arrays as the region finds them. -/
theorem final2 (c : Dev nD) : (dat2 V c).arrAt 3 cfg2.N = whole2 (V c main_v137) (V c main_v138) (V c main_v139) :=
  (dat2 V c).arrAt_eq_of_cover 3 _ (fun t _ => flushed2_eq V c t) (cover2)

end Cert.KernelIdeal.Layers

end
-- ==== Proof.IdealFold.lean ====
/-
  What each stretch of host operations leaves in the three arrays the following region reads, as functions of the contents
  the stretch starts from: the features are the concatenation of the layer's input h, of its propagation L̂h and of the
  Chebyshev term 2·L̂(L̂h) − h; the weights are the stack of three slabs flattened; the bias is the vector as a one-row
  matrix. With the law of three blocks against a flattened stack, the region's whole function of these is the layer as
  the sum of three block products.
-/
import proofs.«119506_j40063454937588_1_alg».proof.Proof.IdealRun
import proofs.«119506_j40063454937588_1_alg».proof.Proof.IdealBlocks
import proofs.«119506_j40063454937588_1_alg».proof.Proof.LibFold3

set_option maxRecDepth 16384

noncomputable section

namespace Cert.KernelIdeal.Layers

open Cert.KernelIdeal Cert.KernelIdeal.Gen Cert.LibStack3 Cert.LibFold3
open Idealize.ShloMosaic Idealize.ShloMosaic.TcCoe Idealize.ShloMosaic.ValueIdx Idealize.ShloMosaic.StableHlo
open Idealize.SL.Sem

variable (U : Valuation τ sig (Elt Ideal))

/-! ## The stretch before layer 0 -/

/-- The feature array the region reads: the layer's input, its first propagation and its second Chebyshev term side by side. -/
theorem cat0_read : (after hostOps0_2 U (Proc.devRef .tc main_v63) : S50000x192.Idx → EReal)
    = concatenate S50000x192 1 [⟨S50000x64, (U (Proc.devRef .tc main_arg0) : S50000x64.Idx → EReal)⟩,
        ⟨S50000x64, (after hostOps0_2 U (Proc.devRef .tc main_v46) : S50000x64.Idx → EReal)⟩,
        ⟨S50000x64, (after hostOps0_2 U (Proc.devRef .tc main_v62) : S50000x64.Idx → EReal)⟩] concatenates_S50000x64_S50000x64_S50000x64_S50000x192_d1 := by
  dsimp only [hostOps0_2]
  fold_results
  rfl

/-- The weight matrix the region reads: the stack of three slabs flattened. -/
theorem w0_read : (after hostOps0_2 U (Proc.devRef .tc main_v64) : S192x64.Idx → EReal)
    = shapeCast S192x64 (U (Proc.devRef .tc main_arg2) : S3x64x64.Idx → EReal) shapeCasts_S3x64x64_S192x64 := by
  dsimp only [hostOps0_2]
  fold_results
  rfl

/-- The bias the region reads: the vector as a one-row matrix. -/
theorem b0_read : (after hostOps0_2 U (Proc.devRef .tc main_v65) : S1x64.Idx → EReal)
    = shapeCast S1x64 (U (Proc.devRef .tc main_arg3) : S64.Idx → EReal) shapeCasts_S64_S1x64 := by
  dsimp only [hostOps0_2]
  fold_results
  rfl

/-- The region's whole function of what the stretch leaves is the layer as three block products summed. -/
theorem kernel_layer0 :
    whole0 (after hostOps0_2 U (Proc.devRef .tc main_v63)) (after hostOps0_2 U (Proc.devRef .tc main_v64)) (after hostOps0_2 U (Proc.devRef .tc main_v65))
      = stackedDense (n := 50000) (d := 64) (o := 64) relu (U (Proc.devRef .tc main_arg0)) (after hostOps0_2 U (Proc.devRef .tc main_v46))
          (after hostOps0_2 U (Proc.devRef .tc main_v62)) (U (Proc.devRef .tc main_arg2)) (U (Proc.devRef .tc main_arg3)) := by
  rw [cat0_read, w0_read, b0_read]
  exact wideDense_eq (n := 50000) (d := 64) (o := 64) relu _ _ _ _ _ _ _ _

/-! ## The stretch before layer 1 -/

/-- The feature array the region reads: the layer's input, its first propagation and its second Chebyshev term side by side. -/
theorem cat1_read : (after hostOps1 U (Proc.devRef .tc main_v100) : S50000x192.Idx → EReal)
    = concatenate S50000x192 1 [⟨S50000x64, (U (Proc.devRef .tc main_v66) : S50000x64.Idx → EReal)⟩,
        ⟨S50000x64, (after hostOps1 U (Proc.devRef .tc main_v83) : S50000x64.Idx → EReal)⟩,
        ⟨S50000x64, (after hostOps1 U (Proc.devRef .tc main_v99) : S50000x64.Idx → EReal)⟩] concatenates_S50000x64_S50000x64_S50000x64_S50000x192_d1 := by
  dsimp only [hostOps1]
  fold_results
  rfl

/-- The weight matrix the region reads: the stack of three slabs flattened. -/
theorem w1_read : (after hostOps1 U (Proc.devRef .tc main_v101) : S192x64.Idx → EReal)
    = shapeCast S192x64 (U (Proc.devRef .tc main_arg4) : S3x64x64.Idx → EReal) shapeCasts_S3x64x64_S192x64 := by
  dsimp only [hostOps1]
  fold_results
  rfl

/-- The bias the region reads: the vector as a one-row matrix. -/
theorem b1_read : (after hostOps1 U (Proc.devRef .tc main_v102) : S1x64.Idx → EReal)
    = shapeCast S1x64 (U (Proc.devRef .tc main_arg5) : S64.Idx → EReal) shapeCasts_S64_S1x64 := by
  dsimp only [hostOps1]
  fold_results
  rfl

/-- The region's whole function of what the stretch leaves is the layer as three block products summed. -/
theorem kernel_layer1 :
    whole1 (after hostOps1 U (Proc.devRef .tc main_v100)) (after hostOps1 U (Proc.devRef .tc main_v101)) (after hostOps1 U (Proc.devRef .tc main_v102))
      = stackedDense (n := 50000) (d := 64) (o := 64) relu (U (Proc.devRef .tc main_v66)) (after hostOps1 U (Proc.devRef .tc main_v83))
          (after hostOps1 U (Proc.devRef .tc main_v99)) (U (Proc.devRef .tc main_arg4)) (U (Proc.devRef .tc main_arg5)) := by
  rw [cat1_read, w1_read, b1_read]
  exact wideDense_eq (n := 50000) (d := 64) (o := 64) relu _ _ _ _ _ _ _ _

/-! ## The stretch before layer 2 -/

/-- The feature array the region reads: the layer's input, its first propagation and its second Chebyshev term side by side. -/
theorem cat2_read : (after hostOps2 U (Proc.devRef .tc main_v137) : S50000x192.Idx → EReal)
    = concatenate S50000x192 1 [⟨S50000x64, (U (Proc.devRef .tc main_v103) : S50000x64.Idx → EReal)⟩,
        ⟨S50000x64, (after hostOps2 U (Proc.devRef .tc main_v120) : S50000x64.Idx → EReal)⟩,
        ⟨S50000x64, (after hostOps2 U (Proc.devRef .tc main_v136) : S50000x64.Idx → EReal)⟩] concatenates_S50000x64_S50000x64_S50000x64_S50000x192_d1 := by
  dsimp only [hostOps2]
  fold_results
  rfl

/-- The weight matrix the region reads: the stack of three slabs flattened. -/
theorem w2_read : (after hostOps2 U (Proc.devRef .tc main_v138) : S192x32.Idx → EReal)
    = shapeCast S192x32 (U (Proc.devRef .tc main_arg6) : S3x64x32.Idx → EReal) shapeCasts_S3x64x32_S192x32 := by
  dsimp only [hostOps2]
  fold_results
  rfl

/-- The bias the region reads: the vector as a one-row matrix. -/
theorem b2_read : (after hostOps2 U (Proc.devRef .tc main_v139) : S1x32.Idx → EReal)
    = shapeCast S1x32 (U (Proc.devRef .tc main_arg7) : S32.Idx → EReal) shapeCasts_S32_S1x32 := by
  dsimp only [hostOps2]
  fold_results
  rfl

/-- The region's whole function of what the stretch leaves is the layer as three block products summed. -/
theorem kernel_layer2 :
    whole2 (after hostOps2 U (Proc.devRef .tc main_v137)) (after hostOps2 U (Proc.devRef .tc main_v138)) (after hostOps2 U (Proc.devRef .tc main_v139))
      = stackedDense (n := 50000) (d := 64) (o := 32) (fun x => x) (U (Proc.devRef .tc main_v103)) (after hostOps2 U (Proc.devRef .tc main_v120))
          (after hostOps2 U (Proc.devRef .tc main_v136)) (U (Proc.devRef .tc main_arg6)) (U (Proc.devRef .tc main_arg7)) := by
  rw [cat2_read, w2_read, b2_read]
  exact wideDense_eq (n := 50000) (d := 64) (o := 32) (fun x => x) _ _ _ _ _ _ _ _

end Cert.KernelIdeal.Layers

end
-- ==== Proof.Corr.lean ====
/-
  The two programs compute the same arrays, stage by stage, over the extended reals.

  Both programs build the same edge weights from the edge list by the same operations, and at each layer the same
  propagation L̂h (gather the rows at the edges' sources, scale by the edge weights, scatter-add at the edges' targets)
  and the same Chebyshev term 2·L̂(L̂h) − h of the same input h: read off the folds as functions of the contents they
  start from, the two sides are the same terms. The layers' outputs then agree by the law of three blocks against a
  flattened stack: the kernel program multiplies the three terms laid side by side by the weight stack flattened, the
  reference sums three products, one per slab. So the agreement of (layer input, edge weights, edge list, remaining
  weights) passes from one boundary between layers to the next, from the launch to the result.
-/
import proofs.«119506_j40063454937588_1_alg».proof.Proof.IdealFold
import proofs.«119506_j40063454937588_1_alg».proof.Proof.RefFold

set_option maxRecDepth 16384

noncomputable section

namespace Cert.Proof.Corr

open Cert.LibStack3 Cert.LibFold3 Cert.Proof.Ref
open Cert.KernelIdeal.Layers
open Idealize.ShloMosaic Idealize.ShloMosaic.TcCoe Idealize.ShloMosaic.StableHlo
open Idealize.SL.Sem

/-- The contents type of a buffer of the kernel program, the common type the two programs' buffers are compared at. -/
abbrev TyK (r : Ref Cert.KernelIdeal.sig .tc) : Type := (Proc.devRef (τ := Cert.KernelIdeal.τ) .tc r).ty.Contents (Elt Ideal)

variable (UK : Valuation Cert.KernelIdeal.τ Cert.KernelIdeal.sig (Elt Ideal)) (UR : Valuation Cert.ReferenceIdeal.τ Cert.ReferenceIdeal.sig (Elt Ideal))

/-! ## The shared host chains -/

set_option maxHeartbeats 4000000 in
/-- From the launch: the edge weights are the same term of the edge list in both programs. -/
theorem edge_term (he : (UK (Proc.devRef .tc Cert.KernelIdeal.main_arg1) : TyK Cert.KernelIdeal.main_arg1) = UR (Proc.devRef .tc Cert.ReferenceIdeal.main_arg1)) :
    (after Cert.KernelIdeal.Gen.hostOps0_2 (after Cert.KernelIdeal.Gen.hostOps0_1 (after Cert.KernelIdeal.Gen.hostOps0 UK)) (Proc.devRef .tc Cert.KernelIdeal.main_v29) : TyK Cert.KernelIdeal.main_v29) = after Cert.ReferenceIdeal.ValueP.opsEdge UR (Proc.devRef .tc Cert.ReferenceIdeal.main_v29) := by
  dsimp only [Cert.KernelIdeal.Gen.hostOps0_2, Cert.KernelIdeal.Gen.hostOps0_1, Cert.KernelIdeal.Gen.hostOps0, Cert.ReferenceIdeal.ValueP.opsEdge]
  fold_results
  rw [he]
  rfl

set_option maxHeartbeats 4000000 in
/-- Layer 1's propagation of the node features is the same term of the features and the edge list in both programs. -/
theorem l1_p1 (hx : (UK (Proc.devRef .tc Cert.KernelIdeal.main_arg0) : TyK Cert.KernelIdeal.main_arg0) = UR (Proc.devRef .tc Cert.ReferenceIdeal.main_arg0)) (he : (UK (Proc.devRef .tc Cert.KernelIdeal.main_arg1) : TyK Cert.KernelIdeal.main_arg1) = UR (Proc.devRef .tc Cert.ReferenceIdeal.main_arg1)) :
    (after Cert.KernelIdeal.Gen.hostOps0_2 (after Cert.KernelIdeal.Gen.hostOps0_1 (after Cert.KernelIdeal.Gen.hostOps0 UK)) (Proc.devRef .tc Cert.KernelIdeal.main_v46) : TyK Cert.KernelIdeal.main_v46) = after Cert.ReferenceIdeal.ValueP.opsL1 (after Cert.ReferenceIdeal.ValueP.opsEdge UR) (Proc.devRef .tc Cert.ReferenceIdeal.main_v49) := by
  dsimp only [Cert.KernelIdeal.Gen.hostOps0_2, Cert.KernelIdeal.Gen.hostOps0_1, Cert.KernelIdeal.Gen.hostOps0, Cert.ReferenceIdeal.ValueP.opsEdge, Cert.ReferenceIdeal.ValueP.opsL1]
  fold_results
  rw [he, hx]
  rfl

set_option maxHeartbeats 4000000 in
/-- Layer 1's second Chebyshev term, likewise. -/
theorem l1_p2 (hx : (UK (Proc.devRef .tc Cert.KernelIdeal.main_arg0) : TyK Cert.KernelIdeal.main_arg0) = UR (Proc.devRef .tc Cert.ReferenceIdeal.main_arg0)) (he : (UK (Proc.devRef .tc Cert.KernelIdeal.main_arg1) : TyK Cert.KernelIdeal.main_arg1) = UR (Proc.devRef .tc Cert.ReferenceIdeal.main_arg1)) :
    (after Cert.KernelIdeal.Gen.hostOps0_2 (after Cert.KernelIdeal.Gen.hostOps0_1 (after Cert.KernelIdeal.Gen.hostOps0 UK)) (Proc.devRef .tc Cert.KernelIdeal.main_v62) : TyK Cert.KernelIdeal.main_v62) = after Cert.ReferenceIdeal.ValueP.opsL1 (after Cert.ReferenceIdeal.ValueP.opsEdge UR) (Proc.devRef .tc Cert.ReferenceIdeal.main_v69) := by
  dsimp only [Cert.KernelIdeal.Gen.hostOps0_2, Cert.KernelIdeal.Gen.hostOps0_1, Cert.KernelIdeal.Gen.hostOps0, Cert.ReferenceIdeal.ValueP.opsEdge, Cert.ReferenceIdeal.ValueP.opsL1]
  fold_results
  rw [he, hx]
  rfl

set_option maxHeartbeats 4000000 in
/-- Layer 2: from contents agreeing on the layer's input, the edge weights and the edge list, the propagation is the same term. -/
theorem l2_p1 (hh : (UK (Proc.devRef .tc Cert.KernelIdeal.main_v66) : TyK Cert.KernelIdeal.main_v66) = UR (Proc.devRef .tc Cert.ReferenceIdeal.main_v77)) (hw : (UK (Proc.devRef .tc Cert.KernelIdeal.main_v29) : TyK Cert.KernelIdeal.main_v29) = UR (Proc.devRef .tc Cert.ReferenceIdeal.main_v29)) (he : (UK (Proc.devRef .tc Cert.KernelIdeal.main_arg1) : TyK Cert.KernelIdeal.main_arg1) = UR (Proc.devRef .tc Cert.ReferenceIdeal.main_arg1)) :
    (after Cert.KernelIdeal.Gen.hostOps1 UK (Proc.devRef .tc Cert.KernelIdeal.main_v83) : TyK Cert.KernelIdeal.main_v83) = after Cert.ReferenceIdeal.ValueP.opsL2 UR (Proc.devRef .tc Cert.ReferenceIdeal.main_v97) := by
  dsimp only [Cert.KernelIdeal.Gen.hostOps1, Cert.ReferenceIdeal.ValueP.opsL2]
  fold_results
  rw [hh, hw, he]
  rfl

set_option maxHeartbeats 4000000 in
/-- Layer 2's second Chebyshev term, likewise. -/
theorem l2_p2 (hh : (UK (Proc.devRef .tc Cert.KernelIdeal.main_v66) : TyK Cert.KernelIdeal.main_v66) = UR (Proc.devRef .tc Cert.ReferenceIdeal.main_v77)) (hw : (UK (Proc.devRef .tc Cert.KernelIdeal.main_v29) : TyK Cert.KernelIdeal.main_v29) = UR (Proc.devRef .tc Cert.ReferenceIdeal.main_v29)) (he : (UK (Proc.devRef .tc Cert.KernelIdeal.main_arg1) : TyK Cert.KernelIdeal.main_arg1) = UR (Proc.devRef .tc Cert.ReferenceIdeal.main_arg1)) :
    (after Cert.KernelIdeal.Gen.hostOps1 UK (Proc.devRef .tc Cert.KernelIdeal.main_v99) : TyK Cert.KernelIdeal.main_v99) = after Cert.ReferenceIdeal.ValueP.opsL2 UR (Proc.devRef .tc Cert.ReferenceIdeal.main_v117) := by
  dsimp only [Cert.KernelIdeal.Gen.hostOps1, Cert.ReferenceIdeal.ValueP.opsL2]
  fold_results
  rw [hh, hw, he]
  rfl

set_option maxHeartbeats 4000000 in
/-- Layer 3's propagation. -/
theorem l3_p1 (hh : (UK (Proc.devRef .tc Cert.KernelIdeal.main_v103) : TyK Cert.KernelIdeal.main_v103) = UR (Proc.devRef .tc Cert.ReferenceIdeal.main_v125)) (hw : (UK (Proc.devRef .tc Cert.KernelIdeal.main_v29) : TyK Cert.KernelIdeal.main_v29) = UR (Proc.devRef .tc Cert.ReferenceIdeal.main_v29)) (he : (UK (Proc.devRef .tc Cert.KernelIdeal.main_arg1) : TyK Cert.KernelIdeal.main_arg1) = UR (Proc.devRef .tc Cert.ReferenceIdeal.main_arg1)) :
    (after Cert.KernelIdeal.Gen.hostOps2 UK (Proc.devRef .tc Cert.KernelIdeal.main_v120) : TyK Cert.KernelIdeal.main_v120) = after Cert.ReferenceIdeal.ValueP.opsL3 UR (Proc.devRef .tc Cert.ReferenceIdeal.main_v145) := by
  dsimp only [Cert.KernelIdeal.Gen.hostOps2, Cert.ReferenceIdeal.ValueP.opsL3]
  fold_results
  rw [hh, hw, he]
  rfl

set_option maxHeartbeats 4000000 in
/-- Layer 3's second Chebyshev term. -/
theorem l3_p2 (hh : (UK (Proc.devRef .tc Cert.KernelIdeal.main_v103) : TyK Cert.KernelIdeal.main_v103) = UR (Proc.devRef .tc Cert.ReferenceIdeal.main_v125)) (hw : (UK (Proc.devRef .tc Cert.KernelIdeal.main_v29) : TyK Cert.KernelIdeal.main_v29) = UR (Proc.devRef .tc Cert.ReferenceIdeal.main_v29)) (he : (UK (Proc.devRef .tc Cert.KernelIdeal.main_arg1) : TyK Cert.KernelIdeal.main_arg1) = UR (Proc.devRef .tc Cert.ReferenceIdeal.main_arg1)) :
    (after Cert.KernelIdeal.Gen.hostOps2 UK (Proc.devRef .tc Cert.KernelIdeal.main_v136) : TyK Cert.KernelIdeal.main_v136) = after Cert.ReferenceIdeal.ValueP.opsL3 UR (Proc.devRef .tc Cert.ReferenceIdeal.main_v165) := by
  dsimp only [Cert.KernelIdeal.Gen.hostOps2, Cert.ReferenceIdeal.ValueP.opsL3]
  fold_results
  rw [hh, hw, he]
  rfl

end Cert.Proof.Corr

namespace Cert.Proof.Corr

open Cert.LibStack3 Cert.LibFold3 Cert.Proof.Ref
open Cert.KernelIdeal.Layers
open Idealize.ShloMosaic Idealize.ShloMosaic.TcCoe Idealize.ShloMosaic.StableHlo
open Idealize.SL.Sem

/-! ## The boundaries -/

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The two launch memories agree on the eight arguments, on core `c`. -/
structure Agrees : Prop where
  a0 : (m' ((c.tc : Thread Cert.ReferenceIdeal.nD Cert.ReferenceIdeal.τ).loc Cert.ReferenceIdeal.main_arg0) : TyK Cert.KernelIdeal.main_arg0) = m ((c.tc : Thread Cert.KernelIdeal.nD Cert.KernelIdeal.τ).loc Cert.KernelIdeal.main_arg0)
  a1 : (m' ((c.tc : Thread Cert.ReferenceIdeal.nD Cert.ReferenceIdeal.τ).loc Cert.ReferenceIdeal.main_arg1) : TyK Cert.KernelIdeal.main_arg1) = m ((c.tc : Thread Cert.KernelIdeal.nD Cert.KernelIdeal.τ).loc Cert.KernelIdeal.main_arg1)
  a2 : (m' ((c.tc : Thread Cert.ReferenceIdeal.nD Cert.ReferenceIdeal.τ).loc Cert.ReferenceIdeal.main_arg2) : TyK Cert.KernelIdeal.main_arg2) = m ((c.tc : Thread Cert.KernelIdeal.nD Cert.KernelIdeal.τ).loc Cert.KernelIdeal.main_arg2)
  a3 : (m' ((c.tc : Thread Cert.ReferenceIdeal.nD Cert.ReferenceIdeal.τ).loc Cert.ReferenceIdeal.main_arg3) : TyK Cert.KernelIdeal.main_arg3) = m ((c.tc : Thread Cert.KernelIdeal.nD Cert.KernelIdeal.τ).loc Cert.KernelIdeal.main_arg3)
  a4 : (m' ((c.tc : Thread Cert.ReferenceIdeal.nD Cert.ReferenceIdeal.τ).loc Cert.ReferenceIdeal.main_arg4) : TyK Cert.KernelIdeal.main_arg4) = m ((c.tc : Thread Cert.KernelIdeal.nD Cert.KernelIdeal.τ).loc Cert.KernelIdeal.main_arg4)
  a5 : (m' ((c.tc : Thread Cert.ReferenceIdeal.nD Cert.ReferenceIdeal.τ).loc Cert.ReferenceIdeal.main_arg5) : TyK Cert.KernelIdeal.main_arg5) = m ((c.tc : Thread Cert.KernelIdeal.nD Cert.KernelIdeal.τ).loc Cert.KernelIdeal.main_arg5)
  a6 : (m' ((c.tc : Thread Cert.ReferenceIdeal.nD Cert.ReferenceIdeal.τ).loc Cert.ReferenceIdeal.main_arg6) : TyK Cert.KernelIdeal.main_arg6) = m ((c.tc : Thread Cert.KernelIdeal.nD Cert.KernelIdeal.τ).loc Cert.KernelIdeal.main_arg6)
  a7 : (m' ((c.tc : Thread Cert.ReferenceIdeal.nD Cert.ReferenceIdeal.τ).loc Cert.ReferenceIdeal.main_arg7) : TyK Cert.KernelIdeal.main_arg7) = m ((c.tc : Thread Cert.KernelIdeal.nD Cert.KernelIdeal.τ).loc Cert.KernelIdeal.main_arg7)

/-- The reference's contents at launch, after the edge-weight piece and after each layer's piece. -/
abbrev R0 : Valuation Cert.ReferenceIdeal.τ Cert.ReferenceIdeal.sig (Elt Ideal) := launchContents m' c
abbrev RE : Valuation Cert.ReferenceIdeal.τ Cert.ReferenceIdeal.sig (Elt Ideal) := after Cert.ReferenceIdeal.ValueP.opsEdge (R0 m' c)
abbrev R1 : Valuation Cert.ReferenceIdeal.τ Cert.ReferenceIdeal.sig (Elt Ideal) := after Cert.ReferenceIdeal.ValueP.opsL1 (RE m' c)
abbrev R2 : Valuation Cert.ReferenceIdeal.τ Cert.ReferenceIdeal.sig (Elt Ideal) := after Cert.ReferenceIdeal.ValueP.opsL2 (R1 m' c)
abbrev R3 : Valuation Cert.ReferenceIdeal.τ Cert.ReferenceIdeal.sig (Elt Ideal) := after Cert.ReferenceIdeal.ValueP.opsL3 (R2 m' c)

/-- In the kernel program a reference that the stretches so far do not write, and that is no earlier region's array, still
    holds its launch contents. -/
theorem K_Bd2 (r : Ref Cert.KernelIdeal.sig .tc) (h0 : r ∉ Cert.KernelIdeal.Gen.hostOps0_W) (h1 : r ∉ Cert.KernelIdeal.Gen.hostOps0_1_W) :
    Cert.KernelIdeal.Layers.Bd2 m ρ c (Proc.devRef .tc r) = m ((c.tc : Thread Cert.KernelIdeal.nD Cert.KernelIdeal.τ).loc r) :=
  (StableHlo.after_of_writes_sub Cert.KernelIdeal.Gen.hostOps0_1 _ Cert.KernelIdeal.Gen.hostOps0_1_writes h1).trans
    ((StableHlo.after_of_writes_sub Cert.KernelIdeal.Gen.hostOps0 _ Cert.KernelIdeal.Gen.hostOps0_writes h0).trans rfl)
theorem K_Bd3 (r : Ref Cert.KernelIdeal.sig .tc) (h0 : r ∉ Cert.KernelIdeal.Gen.hostOps0_W) (h1 : r ∉ Cert.KernelIdeal.Gen.hostOps0_1_W) (h2 : r ∉ Cert.KernelIdeal.Gen.hostOps0_2_W) :
    Cert.KernelIdeal.Layers.Bd3 m ρ c (Proc.devRef .tc r) = m ((c.tc : Thread Cert.KernelIdeal.nD Cert.KernelIdeal.τ).loc r) :=
  (StableHlo.after_of_writes_sub Cert.KernelIdeal.Gen.hostOps0_2 _ Cert.KernelIdeal.Gen.hostOps0_2_writes h2).trans (K_Bd2 m ρ c r h0 h1)
theorem K_Bd4 (r : Ref Cert.KernelIdeal.sig .tc) (h0 : r ∉ Cert.KernelIdeal.Gen.hostOps0_W) (h1 : r ∉ Cert.KernelIdeal.Gen.hostOps0_1_W) (h2 : r ∉ Cert.KernelIdeal.Gen.hostOps0_2_W)
    (h3 : ∀ w, Pipeline.arrRef Cert.KernelIdeal.spec0 w ≠ r) :
    Cert.KernelIdeal.Layers.Bd4 m ρ c (Proc.devRef .tc r) = m ((c.tc : Thread Cert.KernelIdeal.nD Cert.KernelIdeal.τ).loc r) :=
  (Bd4_of_ne m ρ c r h3).trans (K_Bd3 m ρ c r h0 h1 h2)
theorem K_Bd6 (r : Ref Cert.KernelIdeal.sig .tc) (h0 : r ∉ Cert.KernelIdeal.Gen.hostOps0_W) (h1 : r ∉ Cert.KernelIdeal.Gen.hostOps0_1_W) (h2 : r ∉ Cert.KernelIdeal.Gen.hostOps0_2_W)
    (h3 : ∀ w, Pipeline.arrRef Cert.KernelIdeal.spec0 w ≠ r) (h4 : r ∉ Cert.KernelIdeal.Gen.hostOps1_W) (h5 : ∀ w, Pipeline.arrRef Cert.KernelIdeal.spec1 w ≠ r) :
    Cert.KernelIdeal.Layers.Bd6 m ρ c (Proc.devRef .tc r) = m ((c.tc : Thread Cert.KernelIdeal.nD Cert.KernelIdeal.τ).loc r) :=
  (Bd6_of_ne m ρ c r h5).trans ((StableHlo.after_of_writes_sub Cert.KernelIdeal.Gen.hostOps1 _ Cert.KernelIdeal.Gen.hostOps1_writes h4).trans (K_Bd4 m ρ c r h0 h1 h2 h3))

/-! ### The arguments at each boundary -/

theorem arg0_Bd0_R0 (hag : Agrees m m' c) : (Cert.KernelIdeal.Layers.Bd0 m ρ c (Proc.devRef .tc Cert.KernelIdeal.main_arg0) : TyK Cert.KernelIdeal.main_arg0) = R0 m' c (Proc.devRef .tc Cert.ReferenceIdeal.main_arg0) :=
  (rfl : (Cert.KernelIdeal.Layers.Bd0 m ρ c (Proc.devRef .tc Cert.KernelIdeal.main_arg0) : TyK Cert.KernelIdeal.main_arg0) = m ((c.tc : Thread Cert.KernelIdeal.nD Cert.KernelIdeal.τ).loc Cert.KernelIdeal.main_arg0)).trans
    ((hag.a0).symm.trans (rfl : (R0 m' c (Proc.devRef .tc Cert.ReferenceIdeal.main_arg0) : TyK Cert.KernelIdeal.main_arg0) = m' ((c.tc : Thread Cert.ReferenceIdeal.nD Cert.ReferenceIdeal.τ).loc Cert.ReferenceIdeal.main_arg0)).symm)
theorem arg1_Bd0_R0 (hag : Agrees m m' c) : (Cert.KernelIdeal.Layers.Bd0 m ρ c (Proc.devRef .tc Cert.KernelIdeal.main_arg1) : TyK Cert.KernelIdeal.main_arg1) = R0 m' c (Proc.devRef .tc Cert.ReferenceIdeal.main_arg1) :=
  (rfl : (Cert.KernelIdeal.Layers.Bd0 m ρ c (Proc.devRef .tc Cert.KernelIdeal.main_arg1) : TyK Cert.KernelIdeal.main_arg1) = m ((c.tc : Thread Cert.KernelIdeal.nD Cert.KernelIdeal.τ).loc Cert.KernelIdeal.main_arg1)).trans
    ((hag.a1).symm.trans (rfl : (R0 m' c (Proc.devRef .tc Cert.ReferenceIdeal.main_arg1) : TyK Cert.KernelIdeal.main_arg1) = m' ((c.tc : Thread Cert.ReferenceIdeal.nD Cert.ReferenceIdeal.τ).loc Cert.ReferenceIdeal.main_arg1)).symm)
theorem arg0_Bd2_RE (hag : Agrees m m' c) : (Cert.KernelIdeal.Layers.Bd2 m ρ c (Proc.devRef .tc Cert.KernelIdeal.main_arg0) : TyK Cert.KernelIdeal.main_arg0) = RE m' c (Proc.devRef .tc Cert.ReferenceIdeal.main_arg0) :=
  (K_Bd2 m ρ c Cert.KernelIdeal.main_arg0 (by decide) (by decide) : (Cert.KernelIdeal.Layers.Bd2 m ρ c (Proc.devRef .tc Cert.KernelIdeal.main_arg0) : TyK Cert.KernelIdeal.main_arg0) = m ((c.tc : Thread Cert.KernelIdeal.nD Cert.KernelIdeal.τ).loc Cert.KernelIdeal.main_arg0)).trans
    ((hag.a0).symm.trans ((opsEdge_keeps_main_arg0 (R0 m' c)).trans rfl : (RE m' c (Proc.devRef .tc Cert.ReferenceIdeal.main_arg0) : TyK Cert.KernelIdeal.main_arg0) = m' ((c.tc : Thread Cert.ReferenceIdeal.nD Cert.ReferenceIdeal.τ).loc Cert.ReferenceIdeal.main_arg0)).symm)
theorem arg2_Bd2_RE (hag : Agrees m m' c) : (Cert.KernelIdeal.Layers.Bd2 m ρ c (Proc.devRef .tc Cert.KernelIdeal.main_arg2) : TyK Cert.KernelIdeal.main_arg2) = RE m' c (Proc.devRef .tc Cert.ReferenceIdeal.main_arg2) :=
  (K_Bd2 m ρ c Cert.KernelIdeal.main_arg2 (by decide) (by decide) : (Cert.KernelIdeal.Layers.Bd2 m ρ c (Proc.devRef .tc Cert.KernelIdeal.main_arg2) : TyK Cert.KernelIdeal.main_arg2) = m ((c.tc : Thread Cert.KernelIdeal.nD Cert.KernelIdeal.τ).loc Cert.KernelIdeal.main_arg2)).trans
    ((hag.a2).symm.trans ((opsEdge_keeps_main_arg2 (R0 m' c)).trans rfl : (RE m' c (Proc.devRef .tc Cert.ReferenceIdeal.main_arg2) : TyK Cert.KernelIdeal.main_arg2) = m' ((c.tc : Thread Cert.ReferenceIdeal.nD Cert.ReferenceIdeal.τ).loc Cert.ReferenceIdeal.main_arg2)).symm)
theorem arg3_Bd2_RE (hag : Agrees m m' c) : (Cert.KernelIdeal.Layers.Bd2 m ρ c (Proc.devRef .tc Cert.KernelIdeal.main_arg3) : TyK Cert.KernelIdeal.main_arg3) = RE m' c (Proc.devRef .tc Cert.ReferenceIdeal.main_arg3) :=
  (K_Bd2 m ρ c Cert.KernelIdeal.main_arg3 (by decide) (by decide) : (Cert.KernelIdeal.Layers.Bd2 m ρ c (Proc.devRef .tc Cert.KernelIdeal.main_arg3) : TyK Cert.KernelIdeal.main_arg3) = m ((c.tc : Thread Cert.KernelIdeal.nD Cert.KernelIdeal.τ).loc Cert.KernelIdeal.main_arg3)).trans
    ((hag.a3).symm.trans ((opsEdge_keeps_main_arg3 (R0 m' c)).trans rfl : (RE m' c (Proc.devRef .tc Cert.ReferenceIdeal.main_arg3) : TyK Cert.KernelIdeal.main_arg3) = m' ((c.tc : Thread Cert.ReferenceIdeal.nD Cert.ReferenceIdeal.τ).loc Cert.ReferenceIdeal.main_arg3)).symm)
theorem arg1_Bd4_R1 (hag : Agrees m m' c) : (Cert.KernelIdeal.Layers.Bd4 m ρ c (Proc.devRef .tc Cert.KernelIdeal.main_arg1) : TyK Cert.KernelIdeal.main_arg1) = R1 m' c (Proc.devRef .tc Cert.ReferenceIdeal.main_arg1) :=
  (K_Bd4 m ρ c Cert.KernelIdeal.main_arg1 (by decide) (by decide) (by decide) (by decide) : (Cert.KernelIdeal.Layers.Bd4 m ρ c (Proc.devRef .tc Cert.KernelIdeal.main_arg1) : TyK Cert.KernelIdeal.main_arg1) = m ((c.tc : Thread Cert.KernelIdeal.nD Cert.KernelIdeal.τ).loc Cert.KernelIdeal.main_arg1)).trans
    ((hag.a1).symm.trans ((opsL1_keeps_main_arg1 (RE m' c)).trans ((opsEdge_keeps_main_arg1 (R0 m' c)).trans rfl) : (R1 m' c (Proc.devRef .tc Cert.ReferenceIdeal.main_arg1) : TyK Cert.KernelIdeal.main_arg1) = m' ((c.tc : Thread Cert.ReferenceIdeal.nD Cert.ReferenceIdeal.τ).loc Cert.ReferenceIdeal.main_arg1)).symm)
theorem arg4_Bd4_R1 (hag : Agrees m m' c) : (Cert.KernelIdeal.Layers.Bd4 m ρ c (Proc.devRef .tc Cert.KernelIdeal.main_arg4) : TyK Cert.KernelIdeal.main_arg4) = R1 m' c (Proc.devRef .tc Cert.ReferenceIdeal.main_arg4) :=
  (K_Bd4 m ρ c Cert.KernelIdeal.main_arg4 (by decide) (by decide) (by decide) (by decide) : (Cert.KernelIdeal.Layers.Bd4 m ρ c (Proc.devRef .tc Cert.KernelIdeal.main_arg4) : TyK Cert.KernelIdeal.main_arg4) = m ((c.tc : Thread Cert.KernelIdeal.nD Cert.KernelIdeal.τ).loc Cert.KernelIdeal.main_arg4)).trans
    ((hag.a4).symm.trans ((opsL1_keeps_main_arg4 (RE m' c)).trans ((opsEdge_keeps_main_arg4 (R0 m' c)).trans rfl) : (R1 m' c (Proc.devRef .tc Cert.ReferenceIdeal.main_arg4) : TyK Cert.KernelIdeal.main_arg4) = m' ((c.tc : Thread Cert.ReferenceIdeal.nD Cert.ReferenceIdeal.τ).loc Cert.ReferenceIdeal.main_arg4)).symm)
theorem arg5_Bd4_R1 (hag : Agrees m m' c) : (Cert.KernelIdeal.Layers.Bd4 m ρ c (Proc.devRef .tc Cert.KernelIdeal.main_arg5) : TyK Cert.KernelIdeal.main_arg5) = R1 m' c (Proc.devRef .tc Cert.ReferenceIdeal.main_arg5) :=
  (K_Bd4 m ρ c Cert.KernelIdeal.main_arg5 (by decide) (by decide) (by decide) (by decide) : (Cert.KernelIdeal.Layers.Bd4 m ρ c (Proc.devRef .tc Cert.KernelIdeal.main_arg5) : TyK Cert.KernelIdeal.main_arg5) = m ((c.tc : Thread Cert.KernelIdeal.nD Cert.KernelIdeal.τ).loc Cert.KernelIdeal.main_arg5)).trans
    ((hag.a5).symm.trans ((opsL1_keeps_main_arg5 (RE m' c)).trans ((opsEdge_keeps_main_arg5 (R0 m' c)).trans rfl) : (R1 m' c (Proc.devRef .tc Cert.ReferenceIdeal.main_arg5) : TyK Cert.KernelIdeal.main_arg5) = m' ((c.tc : Thread Cert.ReferenceIdeal.nD Cert.ReferenceIdeal.τ).loc Cert.ReferenceIdeal.main_arg5)).symm)
theorem arg1_Bd6_R2 (hag : Agrees m m' c) : (Cert.KernelIdeal.Layers.Bd6 m ρ c (Proc.devRef .tc Cert.KernelIdeal.main_arg1) : TyK Cert.KernelIdeal.main_arg1) = R2 m' c (Proc.devRef .tc Cert.ReferenceIdeal.main_arg1) :=
  (K_Bd6 m ρ c Cert.KernelIdeal.main_arg1 (by decide) (by decide) (by decide) (by decide) (by decide) (by decide) : (Cert.KernelIdeal.Layers.Bd6 m ρ c (Proc.devRef .tc Cert.KernelIdeal.main_arg1) : TyK Cert.KernelIdeal.main_arg1) = m ((c.tc : Thread Cert.KernelIdeal.nD Cert.KernelIdeal.τ).loc Cert.KernelIdeal.main_arg1)).trans
    ((hag.a1).symm.trans ((opsL2_keeps_main_arg1 (R1 m' c)).trans ((opsL1_keeps_main_arg1 (RE m' c)).trans ((opsEdge_keeps_main_arg1 (R0 m' c)).trans rfl)) : (R2 m' c (Proc.devRef .tc Cert.ReferenceIdeal.main_arg1) : TyK Cert.KernelIdeal.main_arg1) = m' ((c.tc : Thread Cert.ReferenceIdeal.nD Cert.ReferenceIdeal.τ).loc Cert.ReferenceIdeal.main_arg1)).symm)
theorem arg6_Bd6_R2 (hag : Agrees m m' c) : (Cert.KernelIdeal.Layers.Bd6 m ρ c (Proc.devRef .tc Cert.KernelIdeal.main_arg6) : TyK Cert.KernelIdeal.main_arg6) = R2 m' c (Proc.devRef .tc Cert.ReferenceIdeal.main_arg6) :=
  (K_Bd6 m ρ c Cert.KernelIdeal.main_arg6 (by decide) (by decide) (by decide) (by decide) (by decide) (by decide) : (Cert.KernelIdeal.Layers.Bd6 m ρ c (Proc.devRef .tc Cert.KernelIdeal.main_arg6) : TyK Cert.KernelIdeal.main_arg6) = m ((c.tc : Thread Cert.KernelIdeal.nD Cert.KernelIdeal.τ).loc Cert.KernelIdeal.main_arg6)).trans
    ((hag.a6).symm.trans ((opsL2_keeps_main_arg6 (R1 m' c)).trans ((opsL1_keeps_main_arg6 (RE m' c)).trans ((opsEdge_keeps_main_arg6 (R0 m' c)).trans rfl)) : (R2 m' c (Proc.devRef .tc Cert.ReferenceIdeal.main_arg6) : TyK Cert.KernelIdeal.main_arg6) = m' ((c.tc : Thread Cert.ReferenceIdeal.nD Cert.ReferenceIdeal.τ).loc Cert.ReferenceIdeal.main_arg6)).symm)
theorem arg7_Bd6_R2 (hag : Agrees m m' c) : (Cert.KernelIdeal.Layers.Bd6 m ρ c (Proc.devRef .tc Cert.KernelIdeal.main_arg7) : TyK Cert.KernelIdeal.main_arg7) = R2 m' c (Proc.devRef .tc Cert.ReferenceIdeal.main_arg7) :=
  (K_Bd6 m ρ c Cert.KernelIdeal.main_arg7 (by decide) (by decide) (by decide) (by decide) (by decide) (by decide) : (Cert.KernelIdeal.Layers.Bd6 m ρ c (Proc.devRef .tc Cert.KernelIdeal.main_arg7) : TyK Cert.KernelIdeal.main_arg7) = m ((c.tc : Thread Cert.KernelIdeal.nD Cert.KernelIdeal.τ).loc Cert.KernelIdeal.main_arg7)).trans
    ((hag.a7).symm.trans ((opsL2_keeps_main_arg7 (R1 m' c)).trans ((opsL1_keeps_main_arg7 (RE m' c)).trans ((opsEdge_keeps_main_arg7 (R0 m' c)).trans rfl)) : (R2 m' c (Proc.devRef .tc Cert.ReferenceIdeal.main_arg7) : TyK Cert.KernelIdeal.main_arg7) = m' ((c.tc : Thread Cert.ReferenceIdeal.nD Cert.ReferenceIdeal.τ).loc Cert.ReferenceIdeal.main_arg7)).symm)

/-- The stacked layer of equal arguments. -/
theorem stacked_congr {n d o : ℕ} (act : EReal → EReal) {h h' p p' q q' : (⟨2, ![n, d]⟩ : Shape).Idx → EReal}
    {W W' : (⟨3, ![3, d, o]⟩ : Shape).Idx → EReal} {b b' : (⟨1, ![o]⟩ : Shape).Idx → EReal}
    (e1 : h = h') (e2 : p = p') (e3 : q = q') (e4 : W = W') (e5 : b = b') :
    stackedDense act h p q W b = stackedDense act h' p' q' W' b' := by
  subst e1 e2 e3 e4 e5; rfl

/-! ### Layer 1 -/

/-- After layer 1 the kernel program's output array is the reference's layer-1 result. -/
theorem out1 (hag : Agrees m m' c) : (Cert.KernelIdeal.Layers.Bd4 m ρ c (Proc.devRef .tc Cert.KernelIdeal.main_v66) : TyK Cert.KernelIdeal.main_v66) = R1 m' c (Proc.devRef .tc Cert.ReferenceIdeal.main_v77) := by
  have t1 := l1_p1 (Cert.KernelIdeal.Layers.Bd0 m ρ c) (R0 m' c) (arg0_Bd0_R0 m ρ m' c hag) (arg1_Bd0_R0 m ρ m' c hag)
  have t2 := l1_p2 (Cert.KernelIdeal.Layers.Bd0 m ρ c) (R0 m' c) (arg0_Bd0_R0 m ρ m' c hag) (arg1_Bd0_R0 m ρ m' c hag)
  have hK : (Cert.KernelIdeal.Layers.Bd4 m ρ c (Proc.devRef .tc Cert.KernelIdeal.main_v66) : (⟨2, ![50000, 64]⟩ : Shape).Idx → EReal)
      = stackedDense (n := 50000) (d := 64) (o := 64) relu (Cert.KernelIdeal.Layers.Bd2 m ρ c (Proc.devRef .tc Cert.KernelIdeal.main_arg0)) (Cert.KernelIdeal.Layers.Bd3 m ρ c (Proc.devRef .tc Cert.KernelIdeal.main_v46))
          (Cert.KernelIdeal.Layers.Bd3 m ρ c (Proc.devRef .tc Cert.KernelIdeal.main_v62)) (Cert.KernelIdeal.Layers.Bd2 m ρ c (Proc.devRef .tc Cert.KernelIdeal.main_arg2)) (Cert.KernelIdeal.Layers.Bd2 m ρ c (Proc.devRef .tc Cert.KernelIdeal.main_arg3)) :=
    (Bd4_arr m ρ c 3).trans ((final0 (At3 m ρ) c).trans (kernel_layer0 (Cert.KernelIdeal.Layers.Bd2 m ρ c)))
  exact hK.trans ((stacked_congr relu (arg0_Bd2_RE m ρ m' c hag) t1 t2 (arg2_Bd2_RE m ρ m' c hag) (arg3_Bd2_RE m ρ m' c hag)).trans
    (ref_layer1 (RE m' c)).symm)

/-- The edge weights after layer 1. -/
theorem w1 (hag : Agrees m m' c) : (Cert.KernelIdeal.Layers.Bd4 m ρ c (Proc.devRef .tc Cert.KernelIdeal.main_v29) : TyK Cert.KernelIdeal.main_v29) = R1 m' c (Proc.devRef .tc Cert.ReferenceIdeal.main_v29) :=
  ((Bd4_of_ne m ρ c Cert.KernelIdeal.main_v29 (by decide)).trans
      (edge_term (Cert.KernelIdeal.Layers.Bd0 m ρ c) (R0 m' c) (arg1_Bd0_R0 m ρ m' c hag))).trans
    (opsL1_keeps_main_v29 (RE m' c)).symm

/-! ### Layer 2 -/

theorem out2 (hag : Agrees m m' c) : (Cert.KernelIdeal.Layers.Bd6 m ρ c (Proc.devRef .tc Cert.KernelIdeal.main_v103) : TyK Cert.KernelIdeal.main_v103) = R2 m' c (Proc.devRef .tc Cert.ReferenceIdeal.main_v125) := by
  have t1 := l2_p1 (Cert.KernelIdeal.Layers.Bd4 m ρ c) (R1 m' c) (out1 m ρ m' c hag) (w1 m ρ m' c hag) (arg1_Bd4_R1 m ρ m' c hag)
  have t2 := l2_p2 (Cert.KernelIdeal.Layers.Bd4 m ρ c) (R1 m' c) (out1 m ρ m' c hag) (w1 m ρ m' c hag) (arg1_Bd4_R1 m ρ m' c hag)
  have hK : (Cert.KernelIdeal.Layers.Bd6 m ρ c (Proc.devRef .tc Cert.KernelIdeal.main_v103) : (⟨2, ![50000, 64]⟩ : Shape).Idx → EReal)
      = stackedDense (n := 50000) (d := 64) (o := 64) relu (Cert.KernelIdeal.Layers.Bd4 m ρ c (Proc.devRef .tc Cert.KernelIdeal.main_v66)) (Cert.KernelIdeal.Layers.Bd5 m ρ c (Proc.devRef .tc Cert.KernelIdeal.main_v83))
          (Cert.KernelIdeal.Layers.Bd5 m ρ c (Proc.devRef .tc Cert.KernelIdeal.main_v99)) (Cert.KernelIdeal.Layers.Bd4 m ρ c (Proc.devRef .tc Cert.KernelIdeal.main_arg4)) (Cert.KernelIdeal.Layers.Bd4 m ρ c (Proc.devRef .tc Cert.KernelIdeal.main_arg5)) :=
    (Bd6_arr m ρ c 3).trans ((final1 (At5 m ρ) c).trans (kernel_layer1 (Cert.KernelIdeal.Layers.Bd4 m ρ c)))
  exact hK.trans ((stacked_congr relu (out1 m ρ m' c hag) t1 t2 (arg4_Bd4_R1 m ρ m' c hag) (arg5_Bd4_R1 m ρ m' c hag)).trans
    (ref_layer2 (R1 m' c)).symm)

theorem w2 (hag : Agrees m m' c) : (Cert.KernelIdeal.Layers.Bd6 m ρ c (Proc.devRef .tc Cert.KernelIdeal.main_v29) : TyK Cert.KernelIdeal.main_v29) = R2 m' c (Proc.devRef .tc Cert.ReferenceIdeal.main_v29) :=
  ((Bd6_of_ne m ρ c Cert.KernelIdeal.main_v29 (by decide)).trans
      ((StableHlo.after_of_writes_sub Cert.KernelIdeal.Gen.hostOps1 _ Cert.KernelIdeal.Gen.hostOps1_writes (by decide)).trans (w1 m ρ m' c hag))).trans
    (opsL2_keeps_main_v29 (R1 m' c)).symm

/-! ### Layer 3 -/

theorem out3 (hag : Agrees m m' c) : (Cert.KernelIdeal.Layers.Bd8 m ρ c (Proc.devRef .tc Cert.KernelIdeal.main_v140) : TyK Cert.KernelIdeal.main_v140) = R3 m' c (Proc.devRef .tc Cert.ReferenceIdeal.main_v172) := by
  have t1 := l3_p1 (Cert.KernelIdeal.Layers.Bd6 m ρ c) (R2 m' c) (out2 m ρ m' c hag) (w2 m ρ m' c hag) (arg1_Bd6_R2 m ρ m' c hag)
  have t2 := l3_p2 (Cert.KernelIdeal.Layers.Bd6 m ρ c) (R2 m' c) (out2 m ρ m' c hag) (w2 m ρ m' c hag) (arg1_Bd6_R2 m ρ m' c hag)
  have hK : (Cert.KernelIdeal.Layers.Bd8 m ρ c (Proc.devRef .tc Cert.KernelIdeal.main_v140) : (⟨2, ![50000, 32]⟩ : Shape).Idx → EReal)
      = stackedDense (n := 50000) (d := 64) (o := 32) (fun x => x) (Cert.KernelIdeal.Layers.Bd6 m ρ c (Proc.devRef .tc Cert.KernelIdeal.main_v103)) (Cert.KernelIdeal.Layers.Bd7 m ρ c (Proc.devRef .tc Cert.KernelIdeal.main_v120))
          (Cert.KernelIdeal.Layers.Bd7 m ρ c (Proc.devRef .tc Cert.KernelIdeal.main_v136)) (Cert.KernelIdeal.Layers.Bd6 m ρ c (Proc.devRef .tc Cert.KernelIdeal.main_arg6)) (Cert.KernelIdeal.Layers.Bd6 m ρ c (Proc.devRef .tc Cert.KernelIdeal.main_arg7)) :=
    (Bd8_arr m ρ c 3).trans ((final2 (At7 m ρ) c).trans (kernel_layer2 (Cert.KernelIdeal.Layers.Bd6 m ρ c)))
  exact hK.trans ((stacked_congr (fun x => x) (out2 m ρ m' c hag) t1 t2 (arg6_Bd6_R2 m ρ m' c hag) (arg7_Bd6_R2 m ρ m' c hag)).trans
    (ref_layer3 (R2 m' c)).symm)

/-- THE RESULT: what the reference's fold leaves in its result buffer is what the kernel program's last region leaves in its. -/
theorem result_eq (hag : Agrees m m' c) :
    (after (Cert.ReferenceIdeal.ValueP.ops (F := Ideal)) (launchContents m' c) (Proc.devRef .tc Cert.ReferenceIdeal.main_v172) : TyK Cert.KernelIdeal.main_v140)
      = Cert.KernelIdeal.Layers.Bd8 m ρ c (Proc.devRef .tc Cert.KernelIdeal.main_v140) := by
  rw [fold_cut]
  exact (out3 m ρ m' c hag).symm

end Cert.Proof.Corr

end
-- ==== Proof.lean ====
/-
  A three-layer Chebyshev graph network (order 3, symmetric normalisation) on 50000 nodes and 800000 edges: the kernel
  program runs each layer's dense part — the node features h, their propagation L̂h and the term 2·L̂(L̂h) − h laid side by
  side, times the weight stack flattened, plus the bias, then the rectifier — as one pipelined region of five row blocks,
  and keeps the edge weights, the gathers and the scatter-adds on the host; the reference sums three products, one per
  weight slab. The certificate: both programs (and the word-level kernel program) run to the end without a fault and
  leave their arguments unchanged; nothing was rewritten between the word-level program and its idealization; and over
  the extended reals the two results are equal entry by entry — the propagations are the same host operations of the
  same arrays, and a sum over 192 = 64 + 64 + 64 positions is the sum of its three runs, which only needs + to be
  commutative and associative, so the inputs' finiteness is not used.
-/
import proofs.«119506_j40063454937588_1_alg».proof.Defs
import proofs.«119506_j40063454937588_1_alg».proof.Proof.Gen.Kernel
import proofs.«119506_j40063454937588_1_alg».proof.Proof.Gen.KernelIdeal
import proofs.«119506_j40063454937588_1_alg».proof.Proof.Gen.ReferenceIdeal
import proofs.«119506_j40063454937588_1_alg».proof.Proof.Gen.Pre_finite_inputs
import proofs.«119506_j40063454937588_1_alg».proof.Proof.WordRun
import proofs.«119506_j40063454937588_1_alg».proof.Proof.IdealRun
import proofs.«119506_j40063454937588_1_alg».proof.Proof.RefFrame
import proofs.«119506_j40063454937588_1_alg».proof.Proof.Corr
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments. -/
theorem frame_word : Cert.frame_Kernel := fun m ρ _ => Cert.Kernel.Layers.frame (F := Bits) m ρ

/-- The idealized kernel program runs and keeps its arguments. -/
theorem frame_ideal : Cert.frame_KernelIdeal := fun m ρ _ => Cert.KernelIdeal.Layers.frame (F := Ideal) m ρ

/-- Over the extended reals, from memories agreeing on the arguments, both programs run, keep their arguments, and end with
    the same result array: the kernel program's last region's output, which is the reference's fold at its result buffer. -/
theorem algebraic : Cert.algebraic_KernelIdeal_ReferenceIdeal := by
  intro m ρ m' ρ' _ hagree
  refine ⟨fun c => Cert.KernelIdeal.Layers.Bd8 m ρ c (Proc.devRef .tc Cert.KernelIdeal.main_v140), ?_, ?_⟩
  · exact (θ_run Cert.KernelIdeal.defs _ _).mono (fun r h c =>
      ⟨h c _ (Cert.KernelIdeal.Layers.mem_uc Cert.KernelIdeal.main_v140 (by decide)),
       (h c _ (Cert.KernelIdeal.Layers.mem_uc Cert.KernelIdeal.main_arg0 (by decide))).trans (Cert.KernelIdeal.Layers.Bd8_main_arg0 m ρ c),
       (h c _ (Cert.KernelIdeal.Layers.mem_uc Cert.KernelIdeal.main_arg1 (by decide))).trans (Cert.KernelIdeal.Layers.Bd8_main_arg1 m ρ c),
       (h c _ (Cert.KernelIdeal.Layers.mem_uc Cert.KernelIdeal.main_arg2 (by decide))).trans (Cert.KernelIdeal.Layers.Bd8_main_arg2 m ρ c),
       (h c _ (Cert.KernelIdeal.Layers.mem_uc Cert.KernelIdeal.main_arg3 (by decide))).trans (Cert.KernelIdeal.Layers.Bd8_main_arg3 m ρ c),
       (h c _ (Cert.KernelIdeal.Layers.mem_uc Cert.KernelIdeal.main_arg4 (by decide))).trans (Cert.KernelIdeal.Layers.Bd8_main_arg4 m ρ c),
       (h c _ (Cert.KernelIdeal.Layers.mem_uc Cert.KernelIdeal.main_arg5 (by decide))).trans (Cert.KernelIdeal.Layers.Bd8_main_arg5 m ρ c),
       (h c _ (Cert.KernelIdeal.Layers.mem_uc Cert.KernelIdeal.main_arg6 (by decide))).trans (Cert.KernelIdeal.Layers.Bd8_main_arg6 m ρ c),
       (h c _ (Cert.KernelIdeal.Layers.mem_uc Cert.KernelIdeal.main_arg7 (by decide))).trans (Cert.KernelIdeal.Layers.Bd8_main_arg7 m ρ c)⟩)
      (Cert.KernelIdeal.Layers.run_all (F := Ideal) m ρ)
  · refine (θ_run Cert.ReferenceIdeal.defs _ _).mono (fun r h c => ?_) (Cert.ReferenceIdeal.ValueP.run_fold (F := Ideal) m' ρ')
    obtain ⟨h0, h1, h2, h3, h4, h5, h6, h7⟩ := hagree c
    exact ⟨(h c Cert.ReferenceIdeal.main_v172).trans (Cert.Proof.Corr.result_eq m ρ m' c ⟨h0, h1, h2, h3, h4, h5, h6, h7⟩),
      (h c Cert.ReferenceIdeal.main_arg0).trans (Cert.Proof.Ref.ops_keeps_main_arg0 _),
      (h c Cert.ReferenceIdeal.main_arg1).trans (Cert.Proof.Ref.ops_keeps_main_arg1 _),
      (h c Cert.ReferenceIdeal.main_arg2).trans (Cert.Proof.Ref.ops_keeps_main_arg2 _),
      (h c Cert.ReferenceIdeal.main_arg3).trans (Cert.Proof.Ref.ops_keeps_main_arg3 _),
      (h c Cert.ReferenceIdeal.main_arg4).trans (Cert.Proof.Ref.ops_keeps_main_arg4 _),
      (h c Cert.ReferenceIdeal.main_arg5).trans (Cert.Proof.Ref.ops_keeps_main_arg5 _),
      (h c Cert.ReferenceIdeal.main_arg6).trans (Cert.Proof.Ref.ops_keeps_main_arg6 _),
      (h c Cert.ReferenceIdeal.main_arg7).trans (Cert.Proof.Ref.ops_keeps_main_arg7 _)⟩

theorem claim : Cert.Claim := ⟨Cert.Kernel.Gen.facts, Cert.KernelIdeal.Gen.facts, Cert.ReferenceIdeal.Gen.facts, Cert.Pre_finite_inputs.Gen.facts,
  frame_word, frame_ideal, Cert.Proof.Ref.frame, trivial, algebraic⟩

end Cert.Proof

end
